-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v236) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8000000x3 : Shape := ⟨2, ![8000000, 3]⟩
abbrev S205x205x13x3 : Shape := ⟨4, ![205, 205, 13, 3]⟩
abbrev S_ : Shape := ⟨0, ![]⟩

class Facts : Prop where
  bcast_S_S8000000x3 : S_.BroadcastsInDim S8000000x3 (![] : Fin 0 → Fin S8000000x3.rank)
  reducesTo_S8000000x3_S_d0_1 : S8000000x3.ReducesTo [0, 1] S_
  h_S_ : 0 < S_.numel
  bcast_S_S205x205x13x3 : S_.BroadcastsInDim S205x205x13x3 (![] : Fin 0 → Fin S205x205x13x3.rank)
  reducesTo_S205x205x13x3_S_d0_1_2_3 : S205x205x13x3.ReducesTo [0, 1, 2, 3] S_

variable [Facts]

def fn {F : FTy → Type} [FloatOps F] (main_arg0 : FVec F S8000000x3 .f32) (main_arg1 : FVec F S205x205x13x3 .f32) : IVec S_ 1 :=
  let main_v0 : FVec F S8000000x3 .f32 := Host.absf main_arg0
  let main_cst : FVec F S_ .f32 := constant S_ .f32 0x7F800000#32
  let main_v1 : FVec F S8000000x3 .f32 := broadcastInDim S8000000x3 ![] bcast_S_S8000000x3 main_cst
  let main_v2 : IVec S8000000x3 1 := cmpf .olt main_v0 main_v1
  let main_c : IVec S_ 1 := constantI S_ 1 1#1
  let main_v3 : IVec S_ 1 := (fun x v => Host.reduce IntOp.andi x v reducesTo_S8000000x3_S_d0_1 h_S_) main_v2 main_c
  let main_v4 : FVec F S205x205x13x3 .f32 := Host.absf main_arg1
  let main_cst_0 : FVec F S_ .f32 := constant S_ .f32 0x7F800000#32
  let main_v5 : FVec F S205x205x13x3 .f32 := broadcastInDim S205x205x13x3 ![] bcast_S_S205x205x13x3 main_cst_0
  let main_v6 : IVec S205x205x13x3 1 := cmpf .olt main_v4 main_v5
  let main_c_1 : IVec S_ 1 := constantI S_ 1 1#1
  let main_v7 : IVec S_ 1 := (fun x v => Host.reduce IntOp.andi x v reducesTo_S205x205x13x3_S_d0_1_2_3 h_S_) main_v6 main_c_1
  let main_v8 : IVec S_ 1 := andi main_v3 main_v7
  main_v8
-- ==== Kernel.lean ====
abbrev S8000000x3 : Shape := ⟨2, ![8000000, 3]⟩
abbrev S205x205x13x3 : Shape := ⟨4, ![205, 205, 13, 3]⟩
abbrev S3 : Shape := ⟨1, ![3]⟩
abbrev S3x1 : Shape := ⟨2, ![3, 1]⟩
abbrev S3x8000000 : Shape := ⟨2, ![3, 8000000]⟩
abbrev S_ : Shape := ⟨0, ![]⟩
abbrev S1x8000000 : Shape := ⟨2, ![1, 8000000]⟩
abbrev S8000000 : Shape := ⟨1, ![8000000]⟩
abbrev S546325x3 : Shape := ⟨2, ![546325, 3]⟩
abbrev S3x546325 : Shape := ⟨2, ![3, 546325]⟩
abbrev S8000000x1 : Shape := ⟨2, ![8000000, 1]⟩
abbrev S1 : Shape := ⟨1, ![1]⟩
abbrev S1x1 : Shape := ⟨2, ![1, 1]⟩
abbrev S27x8000000 : Shape := ⟨2, ![27, 8000000]⟩
abbrev S27x80000 : Shape := ⟨2, ![27, 80000]⟩
abbrev S3x80000 : Shape := ⟨2, ![3, 80000]⟩
abbrev S1x80000 : Shape := ⟨2, ![1, 80000]⟩

abbrev nBuf : Space → Nat
  | .hbm => 296
  | .vmem => 4
  | .smem => 0
  | _ => 0

abbrev hbmTy0_0 (i : Nat) : BufTy := match i % 128 with
  | 0 => ⟨S8000000x3, .f32⟩
  | 1 => ⟨S205x205x13x3, .f32⟩
  | 2 => ⟨S3, .f32⟩
  | 3 => ⟨S3, .i32⟩
  | 4 => ⟨S3x1, .f32⟩
  | 5 => ⟨S3x1, .i32⟩
  | 6 => ⟨S3x8000000, .f32⟩
  | 7 => ⟨S3x8000000, .f32⟩
  | 8 => ⟨S3x8000000, .f32⟩
  | 9 => ⟨S_, .f32⟩
  | 10 => ⟨S3x8000000, .f32⟩
  | 11 => ⟨S3x8000000, .f32⟩
  | 12 => ⟨S3x8000000, .f32⟩
  | 13 => ⟨S3x8000000, .i32⟩
  | 14 => ⟨S_, .i32⟩
  | 15 => ⟨S_, .i32⟩
  | 16 => ⟨S3x8000000, .i32⟩
  | 17 => ⟨S3x8000000, .i32⟩
  | 18 => ⟨S3x8000000, .i32⟩
  | 19 => ⟨S3x8000000, .i32⟩
  | 20 => ⟨S_, .i32⟩
  | 21 => ⟨S3x8000000, .i32⟩
  | 22 => ⟨S3x8000000, .i32⟩
  | 23 => ⟨S_, .i32⟩
  | 24 => ⟨S_, .i32⟩
  | 25 => ⟨S3x8000000, .i32⟩
  | 26 => ⟨S3x8000000, .i32⟩
  | 27 => ⟨S3x8000000, .i32⟩
  | 28 => ⟨S3x8000000, .i32⟩
  | 29 => ⟨S3x8000000, .f32⟩
  | 30 => ⟨S3x8000000, .f32⟩
  | 31 => ⟨S1x8000000, .i32⟩
  | 32 => ⟨S8000000, .i32⟩
  | 33 => ⟨S1x8000000, .i32⟩
  | 34 => ⟨S8000000, .i32⟩
  | 35 => ⟨S1x8000000, .i32⟩
  | 36 => ⟨S8000000, .i32⟩
  | 37 => ⟨S1x8000000, .i32⟩
  | 38 => ⟨S8000000, .i32⟩
  | 39 => ⟨S1x8000000, .i32⟩
  | 40 => ⟨S8000000, .i32⟩
  | 41 => ⟨S1x8000000, .i32⟩
  | 42 => ⟨S8000000, .i32⟩
  | 43 => ⟨S546325x3, .f32⟩
  | 44 => ⟨S3x546325, .f32⟩
  | 45 => ⟨S_, .i32⟩
  | 46 => ⟨S8000000, .i32⟩
  | 47 => ⟨S8000000, .i32⟩
  | 48 => ⟨S_, .i32⟩
  | 49 => ⟨S8000000, .i32⟩
  | 50 => ⟨S8000000, .i32⟩
  | 51 => ⟨S8000000, .i32⟩
  | 52 => ⟨S8000000, .i32⟩
  | 53 => ⟨S_, .i32⟩
  | 54 => ⟨S8000000, .i32⟩
  | 55 => ⟨S8000000, .i32⟩
  | 56 => ⟨S_, .i32⟩
  | 57 => ⟨S8000000, .i32⟩
  | 58 => ⟨S8000000, .i32⟩
  | 59 => ⟨S8000000, .i32⟩
  | 60 => ⟨S8000000, .i32⟩
  | 61 => ⟨S_, .i32⟩
  | 62 => ⟨S8000000, .i32⟩
  | 63 => ⟨S8000000, .i32⟩
  | 64 => ⟨S_, .i32⟩
  | 65 => ⟨S8000000, .i32⟩
  | 66 => ⟨S8000000, .i32⟩
  | 67 => ⟨S8000000, .i32⟩
  | 68 => ⟨S8000000, .i32⟩
  | 69 => ⟨S_, .i32⟩
  | 70 => ⟨S8000000, .i32⟩
  | 71 => ⟨S8000000, .i32⟩
  | 72 => ⟨S_, .i32⟩
  | 73 => ⟨S8000000, .i32⟩
  | 74 => ⟨S8000000, .i32⟩
  | 75 => ⟨S8000000, .i32⟩
  | 76 => ⟨S8000000, .i32⟩
  | 77 => ⟨S_, .i32⟩
  | 78 => ⟨S8000000, .i32⟩
  | 79 => ⟨S8000000, .i32⟩
  | 80 => ⟨S_, .i32⟩
  | 81 => ⟨S8000000, .i32⟩
  | 82 => ⟨S8000000, .i32⟩
  | 83 => ⟨S8000000, .i32⟩
  | 84 => ⟨S8000000, .i32⟩
  | 85 => ⟨S_, .i32⟩
  | 86 => ⟨S8000000, .i32⟩
  | 87 => ⟨S8000000, .i32⟩
  | 88 => ⟨S_, .i32⟩
  | 89 => ⟨S8000000, .i32⟩
  | 90 => ⟨S8000000, .i32⟩
  | 91 => ⟨S8000000, .i32⟩
  | 92 => ⟨S8000000, .i32⟩
  | 93 => ⟨S_, .i32⟩
  | 94 => ⟨S8000000, .i32⟩
  | 95 => ⟨S8000000, .i32⟩
  | 96 => ⟨S_, .i32⟩
  | 97 => ⟨S8000000, .i32⟩
  | 98 => ⟨S8000000, .i32⟩
  | 99 => ⟨S8000000, .i32⟩
  | 100 => ⟨S8000000, .i32⟩
  | 101 => ⟨S_, .i32⟩
  | 102 => ⟨S8000000, .i32⟩
  | 103 => ⟨S8000000, .i32⟩
  | 104 => ⟨S_, .i32⟩
  | 105 => ⟨S8000000, .i32⟩
  | 106 => ⟨S8000000, .i32⟩
  | 107 => ⟨S8000000, .i32⟩
  | 108 => ⟨S8000000, .i32⟩
  | 109 => ⟨S_, .i32⟩
  | 110 => ⟨S8000000, .i32⟩
  | 111 => ⟨S8000000, .i1⟩
  | 112 => ⟨S_, .i32⟩
  | 113 => ⟨S8000000, .i32⟩
  | 114 => ⟨S8000000, .i32⟩
  | 115 => ⟨S8000000, .i32⟩
  | 116 => ⟨S8000000x1, .i32⟩
  | 117 => ⟨S1, .i32⟩
  | 118 => ⟨S_, .i32⟩
  | 119 => ⟨S8000000x1, .i32⟩
  | 120 => ⟨S8000000x1, .i1⟩
  | 121 => ⟨S1x1, .i32⟩
  | 122 => ⟨S8000000x1, .i32⟩
  | 123 => ⟨S8000000x1, .i1⟩
  | 124 => ⟨S8000000x1, .i1⟩
  | 125 => ⟨S_, .i1⟩
  | 126 => ⟨S8000000, .i1⟩
  | 127 => ⟨S3x8000000, .f32⟩
  | _ => ⟨S8000000x3, .f32⟩

abbrev hbmTy0_1 (i : Nat) : BufTy := match i % 128 with
  | 0 => ⟨S3x8000000, .i1⟩
  | 1 => ⟨S_, .f32⟩
  | 2 => ⟨S3x8000000, .f32⟩
  | 3 => ⟨S3x8000000, .f32⟩
  | 4 => ⟨S_, .i32⟩
  | 5 => ⟨S8000000, .i32⟩
  | 6 => ⟨S8000000, .i1⟩
  | 7 => ⟨S_, .i32⟩
  | 8 => ⟨S8000000, .i32⟩
  | 9 => ⟨S8000000, .i32⟩
  | 10 => ⟨S8000000, .i32⟩
  | 11 => ⟨S8000000x1, .i32⟩
  | 12 => ⟨S1, .i32⟩
  | 13 => ⟨S_, .i32⟩
  | 14 => ⟨S8000000x1, .i32⟩
  | 15 => ⟨S8000000x1, .i1⟩
  | 16 => ⟨S1x1, .i32⟩
  | 17 => ⟨S8000000x1, .i32⟩
  | 18 => ⟨S8000000x1, .i1⟩
  | 19 => ⟨S8000000x1, .i1⟩
  | 20 => ⟨S_, .i1⟩
  | 21 => ⟨S8000000, .i1⟩
  | 22 => ⟨S3x8000000, .f32⟩
  | 23 => ⟨S3x8000000, .i1⟩
  | 24 => ⟨S_, .f32⟩
  | 25 => ⟨S3x8000000, .f32⟩
  | 26 => ⟨S3x8000000, .f32⟩
  | 27 => ⟨S_, .i32⟩
  | 28 => ⟨S8000000, .i32⟩
  | 29 => ⟨S8000000, .i1⟩
  | 30 => ⟨S_, .i32⟩
  | 31 => ⟨S8000000, .i32⟩
  | 32 => ⟨S8000000, .i32⟩
  | 33 => ⟨S8000000, .i32⟩
  | 34 => ⟨S8000000x1, .i32⟩
  | 35 => ⟨S1, .i32⟩
  | 36 => ⟨S_, .i32⟩
  | 37 => ⟨S8000000x1, .i32⟩
  | 38 => ⟨S8000000x1, .i1⟩
  | 39 => ⟨S1x1, .i32⟩
  | 40 => ⟨S8000000x1, .i32⟩
  | 41 => ⟨S8000000x1, .i1⟩
  | 42 => ⟨S8000000x1, .i1⟩
  | 43 => ⟨S_, .i1⟩
  | 44 => ⟨S8000000, .i1⟩
  | 45 => ⟨S3x8000000, .f32⟩
  | 46 => ⟨S3x8000000, .i1⟩
  | 47 => ⟨S_, .f32⟩
  | 48 => ⟨S3x8000000, .f32⟩
  | 49 => ⟨S3x8000000, .f32⟩
  | 50 => ⟨S_, .i32⟩
  | 51 => ⟨S8000000, .i32⟩
  | 52 => ⟨S8000000, .i1⟩
  | 53 => ⟨S_, .i32⟩
  | 54 => ⟨S8000000, .i32⟩
  | 55 => ⟨S8000000, .i32⟩
  | 56 => ⟨S8000000, .i32⟩
  | 57 => ⟨S8000000x1, .i32⟩
  | 58 => ⟨S1, .i32⟩
  | 59 => ⟨S_, .i32⟩
  | 60 => ⟨S8000000x1, .i32⟩
  | 61 => ⟨S8000000x1, .i1⟩
  | 62 => ⟨S1x1, .i32⟩
  | 63 => ⟨S8000000x1, .i32⟩
  | 64 => ⟨S8000000x1, .i1⟩
  | 65 => ⟨S8000000x1, .i1⟩
  | 66 => ⟨S_, .i1⟩
  | 67 => ⟨S8000000, .i1⟩
  | 68 => ⟨S3x8000000, .f32⟩
  | 69 => ⟨S3x8000000, .i1⟩
  | 70 => ⟨S_, .f32⟩
  | 71 => ⟨S3x8000000, .f32⟩
  | 72 => ⟨S3x8000000, .f32⟩
  | 73 => ⟨S_, .i32⟩
  | 74 => ⟨S8000000, .i32⟩
  | 75 => ⟨S8000000, .i1⟩
  | 76 => ⟨S_, .i32⟩
  | 77 => ⟨S8000000, .i32⟩
  | 78 => ⟨S8000000, .i32⟩
  | 79 => ⟨S8000000, .i32⟩
  | 80 => ⟨S8000000x1, .i32⟩
  | 81 => ⟨S1, .i32⟩
  | 82 => ⟨S_, .i32⟩
  | 83 => ⟨S8000000x1, .i32⟩
  | 84 => ⟨S8000000x1, .i1⟩
  | 85 => ⟨S1x1, .i32⟩
  | 86 => ⟨S8000000x1, .i32⟩
  | 87 => ⟨S8000000x1, .i1⟩
  | 88 => ⟨S8000000x1, .i1⟩
  | 89 => ⟨S_, .i1⟩
  | 90 => ⟨S8000000, .i1⟩
  | 91 => ⟨S3x8000000, .f32⟩
  | 92 => ⟨S3x8000000, .i1⟩
  | 93 => ⟨S_, .f32⟩
  | 94 => ⟨S3x8000000, .f32⟩
  | 95 => ⟨S3x8000000, .f32⟩
  | 96 => ⟨S_, .i32⟩
  | 97 => ⟨S8000000, .i32⟩
  | 98 => ⟨S8000000, .i1⟩
  | 99 => ⟨S_, .i32⟩
  | 100 => ⟨S8000000, .i32⟩
  | 101 => ⟨S8000000, .i32⟩
  | 102 => ⟨S8000000, .i32⟩
  | 103 => ⟨S8000000x1, .i32⟩
  | 104 => ⟨S1, .i32⟩
  | 105 => ⟨S_, .i32⟩
  | 106 => ⟨S8000000x1, .i32⟩
  | 107 => ⟨S8000000x1, .i1⟩
  | 108 => ⟨S1x1, .i32⟩
  | 109 => ⟨S8000000x1, .i32⟩
  | 110 => ⟨S8000000x1, .i1⟩
  | 111 => ⟨S8000000x1, .i1⟩
  | 112 => ⟨S_, .i1⟩
  | 113 => ⟨S8000000, .i1⟩
  | 114 => ⟨S3x8000000, .f32⟩
  | 115 => ⟨S3x8000000, .i1⟩
  | 116 => ⟨S_, .f32⟩
  | 117 => ⟨S3x8000000, .f32⟩
  | 118 => ⟨S3x8000000, .f32⟩
  | 119 => ⟨S_, .i32⟩
  | 120 => ⟨S8000000, .i32⟩
  | 121 => ⟨S8000000, .i1⟩
  | 122 => ⟨S_, .i32⟩
  | 123 => ⟨S8000000, .i32⟩
  | 124 => ⟨S8000000, .i32⟩
  | 125 => ⟨S8000000, .i32⟩
  | 126 => ⟨S8000000x1, .i32⟩
  | 127 => ⟨S1, .i32⟩
  | _ => ⟨S8000000x3, .f32⟩

abbrev hbmTy0_2 (i : Nat) : BufTy := match i % 128 with
  | 0 => ⟨S_, .i32⟩
  | 1 => ⟨S8000000x1, .i32⟩
  | 2 => ⟨S8000000x1, .i1⟩
  | 3 => ⟨S1x1, .i32⟩
  | 4 => ⟨S8000000x1, .i32⟩
  | 5 => ⟨S8000000x1, .i1⟩
  | 6 => ⟨S8000000x1, .i1⟩
  | 7 => ⟨S_, .i1⟩
  | 8 => ⟨S8000000, .i1⟩
  | 9 => ⟨S3x8000000, .f32⟩
  | 10 => ⟨S3x8000000, .i1⟩
  | 11 => ⟨S_, .f32⟩
  | 12 => ⟨S3x8000000, .f32⟩
  | 13 => ⟨S3x8000000, .f32⟩
  | 14 => ⟨S_, .i32⟩
  | 15 => ⟨S8000000, .i32⟩
  | 16 => ⟨S8000000, .i1⟩
  | 17 => ⟨S_, .i32⟩
  | 18 => ⟨S8000000, .i32⟩
  | 19 => ⟨S8000000, .i32⟩
  | 20 => ⟨S8000000, .i32⟩
  | 21 => ⟨S8000000x1, .i32⟩
  | 22 => ⟨S1, .i32⟩
  | 23 => ⟨S_, .i32⟩
  | 24 => ⟨S8000000x1, .i32⟩
  | 25 => ⟨S8000000x1, .i1⟩
  | 26 => ⟨S1x1, .i32⟩
  | 27 => ⟨S8000000x1, .i32⟩
  | 28 => ⟨S8000000x1, .i1⟩
  | 29 => ⟨S8000000x1, .i1⟩
  | 30 => ⟨S_, .i1⟩
  | 31 => ⟨S8000000, .i1⟩
  | 32 => ⟨S3x8000000, .f32⟩
  | 33 => ⟨S3x8000000, .i1⟩
  | 34 => ⟨S_, .f32⟩
  | 35 => ⟨S3x8000000, .f32⟩
  | 36 => ⟨S3x8000000, .f32⟩
  | 37 => ⟨S27x8000000, .f32⟩
  | 38 => ⟨S3x8000000, .f32⟩
  | 39 => ⟨S8000000x3, .f32⟩
  | _ => ⟨S8000000x3, .f32⟩

abbrev hbmTy (i : Nat) : BufTy := match i / 128 with
  | 0 => hbmTy0_0 i
  | 1 => hbmTy0_1 i
  | 2 => hbmTy0_2 i
  | _ => ⟨S8000000x3, .f32⟩

abbrev bufTy : (tb : Table) → Fin (tcTables nBuf tb) → BufTy
  | .hbm, ⟨i, _⟩ => hbmTy i
  | .local _ .vmem, ⟨0, _⟩ => ⟨S27x80000, .f32⟩
  | .local _ .vmem, ⟨1, _⟩ => ⟨S27x80000, .f32⟩
  | .local _ .vmem, ⟨2, _⟩ => ⟨S3x80000, .f32⟩
  | .local _ .vmem, ⟨3, _⟩ => ⟨S3x80000, .f32⟩
  | _, _ => ⟨S8000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_c_3 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_4 : Ref sig .tc := ⟨.hbm, 45, rfl⟩
abbrev main_v29 : Ref sig .tc := ⟨.hbm, 46, rfl⟩
abbrev main_v30 : Ref sig .tc := ⟨.hbm, 47, rfl⟩
abbrev main_c_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_6 : Ref sig .tc := ⟨.hbm, 53, rfl⟩
abbrev main_v35 : Ref sig .tc := ⟨.hbm, 54, rfl⟩
abbrev main_v36 : Ref sig .tc := ⟨.hbm, 55, rfl⟩
abbrev main_c_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_8 : Ref sig .tc := ⟨.hbm, 61, rfl⟩
abbrev main_v41 : Ref sig .tc := ⟨.hbm, 62, rfl⟩
abbrev main_v42 : Ref sig .tc := ⟨.hbm, 63, rfl⟩
abbrev main_c_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_10 : Ref sig .tc := ⟨.hbm, 69, rfl⟩
abbrev main_v47 : Ref sig .tc := ⟨.hbm, 70, rfl⟩
abbrev main_v48 : Ref sig .tc := ⟨.hbm, 71, rfl⟩
abbrev main_c_11 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_c_12 : Ref sig .tc := ⟨.hbm, 77, rfl⟩
abbrev main_v53 : Ref sig .tc := ⟨.hbm, 78, rfl⟩
abbrev main_v54 : Ref sig .tc := ⟨.hbm, 79, rfl⟩
abbrev main_c_13 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_c_14 : Ref sig .tc := ⟨.hbm, 85, rfl⟩
abbrev main_v59 : Ref sig .tc := ⟨.hbm, 86, rfl⟩
abbrev main_v60 : Ref sig .tc := ⟨.hbm, 87, rfl⟩
abbrev main_c_15 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_c_16 : Ref sig .tc := ⟨.hbm, 93, rfl⟩
abbrev main_v65 : Ref sig .tc := ⟨.hbm, 94, rfl⟩
abbrev main_v66 : Ref sig .tc := ⟨.hbm, 95, rfl⟩
abbrev main_c_17 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_c_18 : Ref sig .tc := ⟨.hbm, 101, rfl⟩
abbrev main_v71 : Ref sig .tc := ⟨.hbm, 102, rfl⟩
abbrev main_v72 : Ref sig .tc := ⟨.hbm, 103, rfl⟩
abbrev main_c_19 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_call2_c : Ref sig .tc := ⟨.hbm, 109, rfl⟩
abbrev main_call2_v0 : Ref sig .tc := ⟨.hbm, 110, rfl⟩
abbrev main_call2_v1 : Ref sig .tc := ⟨.hbm, 111, rfl⟩
abbrev main_call2_c_0 : Ref sig .tc := ⟨.hbm, 112, rfl⟩
abbrev main_call2_v2 : Ref sig .tc := ⟨.hbm, 113, rfl⟩
abbrev main_call2_v3 : Ref sig .tc := ⟨.hbm, 114, rfl⟩
abbrev main_call2_v4 : Ref sig .tc := ⟨.hbm, 115, rfl⟩
abbrev main_call2_v5 : Ref sig .tc := ⟨.hbm, 116, rfl⟩
abbrev main_call2_c_1 : Ref sig .tc := ⟨.hbm, 117, rfl⟩
abbrev main_call2_c_2 : Ref sig .tc := ⟨.hbm, 118, rfl⟩
abbrev main_call2_v6 : Ref sig .tc := ⟨.hbm, 119, rfl⟩
abbrev main_call2_v7 : Ref sig .tc := ⟨.hbm, 120, rfl⟩
abbrev main_call2_v8 : Ref sig .tc := ⟨.hbm, 121, rfl⟩
abbrev main_call2_v9 : Ref sig .tc := ⟨.hbm, 122, rfl⟩
abbrev main_call2_v10 : Ref sig .tc := ⟨.hbm, 123, rfl⟩
abbrev main_call2_v11 : Ref sig .tc := ⟨.hbm, 124, rfl⟩
abbrev main_call2_c_3 : Ref sig .tc := ⟨.hbm, 125, rfl⟩
abbrev main_call2_v12 : Ref sig .tc := ⟨.hbm, 126, rfl⟩
abbrev main_call2_v13 : Ref sig .tc := ⟨.hbm, 127, rfl⟩
abbrev main_call2_v14 : Ref sig .tc := ⟨.hbm, 128, rfl⟩
abbrev main_call2_cst : Ref sig .tc := ⟨.hbm, 129, rfl⟩
abbrev main_call2_v15 : Ref sig .tc := ⟨.hbm, 130, rfl⟩
abbrev main_v77 : Ref sig .tc := ⟨.hbm, 131, rfl⟩
abbrev main_call3_c : Ref sig .tc := ⟨.hbm, 132, rfl⟩
abbrev main_call3_v0 : Ref sig .tc := ⟨.hbm, 133, rfl⟩
abbrev main_call3_v1 : Ref sig .tc := ⟨.hbm, 134, rfl⟩
abbrev main_call3_c_0 : Ref sig .tc := ⟨.hbm, 135, rfl⟩
abbrev main_call3_v2 : Ref sig .tc := ⟨.hbm, 136, rfl⟩
abbrev main_call3_v3 : Ref sig .tc := ⟨.hbm, 137, rfl⟩
abbrev main_call3_v4 : Ref sig .tc := ⟨.hbm, 138, rfl⟩
abbrev main_call3_v5 : Ref sig .tc := ⟨.hbm, 139, rfl⟩
abbrev main_call3_c_1 : Ref sig .tc := ⟨.hbm, 140, rfl⟩
abbrev main_call3_c_2 : Ref sig .tc := ⟨.hbm, 141, rfl⟩
abbrev main_call3_v6 : Ref sig .tc := ⟨.hbm, 142, rfl⟩
abbrev main_call3_v7 : Ref sig .tc := ⟨.hbm, 143, rfl⟩
abbrev main_call3_v8 : Ref sig .tc := ⟨.hbm, 144, rfl⟩
abbrev main_call3_v9 : Ref sig .tc := ⟨.hbm, 145, rfl⟩
abbrev main_call3_v10 : Ref sig .tc := ⟨.hbm, 146, rfl⟩
abbrev main_call3_v11 : Ref sig .tc := ⟨.hbm, 147, rfl⟩
abbrev main_call3_c_3 : Ref sig .tc := ⟨.hbm, 148, rfl⟩
abbrev main_call3_v12 : Ref sig .tc := ⟨.hbm, 149, rfl⟩
abbrev main_call3_v13 : Ref sig .tc := ⟨.hbm, 150, rfl⟩
abbrev main_call3_v14 : Ref sig .tc := ⟨.hbm, 151, rfl⟩
abbrev main_call3_cst : Ref sig .tc := ⟨.hbm, 152, rfl⟩
abbrev main_call3_v15 : Ref sig .tc := ⟨.hbm, 153, rfl⟩
abbrev main_v78 : Ref sig .tc := ⟨.hbm, 154, rfl⟩
abbrev main_call4_c : Ref sig .tc := ⟨.hbm, 155, rfl⟩
abbrev main_call4_v0 : Ref sig .tc := ⟨.hbm, 156, rfl⟩
abbrev main_call4_v1 : Ref sig .tc := ⟨.hbm, 157, rfl⟩
abbrev main_call4_c_0 : Ref sig .tc := ⟨.hbm, 158, rfl⟩
abbrev main_call4_v2 : Ref sig .tc := ⟨.hbm, 159, rfl⟩
abbrev main_call4_v3 : Ref sig .tc := ⟨.hbm, 160, rfl⟩
abbrev main_call4_v4 : Ref sig .tc := ⟨.hbm, 161, rfl⟩
abbrev main_call4_v5 : Ref sig .tc := ⟨.hbm, 162, rfl⟩
abbrev main_call4_c_1 : Ref sig .tc := ⟨.hbm, 163, rfl⟩
abbrev main_call4_c_2 : Ref sig .tc := ⟨.hbm, 164, rfl⟩
abbrev main_call4_v6 : Ref sig .tc := ⟨.hbm, 165, rfl⟩
abbrev main_call4_v7 : Ref sig .tc := ⟨.hbm, 166, rfl⟩
abbrev main_call4_v8 : Ref sig .tc := ⟨.hbm, 167, rfl⟩
abbrev main_call4_v9 : Ref sig .tc := ⟨.hbm, 168, rfl⟩
abbrev main_call4_v10 : Ref sig .tc := ⟨.hbm, 169, rfl⟩
abbrev main_call4_v11 : Ref sig .tc := ⟨.hbm, 170, rfl⟩
abbrev main_call4_c_3 : Ref sig .tc := ⟨.hbm, 171, rfl⟩
abbrev main_call4_v12 : Ref sig .tc := ⟨.hbm, 172, rfl⟩
abbrev main_call4_v13 : Ref sig .tc := ⟨.hbm, 173, rfl⟩
abbrev main_call4_v14 : Ref sig .tc := ⟨.hbm, 174, rfl⟩
abbrev main_call4_cst : Ref sig .tc := ⟨.hbm, 175, rfl⟩
abbrev main_call4_v15 : Ref sig .tc := ⟨.hbm, 176, rfl⟩
abbrev main_v79 : Ref sig .tc := ⟨.hbm, 177, rfl⟩
abbrev main_call5_c : Ref sig .tc := ⟨.hbm, 178, rfl⟩
abbrev main_call5_v0 : Ref sig .tc := ⟨.hbm, 179, rfl⟩
abbrev main_call5_v1 : Ref sig .tc := ⟨.hbm, 180, rfl⟩
abbrev main_call5_c_0 : Ref sig .tc := ⟨.hbm, 181, rfl⟩
abbrev main_call5_v2 : Ref sig .tc := ⟨.hbm, 182, rfl⟩
abbrev main_call5_v3 : Ref sig .tc := ⟨.hbm, 183, rfl⟩
abbrev main_call5_v4 : Ref sig .tc := ⟨.hbm, 184, rfl⟩
abbrev main_call5_v5 : Ref sig .tc := ⟨.hbm, 185, rfl⟩
abbrev main_call5_c_1 : Ref sig .tc := ⟨.hbm, 186, rfl⟩
abbrev main_call5_c_2 : Ref sig .tc := ⟨.hbm, 187, rfl⟩
abbrev main_call5_v6 : Ref sig .tc := ⟨.hbm, 188, rfl⟩
abbrev main_call5_v7 : Ref sig .tc := ⟨.hbm, 189, rfl⟩
abbrev main_call5_v8 : Ref sig .tc := ⟨.hbm, 190, rfl⟩
abbrev main_call5_v9 : Ref sig .tc := ⟨.hbm, 191, rfl⟩
abbrev main_call5_v10 : Ref sig .tc := ⟨.hbm, 192, rfl⟩
abbrev main_call5_v11 : Ref sig .tc := ⟨.hbm, 193, rfl⟩
abbrev main_call5_c_3 : Ref sig .tc := ⟨.hbm, 194, rfl⟩
abbrev main_call5_v12 : Ref sig .tc := ⟨.hbm, 195, rfl⟩
abbrev main_call5_v13 : Ref sig .tc := ⟨.hbm, 196, rfl⟩
abbrev main_call5_v14 : Ref sig .tc := ⟨.hbm, 197, rfl⟩
abbrev main_call5_cst : Ref sig .tc := ⟨.hbm, 198, rfl⟩
abbrev main_call5_v15 : Ref sig .tc := ⟨.hbm, 199, rfl⟩
abbrev main_v80 : Ref sig .tc := ⟨.hbm, 200, rfl⟩
abbrev main_call6_c : Ref sig .tc := ⟨.hbm, 201, rfl⟩
abbrev main_call6_v0 : Ref sig .tc := ⟨.hbm, 202, rfl⟩
abbrev main_call6_v1 : Ref sig .tc := ⟨.hbm, 203, rfl⟩
abbrev main_call6_c_0 : Ref sig .tc := ⟨.hbm, 204, rfl⟩
abbrev main_call6_v2 : Ref sig .tc := ⟨.hbm, 205, rfl⟩
abbrev main_call6_v3 : Ref sig .tc := ⟨.hbm, 206, rfl⟩
abbrev main_call6_v4 : Ref sig .tc := ⟨.hbm, 207, rfl⟩
abbrev main_call6_v5 : Ref sig .tc := ⟨.hbm, 208, rfl⟩
abbrev main_call6_c_1 : Ref sig .tc := ⟨.hbm, 209, rfl⟩
abbrev main_call6_c_2 : Ref sig .tc := ⟨.hbm, 210, rfl⟩
abbrev main_call6_v6 : Ref sig .tc := ⟨.hbm, 211, rfl⟩
abbrev main_call6_v7 : Ref sig .tc := ⟨.hbm, 212, rfl⟩
abbrev main_call6_v8 : Ref sig .tc := ⟨.hbm, 213, rfl⟩
abbrev main_call6_v9 : Ref sig .tc := ⟨.hbm, 214, rfl⟩
abbrev main_call6_v10 : Ref sig .tc := ⟨.hbm, 215, rfl⟩
abbrev main_call6_v11 : Ref sig .tc := ⟨.hbm, 216, rfl⟩
abbrev main_call6_c_3 : Ref sig .tc := ⟨.hbm, 217, rfl⟩
abbrev main_call6_v12 : Ref sig .tc := ⟨.hbm, 218, rfl⟩
abbrev main_call6_v13 : Ref sig .tc := ⟨.hbm, 219, rfl⟩
abbrev main_call6_v14 : Ref sig .tc := ⟨.hbm, 220, rfl⟩
abbrev main_call6_cst : Ref sig .tc := ⟨.hbm, 221, rfl⟩
abbrev main_call6_v15 : Ref sig .tc := ⟨.hbm, 222, rfl⟩
abbrev main_v81 : Ref sig .tc := ⟨.hbm, 223, rfl⟩
abbrev main_call7_c : Ref sig .tc := ⟨.hbm, 224, rfl⟩
abbrev main_call7_v0 : Ref sig .tc := ⟨.hbm, 225, rfl⟩
abbrev main_call7_v1 : Ref sig .tc := ⟨.hbm, 226, rfl⟩
abbrev main_call7_c_0 : Ref sig .tc := ⟨.hbm, 227, rfl⟩
abbrev main_call7_v2 : Ref sig .tc := ⟨.hbm, 228, rfl⟩
abbrev main_call7_v3 : Ref sig .tc := ⟨.hbm, 229, rfl⟩
abbrev main_call7_v4 : Ref sig .tc := ⟨.hbm, 230, rfl⟩
abbrev main_call7_v5 : Ref sig .tc := ⟨.hbm, 231, rfl⟩
abbrev main_call7_c_1 : Ref sig .tc := ⟨.hbm, 232, rfl⟩
abbrev main_call7_c_2 : Ref sig .tc := ⟨.hbm, 233, rfl⟩
abbrev main_call7_v6 : Ref sig .tc := ⟨.hbm, 234, rfl⟩
abbrev main_call7_v7 : Ref sig .tc := ⟨.hbm, 235, rfl⟩
abbrev main_call7_v8 : Ref sig .tc := ⟨.hbm, 236, rfl⟩
abbrev main_call7_v9 : Ref sig .tc := ⟨.hbm, 237, rfl⟩
abbrev main_call7_v10 : Ref sig .tc := ⟨.hbm, 238, rfl⟩
abbrev main_call7_v11 : Ref sig .tc := ⟨.hbm, 239, rfl⟩
abbrev main_call7_c_3 : Ref sig .tc := ⟨.hbm, 240, rfl⟩
abbrev main_call7_v12 : Ref sig .tc := ⟨.hbm, 241, rfl⟩
abbrev main_call7_v13 : Ref sig .tc := ⟨.hbm, 242, rfl⟩
abbrev main_call7_v14 : Ref sig .tc := ⟨.hbm, 243, rfl⟩
abbrev main_call7_cst : Ref sig .tc := ⟨.hbm, 244, rfl⟩
abbrev main_call7_v15 : Ref sig .tc := ⟨.hbm, 245, rfl⟩
abbrev main_v82 : Ref sig .tc := ⟨.hbm, 246, rfl⟩
abbrev main_call8_c : Ref sig .tc := ⟨.hbm, 247, rfl⟩
abbrev main_call8_v0 : Ref sig .tc := ⟨.hbm, 248, rfl⟩
abbrev main_call8_v1 : Ref sig .tc := ⟨.hbm, 249, rfl⟩
abbrev main_call8_c_0 : Ref sig .tc := ⟨.hbm, 250, rfl⟩
abbrev main_call8_v2 : Ref sig .tc := ⟨.hbm, 251, rfl⟩
abbrev main_call8_v3 : Ref sig .tc := ⟨.hbm, 252, rfl⟩
abbrev main_call8_v4 : Ref sig .tc := ⟨.hbm, 253, rfl⟩
abbrev main_call8_v5 : Ref sig .tc := ⟨.hbm, 254, rfl⟩
abbrev main_call8_c_1 : Ref sig .tc := ⟨.hbm, 255, rfl⟩
abbrev main_call8_c_2 : Ref sig .tc := ⟨.hbm, 256, rfl⟩
abbrev main_call8_v6 : Ref sig .tc := ⟨.hbm, 257, rfl⟩
abbrev main_call8_v7 : Ref sig .tc := ⟨.hbm, 258, rfl⟩
abbrev main_call8_v8 : Ref sig .tc := ⟨.hbm, 259, rfl⟩
abbrev main_call8_v9 : Ref sig .tc := ⟨.hbm, 260, rfl⟩
abbrev main_call8_v10 : Ref sig .tc := ⟨.hbm, 261, rfl⟩
abbrev main_call8_v11 : Ref sig .tc := ⟨.hbm, 262, rfl⟩
abbrev main_call8_c_3 : Ref sig .tc := ⟨.hbm, 263, rfl⟩
abbrev main_call8_v12 : Ref sig .tc := ⟨.hbm, 264, rfl⟩
abbrev main_call8_v13 : Ref sig .tc := ⟨.hbm, 265, rfl⟩
abbrev main_call8_v14 : Ref sig .tc := ⟨.hbm, 266, rfl⟩
abbrev main_call8_cst : Ref sig .tc := ⟨.hbm, 267, rfl⟩
abbrev main_call8_v15 : Ref sig .tc := ⟨.hbm, 268, rfl⟩
abbrev main_v83 : Ref sig .tc := ⟨.hbm, 269, rfl⟩
abbrev main_call9_c : Ref sig .tc := ⟨.hbm, 270, rfl⟩
abbrev main_call9_v0 : Ref sig .tc := ⟨.hbm, 271, rfl⟩
abbrev main_call9_v1 : Ref sig .tc := ⟨.hbm, 272, rfl⟩
abbrev main_call9_c_0 : Ref sig .tc := ⟨.hbm, 273, rfl⟩
abbrev main_call9_v2 : Ref sig .tc := ⟨.hbm, 274, rfl⟩
abbrev main_call9_v3 : Ref sig .tc := ⟨.hbm, 275, rfl⟩
abbrev main_call9_v4 : Ref sig .tc := ⟨.hbm, 276, rfl⟩
abbrev main_call9_v5 : Ref sig .tc := ⟨.hbm, 277, rfl⟩
abbrev main_call9_c_1 : Ref sig .tc := ⟨.hbm, 278, rfl⟩
abbrev main_call9_c_2 : Ref sig .tc := ⟨.hbm, 279, rfl⟩
abbrev main_call9_v6 : Ref sig .tc := ⟨.hbm, 280, rfl⟩
abbrev main_call9_v7 : Ref sig .tc := ⟨.hbm, 281, rfl⟩
abbrev main_call9_v8 : Ref sig .tc := ⟨.hbm, 282, rfl⟩
abbrev main_call9_v9 : Ref sig .tc := ⟨.hbm, 283, rfl⟩
abbrev main_call9_v10 : Ref sig .tc := ⟨.hbm, 284, rfl⟩
abbrev main_call9_v11 : Ref sig .tc := ⟨.hbm, 285, rfl⟩
abbrev main_call9_c_3 : Ref sig .tc := ⟨.hbm, 286, rfl⟩
abbrev main_call9_v12 : Ref sig .tc := ⟨.hbm, 287, rfl⟩
abbrev main_call9_v13 : Ref sig .tc := ⟨.hbm, 288, rfl⟩
abbrev main_call9_v14 : Ref sig .tc := ⟨.hbm, 289, rfl⟩
abbrev main_call9_cst : Ref sig .tc := ⟨.hbm, 290, rfl⟩
abbrev main_call9_v15 : Ref sig .tc := ⟨.hbm, 291, rfl⟩
abbrev main_v84 : Ref sig .tc := ⟨.hbm, 292, rfl⟩
abbrev main_v85 : Ref sig .tc := ⟨.hbm, 293, rfl⟩
abbrev main_v86 : Ref sig .tc := ⟨.hbm, 294, rfl⟩
abbrev main_v87 : Ref sig .tc := ⟨.hbm, 295, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S27x80000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x80000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S3_S3x1 : S3.ShapeCasts S3x1
  transposes_S8000000x3_S3x8000000_1_0 : S8000000x3.Transposes [1, 0] S3x8000000
  bcast_S3x1_S3x8000000_0_1 : S3x1.BroadcastsInDim S3x8000000 (![0, 1] : Fin 2 → Fin S3x8000000.rank)
  bcast_S_S3x8000000 : S_.BroadcastsInDim S3x8000000 (![] : Fin 0 → Fin S3x8000000.rank)
  slices_S3x8000000_S1x8000000_0_0 : S3x8000000.Slices ![0, 0] S1x8000000
  shapeCasts_S1x8000000_S8000000 : S1x8000000.ShapeCasts S8000000
  slices_S3x8000000_S1x8000000_1_0 : S3x8000000.Slices ![1, 0] S1x8000000
  slices_S3x8000000_S1x8000000_2_0 : S3x8000000.Slices ![2, 0] S1x8000000
  shapeCasts_S205x205x13x3_S546325x3 : S205x205x13x3.ShapeCasts S546325x3
  transposes_S546325x3_S3x546325_1_0 : S546325x3.Transposes [1, 0] S3x546325
  bcast_S_S8000000 : S_.BroadcastsInDim S8000000 (![] : Fin 0 → Fin S8000000.rank)
  bcast_S8000000_S8000000x1_0 : S8000000.BroadcastsInDim S8000000x1 (![0] : Fin 1 → Fin S8000000x1.rank)
  bcast_S_S8000000x1 : S_.BroadcastsInDim S8000000x1 (![] : Fin 0 → Fin S8000000x1.rank)
  bcast_S1_S1x1_1 : S1.BroadcastsInDim S1x1 (![1] : Fin 1 → Fin S1x1.rank)
  bcast_S1x1_S8000000x1_0_1 : S1x1.BroadcastsInDim S8000000x1 (![0, 1] : Fin 2 → Fin S8000000x1.rank)
  reducesTo_S8000000x1_S8000000_d1 : S8000000x1.ReducesTo [1] S8000000
  h_S_ : 0 < S_.numel
  bcast_S8000000_S3x8000000_1 : S8000000.BroadcastsInDim S3x8000000 (![1] : Fin 1 → Fin S3x8000000.rank)
  concatenates_S3x8000000_S3x8000000_S3x8000000_S3x8000000_S3x8000000_S3x8000000_S3x8000000_S3x8000000_S3x8000000_S27x8000000_d0 : Shape.Concatenates [S3x8000000, S3x8000000, S3x8000000, S3x8000000, S3x8000000, S3x8000000, S3x8000000, S3x8000000, S3x8000000] S27x8000000 0
  inb_S27x80000_S3x80000_0_0 : ∀ a, (![0, 0] : Fin 2 → Nat) a + S3x80000.size a ≤ S27x80000.size a
  h_S3x80000 : 0 < S3x80000.numel
  shapeCasts_S3x80000_S3x80000 : S3x80000.ShapeCasts S3x80000
  inb_S27x80000_S3x80000_3_0 : ∀ a, (![3, 0] : Fin 2 → Nat) a + S3x80000.size a ≤ S27x80000.size a
  inb_S27x80000_S3x80000_6_0 : ∀ a, (![6, 0] : Fin 2 → Nat) a + S3x80000.size a ≤ S27x80000.size a
  inb_S27x80000_S3x80000_9_0 : ∀ a, (![9, 0] : Fin 2 → Nat) a + S3x80000.size a ≤ S27x80000.size a
  inb_S27x80000_S3x80000_12_0 : ∀ a, (![12, 0] : Fin 2 → Nat) a + S3x80000.size a ≤ S27x80000.size a
  inb_S27x80000_S3x80000_15_0 : ∀ a, (![15, 0] : Fin 2 → Nat) a + S3x80000.size a ≤ S27x80000.size a
  inb_S27x80000_S3x80000_18_0 : ∀ a, (![18, 0] : Fin 2 → Nat) a + S3x80000.size a ≤ S27x80000.size a
  inb_S27x80000_S3x80000_21_0 : ∀ a, (![21, 0] : Fin 2 → Nat) a + S3x80000.size a ≤ S27x80000.size a
  inb_S27x80000_S3x80000_24_0 : ∀ a, (![24, 0] : Fin 2 → Nat) a + S3x80000.size a ≤ S27x80000.size a
  slices_S3x80000_o0_0_S1x80000 : S3x80000.Slices ![0, 0] S1x80000
  slices_S3x80000_o1_0_S1x80000 : S3x80000.Slices ![1, 0] S1x80000
  slices_S3x80000_o2_0_S1x80000 : S3x80000.Slices ![2, 0] S1x80000
  broadcasts_S1x80000_S3x80000 : S1x80000.Broadcasts S3x80000
  inb_S3x80000_S3x80000_0_0 : ∀ a, (![0, 0] : Fin 2 → Nat) a + S3x80000.size a ≤ S3x80000.size a
  transposes_S3x8000000_S8000000x3_1_0 : S3x8000000.Transposes [1, 0] S8000000x3
  gather_S3x546325_S8000000x1_S3x8000000_0_1_n_n_1_1_31_wf : GatherDims.WF S3x546325 S8000000x1 S3x8000000 [0] [1] [] [1] [] 1 ![3, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S27x80000.size a ≤ S27x8000000.size a
  hwx0_0 : ∀ i : grid0.Coords, EltTy.bits .f32 = 32 ∨ (Rect.block (s := S27x8000000) S27x80000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x80000.size a ≤ S3x8000000.size a
  hwx0_1 : ∀ i : grid0.Coords, EltTy.bits .f32 = 32 ∨ (Rect.block (s := S3x8000000) S3x80000.size (cc0_transform_1 i) (hinb0_1 i)).WholeWords (EltTy.packing .f32)

variable [Facts₀]

def gather_S3x546325_S8000000x1_S3x8000000_0_1_n_n_1_1_31 : GatherDims S3x546325 S8000000x1 S3x8000000 where
  offsetDims := [0]
  collapsedSliceDims := [1]
  operandBatchingDims := []
  startIndicesBatchingDims := []
  startIndexMap := [1]
  indexVectorDim := 1
  sliceSizes := ![3, 1]
  wf := gather_S3x546325_S8000000x1_S3x8000000_0_1_n_n_1_1_31_wf

abbrev win0_0 : Pipeline.Window sig grid0 :=
  Pipeline.Window.ofSpec (Memref.whole main_v85) S27x80000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v86) S3x80000.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8000000x3 : Shape := ⟨2, ![8000000, 3]⟩
abbrev S205x205x13x3 : Shape := ⟨4, ![205, 205, 13, 3]⟩
abbrev S3 : Shape := ⟨1, ![3]⟩
abbrev S1x3 : Shape := ⟨2, ![1, 3]⟩
abbrev S_ : Shape := ⟨0, ![]⟩
abbrev S8000000x1 : Shape := ⟨2, ![8000000, 1]⟩
abbrev S8000000 : Shape := ⟨1, ![8000000]⟩

abbrev nBuf : Space → Nat
  | .hbm => 310
  | .vmem => 0
  | .smem => 0
  | _ => 0

abbrev hbmTy0_0 (i : Nat) : BufTy := match i % 128 with
  | 0 => ⟨S8000000x3, .f32⟩
  | 1 => ⟨S205x205x13x3, .f32⟩
  | 2 => ⟨S3, .f32⟩
  | 3 => ⟨S3, .i32⟩
  | 4 => ⟨S1x3, .f32⟩
  | 5 => ⟨S8000000x3, .f32⟩
  | 6 => ⟨S8000000x3, .f32⟩
  | 7 => ⟨S_, .f32⟩
  | 8 => ⟨S8000000x3, .f32⟩
  | 9 => ⟨S8000000x3, .f32⟩
  | 10 => ⟨S8000000x3, .f32⟩
  | 11 => ⟨S8000000x3, .i32⟩
  | 12 => ⟨S_, .i32⟩
  | 13 => ⟨S_, .i32⟩
  | 14 => ⟨S8000000x3, .i32⟩
  | 15 => ⟨S8000000x3, .i32⟩
  | 16 => ⟨S1x3, .i32⟩
  | 17 => ⟨S8000000x3, .i32⟩
  | 18 => ⟨S8000000x3, .i32⟩
  | 19 => ⟨S_, .i32⟩
  | 20 => ⟨S8000000x3, .i32⟩
  | 21 => ⟨S8000000x3, .i32⟩
  | 22 => ⟨S_, .i32⟩
  | 23 => ⟨S_, .i32⟩
  | 24 => ⟨S8000000x3, .i32⟩
  | 25 => ⟨S8000000x3, .i32⟩
  | 26 => ⟨S1x3, .i32⟩
  | 27 => ⟨S8000000x3, .i32⟩
  | 28 => ⟨S8000000x3, .i32⟩
  | 29 => ⟨S8000000x3, .f32⟩
  | 30 => ⟨S8000000x3, .f32⟩
  | 31 => ⟨S8000000x1, .f32⟩
  | 32 => ⟨S8000000x1, .f32⟩
  | 33 => ⟨S8000000x1, .f32⟩
  | 34 => ⟨S8000000x1, .i32⟩
  | 35 => ⟨S8000000, .i32⟩
  | 36 => ⟨S8000000x1, .i32⟩
  | 37 => ⟨S8000000, .i32⟩
  | 38 => ⟨S8000000x1, .i32⟩
  | 39 => ⟨S8000000, .i32⟩
  | 40 => ⟨S8000000x1, .i32⟩
  | 41 => ⟨S8000000, .i32⟩
  | 42 => ⟨S8000000x1, .i32⟩
  | 43 => ⟨S8000000, .i32⟩
  | 44 => ⟨S8000000x1, .i32⟩
  | 45 => ⟨S8000000, .i32⟩
  | 46 => ⟨S_, .i32⟩
  | 47 => ⟨S8000000, .i32⟩
  | 48 => ⟨S8000000, .i1⟩
  | 49 => ⟨S_, .i32⟩
  | 50 => ⟨S8000000, .i32⟩
  | 51 => ⟨S8000000, .i32⟩
  | 52 => ⟨S8000000, .i32⟩
  | 53 => ⟨S_, .i32⟩
  | 54 => ⟨S8000000, .i32⟩
  | 55 => ⟨S8000000, .i1⟩
  | 56 => ⟨S_, .i32⟩
  | 57 => ⟨S8000000, .i32⟩
  | 58 => ⟨S8000000, .i32⟩
  | 59 => ⟨S8000000, .i32⟩
  | 60 => ⟨S_, .i32⟩
  | 61 => ⟨S8000000, .i32⟩
  | 62 => ⟨S8000000, .i1⟩
  | 63 => ⟨S_, .i32⟩
  | 64 => ⟨S8000000, .i32⟩
  | 65 => ⟨S8000000, .i32⟩
  | 66 => ⟨S8000000, .i32⟩
  | 67 => ⟨S8000000x1, .i32⟩
  | 68 => ⟨S8000000x1, .i32⟩
  | 69 => ⟨S8000000x1, .i32⟩
  | 70 => ⟨S8000000x3, .i32⟩
  | 71 => ⟨S8000000x3, .f32⟩
  | 72 => ⟨S_, .i32⟩
  | 73 => ⟨S8000000, .i32⟩
  | 74 => ⟨S8000000, .i1⟩
  | 75 => ⟨S_, .i32⟩
  | 76 => ⟨S8000000, .i32⟩
  | 77 => ⟨S8000000, .i32⟩
  | 78 => ⟨S8000000, .i32⟩
  | 79 => ⟨S_, .i32⟩
  | 80 => ⟨S8000000, .i32⟩
  | 81 => ⟨S8000000, .i1⟩
  | 82 => ⟨S_, .i32⟩
  | 83 => ⟨S8000000, .i32⟩
  | 84 => ⟨S8000000, .i32⟩
  | 85 => ⟨S8000000, .i32⟩
  | 86 => ⟨S_, .i32⟩
  | 87 => ⟨S8000000, .i32⟩
  | 88 => ⟨S8000000, .i1⟩
  | 89 => ⟨S_, .i32⟩
  | 90 => ⟨S8000000, .i32⟩
  | 91 => ⟨S8000000, .i32⟩
  | 92 => ⟨S8000000, .i32⟩
  | 93 => ⟨S8000000x1, .i32⟩
  | 94 => ⟨S8000000x1, .i32⟩
  | 95 => ⟨S8000000x1, .i32⟩
  | 96 => ⟨S8000000x3, .i32⟩
  | 97 => ⟨S8000000x3, .f32⟩
  | 98 => ⟨S_, .i32⟩
  | 99 => ⟨S8000000, .i32⟩
  | 100 => ⟨S8000000, .i1⟩
  | 101 => ⟨S_, .i32⟩
  | 102 => ⟨S8000000, .i32⟩
  | 103 => ⟨S8000000, .i32⟩
  | 104 => ⟨S8000000, .i32⟩
  | 105 => ⟨S_, .i32⟩
  | 106 => ⟨S8000000, .i32⟩
  | 107 => ⟨S8000000, .i1⟩
  | 108 => ⟨S_, .i32⟩
  | 109 => ⟨S8000000, .i32⟩
  | 110 => ⟨S8000000, .i32⟩
  | 111 => ⟨S8000000, .i32⟩
  | 112 => ⟨S_, .i32⟩
  | 113 => ⟨S8000000, .i32⟩
  | 114 => ⟨S8000000, .i1⟩
  | 115 => ⟨S_, .i32⟩
  | 116 => ⟨S8000000, .i32⟩
  | 117 => ⟨S8000000, .i32⟩
  | 118 => ⟨S8000000, .i32⟩
  | 119 => ⟨S8000000x1, .i32⟩
  | 120 => ⟨S8000000x1, .i32⟩
  | 121 => ⟨S8000000x1, .i32⟩
  | 122 => ⟨S8000000x3, .i32⟩
  | 123 => ⟨S8000000x3, .f32⟩
  | 124 => ⟨S_, .i32⟩
  | 125 => ⟨S8000000, .i32⟩
  | 126 => ⟨S8000000, .i1⟩
  | 127 => ⟨S_, .i32⟩
  | _ => ⟨S8000000x3, .f32⟩

abbrev hbmTy0_1 (i : Nat) : BufTy := match i % 128 with
  | 0 => ⟨S8000000, .i32⟩
  | 1 => ⟨S8000000, .i32⟩
  | 2 => ⟨S8000000, .i32⟩
  | 3 => ⟨S_, .i32⟩
  | 4 => ⟨S8000000, .i32⟩
  | 5 => ⟨S8000000, .i1⟩
  | 6 => ⟨S_, .i32⟩
  | 7 => ⟨S8000000, .i32⟩
  | 8 => ⟨S8000000, .i32⟩
  | 9 => ⟨S8000000, .i32⟩
  | 10 => ⟨S_, .i32⟩
  | 11 => ⟨S8000000, .i32⟩
  | 12 => ⟨S8000000, .i1⟩
  | 13 => ⟨S_, .i32⟩
  | 14 => ⟨S8000000, .i32⟩
  | 15 => ⟨S8000000, .i32⟩
  | 16 => ⟨S8000000, .i32⟩
  | 17 => ⟨S8000000x1, .i32⟩
  | 18 => ⟨S8000000x1, .i32⟩
  | 19 => ⟨S8000000x1, .i32⟩
  | 20 => ⟨S8000000x3, .i32⟩
  | 21 => ⟨S8000000x3, .f32⟩
  | 22 => ⟨S_, .i32⟩
  | 23 => ⟨S8000000, .i32⟩
  | 24 => ⟨S8000000, .i1⟩
  | 25 => ⟨S_, .i32⟩
  | 26 => ⟨S8000000, .i32⟩
  | 27 => ⟨S8000000, .i32⟩
  | 28 => ⟨S8000000, .i32⟩
  | 29 => ⟨S_, .i32⟩
  | 30 => ⟨S8000000, .i32⟩
  | 31 => ⟨S8000000, .i1⟩
  | 32 => ⟨S_, .i32⟩
  | 33 => ⟨S8000000, .i32⟩
  | 34 => ⟨S8000000, .i32⟩
  | 35 => ⟨S8000000, .i32⟩
  | 36 => ⟨S_, .i32⟩
  | 37 => ⟨S8000000, .i32⟩
  | 38 => ⟨S8000000, .i1⟩
  | 39 => ⟨S_, .i32⟩
  | 40 => ⟨S8000000, .i32⟩
  | 41 => ⟨S8000000, .i32⟩
  | 42 => ⟨S8000000, .i32⟩
  | 43 => ⟨S8000000x1, .i32⟩
  | 44 => ⟨S8000000x1, .i32⟩
  | 45 => ⟨S8000000x1, .i32⟩
  | 46 => ⟨S8000000x3, .i32⟩
  | 47 => ⟨S8000000x3, .f32⟩
  | 48 => ⟨S_, .i32⟩
  | 49 => ⟨S8000000, .i32⟩
  | 50 => ⟨S8000000, .i1⟩
  | 51 => ⟨S_, .i32⟩
  | 52 => ⟨S8000000, .i32⟩
  | 53 => ⟨S8000000, .i32⟩
  | 54 => ⟨S8000000, .i32⟩
  | 55 => ⟨S_, .i32⟩
  | 56 => ⟨S8000000, .i32⟩
  | 57 => ⟨S8000000, .i1⟩
  | 58 => ⟨S_, .i32⟩
  | 59 => ⟨S8000000, .i32⟩
  | 60 => ⟨S8000000, .i32⟩
  | 61 => ⟨S8000000, .i32⟩
  | 62 => ⟨S_, .i32⟩
  | 63 => ⟨S8000000, .i32⟩
  | 64 => ⟨S8000000, .i1⟩
  | 65 => ⟨S_, .i32⟩
  | 66 => ⟨S8000000, .i32⟩
  | 67 => ⟨S8000000, .i32⟩
  | 68 => ⟨S8000000, .i32⟩
  | 69 => ⟨S8000000x1, .i32⟩
  | 70 => ⟨S8000000x1, .i32⟩
  | 71 => ⟨S8000000x1, .i32⟩
  | 72 => ⟨S8000000x3, .i32⟩
  | 73 => ⟨S8000000x3, .f32⟩
  | 74 => ⟨S_, .i32⟩
  | 75 => ⟨S8000000, .i32⟩
  | 76 => ⟨S8000000, .i1⟩
  | 77 => ⟨S_, .i32⟩
  | 78 => ⟨S8000000, .i32⟩
  | 79 => ⟨S8000000, .i32⟩
  | 80 => ⟨S8000000, .i32⟩
  | 81 => ⟨S_, .i32⟩
  | 82 => ⟨S8000000, .i32⟩
  | 83 => ⟨S8000000, .i1⟩
  | 84 => ⟨S_, .i32⟩
  | 85 => ⟨S8000000, .i32⟩
  | 86 => ⟨S8000000, .i32⟩
  | 87 => ⟨S8000000, .i32⟩
  | 88 => ⟨S_, .i32⟩
  | 89 => ⟨S8000000, .i32⟩
  | 90 => ⟨S8000000, .i1⟩
  | 91 => ⟨S_, .i32⟩
  | 92 => ⟨S8000000, .i32⟩
  | 93 => ⟨S8000000, .i32⟩
  | 94 => ⟨S8000000, .i32⟩
  | 95 => ⟨S8000000x1, .i32⟩
  | 96 => ⟨S8000000x1, .i32⟩
  | 97 => ⟨S8000000x1, .i32⟩
  | 98 => ⟨S8000000x3, .i32⟩
  | 99 => ⟨S8000000x3, .f32⟩
  | 100 => ⟨S_, .i32⟩
  | 101 => ⟨S8000000, .i32⟩
  | 102 => ⟨S8000000, .i1⟩
  | 103 => ⟨S_, .i32⟩
  | 104 => ⟨S8000000, .i32⟩
  | 105 => ⟨S8000000, .i32⟩
  | 106 => ⟨S8000000, .i32⟩
  | 107 => ⟨S_, .i32⟩
  | 108 => ⟨S8000000, .i32⟩
  | 109 => ⟨S8000000, .i1⟩
  | 110 => ⟨S_, .i32⟩
  | 111 => ⟨S8000000, .i32⟩
  | 112 => ⟨S8000000, .i32⟩
  | 113 => ⟨S8000000, .i32⟩
  | 114 => ⟨S_, .i32⟩
  | 115 => ⟨S8000000, .i32⟩
  | 116 => ⟨S8000000, .i1⟩
  | 117 => ⟨S_, .i32⟩
  | 118 => ⟨S8000000, .i32⟩
  | 119 => ⟨S8000000, .i32⟩
  | 120 => ⟨S8000000, .i32⟩
  | 121 => ⟨S8000000x1, .i32⟩
  | 122 => ⟨S8000000x1, .i32⟩
  | 123 => ⟨S8000000x1, .i32⟩
  | 124 => ⟨S8000000x3, .i32⟩
  | 125 => ⟨S8000000x3, .f32⟩
  | 126 => ⟨S_, .f32⟩
  | 127 => ⟨S8000000x1, .f32⟩
  | _ => ⟨S8000000x3, .f32⟩

abbrev hbmTy0_2 (i : Nat) : BufTy := match i % 128 with
  | 0 => ⟨S8000000x1, .f32⟩
  | 1 => ⟨S8000000x3, .f32⟩
  | 2 => ⟨S8000000x3, .f32⟩
  | 3 => ⟨S8000000x3, .f32⟩
  | 4 => ⟨S8000000x3, .f32⟩
  | 5 => ⟨S8000000x3, .f32⟩
  | 6 => ⟨S_, .f32⟩
  | 7 => ⟨S8000000x1, .f32⟩
  | 8 => ⟨S8000000x1, .f32⟩
  | 9 => ⟨S8000000x3, .f32⟩
  | 10 => ⟨S8000000x3, .f32⟩
  | 11 => ⟨S8000000x3, .f32⟩
  | 12 => ⟨S8000000x3, .f32⟩
  | 13 => ⟨S8000000x3, .f32⟩
  | 14 => ⟨S_, .f32⟩
  | 15 => ⟨S8000000x1, .f32⟩
  | 16 => ⟨S8000000x1, .f32⟩
  | 17 => ⟨S8000000x3, .f32⟩
  | 18 => ⟨S8000000x3, .f32⟩
  | 19 => ⟨S8000000x3, .f32⟩
  | 20 => ⟨S8000000x3, .f32⟩
  | 21 => ⟨S8000000x3, .f32⟩
  | 22 => ⟨S_, .f32⟩
  | 23 => ⟨S8000000x1, .f32⟩
  | 24 => ⟨S8000000x1, .f32⟩
  | 25 => ⟨S8000000x3, .f32⟩
  | 26 => ⟨S8000000x3, .f32⟩
  | 27 => ⟨S8000000x3, .f32⟩
  | 28 => ⟨S8000000x3, .f32⟩
  | 29 => ⟨S8000000x3, .f32⟩
  | 30 => ⟨S_, .f32⟩
  | 31 => ⟨S8000000x1, .f32⟩
  | 32 => ⟨S8000000x1, .f32⟩
  | 33 => ⟨S8000000x3, .f32⟩
  | 34 => ⟨S8000000x3, .f32⟩
  | 35 => ⟨S8000000x3, .f32⟩
  | 36 => ⟨S8000000x3, .f32⟩
  | 37 => ⟨S8000000x3, .f32⟩
  | 38 => ⟨S_, .f32⟩
  | 39 => ⟨S8000000x1, .f32⟩
  | 40 => ⟨S8000000x1, .f32⟩
  | 41 => ⟨S8000000x3, .f32⟩
  | 42 => ⟨S8000000x3, .f32⟩
  | 43 => ⟨S8000000x3, .f32⟩
  | 44 => ⟨S8000000x3, .f32⟩
  | 45 => ⟨S8000000x3, .f32⟩
  | 46 => ⟨S_, .f32⟩
  | 47 => ⟨S8000000x1, .f32⟩
  | 48 => ⟨S8000000x1, .f32⟩
  | 49 => ⟨S8000000x3, .f32⟩
  | 50 => ⟨S8000000x3, .f32⟩
  | 51 => ⟨S8000000x3, .f32⟩
  | 52 => ⟨S8000000x3, .f32⟩
  | 53 => ⟨S8000000x3, .f32⟩
  | _ => ⟨S8000000x3, .f32⟩

abbrev hbmTy (i : Nat) : BufTy := match i / 128 with
  | 0 => hbmTy0_0 i
  | 1 => hbmTy0_1 i
  | 2 => hbmTy0_2 i
  | _ => ⟨S8000000x3, .f32⟩

abbrev bufTy : (tb : Table) → Fin (tcTables nBuf tb) → BufTy
  | .hbm, ⟨i, _⟩ => hbmTy i
  | _, _ => ⟨S8000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v7 : Ref sig .tc := ⟨.hbm, 18, rfl⟩
abbrev main_c_2 : Ref sig .tc := ⟨.hbm, 19, rfl⟩
abbrev main_v8 : Ref sig .tc := ⟨.hbm, 20, rfl⟩
abbrev main_v9 : Ref sig .tc := ⟨.hbm, 21, rfl⟩
abbrev main_c_3 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_4 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_6 : Ref sig .tc := ⟨.hbm, 53, rfl⟩
abbrev main_v33 : Ref sig .tc := ⟨.hbm, 54, rfl⟩
abbrev main_v34 : Ref sig .tc := ⟨.hbm, 55, rfl⟩
abbrev main_c_7 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_8 : Ref sig .tc := ⟨.hbm, 60, rfl⟩
abbrev main_v38 : Ref sig .tc := ⟨.hbm, 61, rfl⟩
abbrev main_v39 : Ref sig .tc := ⟨.hbm, 62, rfl⟩
abbrev main_c_9 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_c_10 : Ref sig .tc := ⟨.hbm, 72, rfl⟩
abbrev main_v48 : Ref sig .tc := ⟨.hbm, 73, rfl⟩
abbrev main_v49 : Ref sig .tc := ⟨.hbm, 74, rfl⟩
abbrev main_c_11 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_c_12 : Ref sig .tc := ⟨.hbm, 79, rfl⟩
abbrev main_v53 : Ref sig .tc := ⟨.hbm, 80, rfl⟩
abbrev main_v54 : Ref sig .tc := ⟨.hbm, 81, rfl⟩
abbrev main_c_13 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_c_14 : Ref sig .tc := ⟨.hbm, 86, rfl⟩
abbrev main_v58 : Ref sig .tc := ⟨.hbm, 87, rfl⟩
abbrev main_v59 : Ref sig .tc := ⟨.hbm, 88, rfl⟩
abbrev main_c_15 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_c_16 : Ref sig .tc := ⟨.hbm, 98, rfl⟩
abbrev main_v68 : Ref sig .tc := ⟨.hbm, 99, rfl⟩
abbrev main_v69 : Ref sig .tc := ⟨.hbm, 100, rfl⟩
abbrev main_c_17 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_c_18 : Ref sig .tc := ⟨.hbm, 105, rfl⟩
abbrev main_v73 : Ref sig .tc := ⟨.hbm, 106, rfl⟩
abbrev main_v74 : Ref sig .tc := ⟨.hbm, 107, rfl⟩
abbrev main_c_19 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_c_20 : Ref sig .tc := ⟨.hbm, 112, rfl⟩
abbrev main_v78 : Ref sig .tc := ⟨.hbm, 113, rfl⟩
abbrev main_v79 : Ref sig .tc := ⟨.hbm, 114, rfl⟩
abbrev main_c_21 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_c_22 : Ref sig .tc := ⟨.hbm, 124, rfl⟩
abbrev main_v88 : Ref sig .tc := ⟨.hbm, 125, rfl⟩
abbrev main_v89 : Ref sig .tc := ⟨.hbm, 126, rfl⟩
abbrev main_c_23 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_c_24 : Ref sig .tc := ⟨.hbm, 131, rfl⟩
abbrev main_v93 : Ref sig .tc := ⟨.hbm, 132, rfl⟩
abbrev main_v94 : Ref sig .tc := ⟨.hbm, 133, rfl⟩
abbrev main_c_25 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_c_26 : Ref sig .tc := ⟨.hbm, 138, rfl⟩
abbrev main_v98 : Ref sig .tc := ⟨.hbm, 139, rfl⟩
abbrev main_v99 : Ref sig .tc := ⟨.hbm, 140, rfl⟩
abbrev main_c_27 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_c_28 : Ref sig .tc := ⟨.hbm, 150, rfl⟩
abbrev main_v108 : Ref sig .tc := ⟨.hbm, 151, rfl⟩
abbrev main_v109 : Ref sig .tc := ⟨.hbm, 152, rfl⟩
abbrev main_c_29 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_c_30 : Ref sig .tc := ⟨.hbm, 157, rfl⟩
abbrev main_v113 : Ref sig .tc := ⟨.hbm, 158, rfl⟩
abbrev main_v114 : Ref sig .tc := ⟨.hbm, 159, rfl⟩
abbrev main_c_31 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_c_32 : Ref sig .tc := ⟨.hbm, 164, rfl⟩
abbrev main_v118 : Ref sig .tc := ⟨.hbm, 165, rfl⟩
abbrev main_v119 : Ref sig .tc := ⟨.hbm, 166, rfl⟩
abbrev main_c_33 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_c_34 : Ref sig .tc := ⟨.hbm, 176, rfl⟩
abbrev main_v128 : Ref sig .tc := ⟨.hbm, 177, rfl⟩
abbrev main_v129 : Ref sig .tc := ⟨.hbm, 178, rfl⟩
abbrev main_c_35 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_c_36 : Ref sig .tc := ⟨.hbm, 183, rfl⟩
abbrev main_v133 : Ref sig .tc := ⟨.hbm, 184, rfl⟩
abbrev main_v134 : Ref sig .tc := ⟨.hbm, 185, rfl⟩
abbrev main_c_37 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_c_38 : Ref sig .tc := ⟨.hbm, 190, rfl⟩
abbrev main_v138 : Ref sig .tc := ⟨.hbm, 191, rfl⟩
abbrev main_v139 : Ref sig .tc := ⟨.hbm, 192, rfl⟩
abbrev main_c_39 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_c_40 : Ref sig .tc := ⟨.hbm, 202, rfl⟩
abbrev main_v148 : Ref sig .tc := ⟨.hbm, 203, rfl⟩
abbrev main_v149 : Ref sig .tc := ⟨.hbm, 204, rfl⟩
abbrev main_c_41 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_c_42 : Ref sig .tc := ⟨.hbm, 209, rfl⟩
abbrev main_v153 : Ref sig .tc := ⟨.hbm, 210, rfl⟩
abbrev main_v154 : Ref sig .tc := ⟨.hbm, 211, rfl⟩
abbrev main_c_43 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_c_44 : Ref sig .tc := ⟨.hbm, 216, rfl⟩
abbrev main_v158 : Ref sig .tc := ⟨.hbm, 217, rfl⟩
abbrev main_v159 : Ref sig .tc := ⟨.hbm, 218, rfl⟩
abbrev main_c_45 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_c_46 : Ref sig .tc := ⟨.hbm, 228, rfl⟩
abbrev main_v168 : Ref sig .tc := ⟨.hbm, 229, rfl⟩
abbrev main_v169 : Ref sig .tc := ⟨.hbm, 230, rfl⟩
abbrev main_c_47 : Ref sig .tc := ⟨.hbm, 231, rfl⟩
abbrev main_v170 : Ref sig .tc := ⟨.hbm, 232, rfl⟩
abbrev main_v171 : Ref sig .tc := ⟨.hbm, 233, rfl⟩
abbrev main_v172 : Ref sig .tc := ⟨.hbm, 234, rfl⟩
abbrev main_c_48 : Ref sig .tc := ⟨.hbm, 235, rfl⟩
abbrev main_v173 : Ref sig .tc := ⟨.hbm, 236, rfl⟩
abbrev main_v174 : Ref sig .tc := ⟨.hbm, 237, rfl⟩
abbrev main_c_49 : Ref sig .tc := ⟨.hbm, 238, rfl⟩
abbrev main_v175 : Ref sig .tc := ⟨.hbm, 239, rfl⟩
abbrev main_v176 : Ref sig .tc := ⟨.hbm, 240, rfl⟩
abbrev main_v177 : Ref sig .tc := ⟨.hbm, 241, rfl⟩
abbrev main_c_50 : Ref sig .tc := ⟨.hbm, 242, rfl⟩
abbrev main_v178 : Ref sig .tc := ⟨.hbm, 243, rfl⟩
abbrev main_v179 : Ref sig .tc := ⟨.hbm, 244, rfl⟩
abbrev main_c_51 : Ref sig .tc := ⟨.hbm, 245, rfl⟩
abbrev main_v180 : Ref sig .tc := ⟨.hbm, 246, rfl⟩
abbrev main_v181 : Ref sig .tc := ⟨.hbm, 247, rfl⟩
abbrev main_v182 : Ref sig .tc := ⟨.hbm, 248, rfl⟩
abbrev main_v183 : Ref sig .tc := ⟨.hbm, 249, rfl⟩
abbrev main_v184 : Ref sig .tc := ⟨.hbm, 250, rfl⟩
abbrev main_v185 : Ref sig .tc := ⟨.hbm, 251, rfl⟩
abbrev main_v186 : Ref sig .tc := ⟨.hbm, 252, rfl⟩
abbrev main_v187 : Ref sig .tc := ⟨.hbm, 253, rfl⟩
abbrev main_cst_52 : Ref sig .tc := ⟨.hbm, 254, rfl⟩
abbrev main_v188 : Ref sig .tc := ⟨.hbm, 255, rfl⟩
abbrev main_v189 : Ref sig .tc := ⟨.hbm, 256, rfl⟩
abbrev main_v190 : Ref sig .tc := ⟨.hbm, 257, rfl⟩
abbrev main_v191 : Ref sig .tc := ⟨.hbm, 258, rfl⟩
abbrev main_v192 : Ref sig .tc := ⟨.hbm, 259, rfl⟩
abbrev main_v193 : Ref sig .tc := ⟨.hbm, 260, rfl⟩
abbrev main_v194 : Ref sig .tc := ⟨.hbm, 261, rfl⟩
abbrev main_cst_53 : Ref sig .tc := ⟨.hbm, 262, rfl⟩
abbrev main_v195 : Ref sig .tc := ⟨.hbm, 263, rfl⟩
abbrev main_v196 : Ref sig .tc := ⟨.hbm, 264, rfl⟩
abbrev main_v197 : Ref sig .tc := ⟨.hbm, 265, rfl⟩
abbrev main_v198 : Ref sig .tc := ⟨.hbm, 266, rfl⟩
abbrev main_v199 : Ref sig .tc := ⟨.hbm, 267, rfl⟩
abbrev main_v200 : Ref sig .tc := ⟨.hbm, 268, rfl⟩
abbrev main_v201 : Ref sig .tc := ⟨.hbm, 269, rfl⟩
abbrev main_cst_54 : Ref sig .tc := ⟨.hbm, 270, rfl⟩
abbrev main_v202 : Ref sig .tc := ⟨.hbm, 271, rfl⟩
abbrev main_v203 : Ref sig .tc := ⟨.hbm, 272, rfl⟩
abbrev main_v204 : Ref sig .tc := ⟨.hbm, 273, rfl⟩
abbrev main_v205 : Ref sig .tc := ⟨.hbm, 274, rfl⟩
abbrev main_v206 : Ref sig .tc := ⟨.hbm, 275, rfl⟩
abbrev main_v207 : Ref sig .tc := ⟨.hbm, 276, rfl⟩
abbrev main_v208 : Ref sig .tc := ⟨.hbm, 277, rfl⟩
abbrev main_cst_55 : Ref sig .tc := ⟨.hbm, 278, rfl⟩
abbrev main_v209 : Ref sig .tc := ⟨.hbm, 279, rfl⟩
abbrev main_v210 : Ref sig .tc := ⟨.hbm, 280, rfl⟩
abbrev main_v211 : Ref sig .tc := ⟨.hbm, 281, rfl⟩
abbrev main_v212 : Ref sig .tc := ⟨.hbm, 282, rfl⟩
abbrev main_v213 : Ref sig .tc := ⟨.hbm, 283, rfl⟩
abbrev main_v214 : Ref sig .tc := ⟨.hbm, 284, rfl⟩
abbrev main_v215 : Ref sig .tc := ⟨.hbm, 285, rfl⟩
abbrev main_cst_56 : Ref sig .tc := ⟨.hbm, 286, rfl⟩
abbrev main_v216 : Ref sig .tc := ⟨.hbm, 287, rfl⟩
abbrev main_v217 : Ref sig .tc := ⟨.hbm, 288, rfl⟩
abbrev main_v218 : Ref sig .tc := ⟨.hbm, 289, rfl⟩
abbrev main_v219 : Ref sig .tc := ⟨.hbm, 290, rfl⟩
abbrev main_v220 : Ref sig .tc := ⟨.hbm, 291, rfl⟩
abbrev main_v221 : Ref sig .tc := ⟨.hbm, 292, rfl⟩
abbrev main_v222 : Ref sig .tc := ⟨.hbm, 293, rfl⟩
abbrev main_cst_57 : Ref sig .tc := ⟨.hbm, 294, rfl⟩
abbrev main_v223 : Ref sig .tc := ⟨.hbm, 295, rfl⟩
abbrev main_v224 : Ref sig .tc := ⟨.hbm, 296, rfl⟩
abbrev main_v225 : Ref sig .tc := ⟨.hbm, 297, rfl⟩
abbrev main_v226 : Ref sig .tc := ⟨.hbm, 298, rfl⟩
abbrev main_v227 : Ref sig .tc := ⟨.hbm, 299, rfl⟩
abbrev main_v228 : Ref sig .tc := ⟨.hbm, 300, rfl⟩
abbrev main_v229 : Ref sig .tc := ⟨.hbm, 301, rfl⟩
abbrev main_cst_58 : Ref sig .tc := ⟨.hbm, 302, rfl⟩
abbrev main_v230 : Ref sig .tc := ⟨.hbm, 303, rfl⟩
abbrev main_v231 : Ref sig .tc := ⟨.hbm, 304, rfl⟩
abbrev main_v232 : Ref sig .tc := ⟨.hbm, 305, rfl⟩
abbrev main_v233 : Ref sig .tc := ⟨.hbm, 306, rfl⟩
abbrev main_v234 : Ref sig .tc := ⟨.hbm, 307, rfl⟩
abbrev main_v235 : Ref sig .tc := ⟨.hbm, 308, rfl⟩
abbrev main_v236 : Ref sig .tc := ⟨.hbm, 309, rfl⟩

abbrev nD : Nat := 1
abbrev τ : Topo := Topo.v7x

variable {F : FTy → Type} [FloatOps F]

class Facts₀ : Prop where
  bcast_S3_S1x3_1 : S3.BroadcastsInDim S1x3 (![1] : Fin 1 → Fin S1x3.rank)
  bcast_S1x3_S8000000x3_0_1 : S1x3.BroadcastsInDim S8000000x3 (![0, 1] : Fin 2 → Fin S8000000x3.rank)
  bcast_S_S8000000x3 : S_.BroadcastsInDim S8000000x3 (![] : Fin 0 → Fin S8000000x3.rank)
  slices_S8000000x3_S8000000x1_0_0 : S8000000x3.Slices ![0, 0] S8000000x1
  slices_S8000000x3_S8000000x1_0_1 : S8000000x3.Slices ![0, 1] S8000000x1
  slices_S8000000x3_S8000000x1_0_2 : S8000000x3.Slices ![0, 2] S8000000x1
  shapeCasts_S8000000x1_S8000000 : S8000000x1.ShapeCasts S8000000
  bcast_S_S8000000 : S_.BroadcastsInDim S8000000 (![] : Fin 0 → Fin S8000000.rank)
  bcast_S8000000_S8000000x1_0 : S8000000.BroadcastsInDim S8000000x1 (![0] : Fin 1 → Fin S8000000x1.rank)
  concatenates_S8000000x1_S8000000x1_S8000000x1_S8000000x3_d1 : Shape.Concatenates [S8000000x1, S8000000x1, S8000000x1] S8000000x3 1
  bcast_S_S8000000x1 : S_.BroadcastsInDim S8000000x1 (![] : Fin 0 → Fin S8000000x1.rank)
  bcast_S8000000x1_S8000000x3_0_1 : S8000000x1.BroadcastsInDim S8000000x3 (![0, 1] : Fin 2 → Fin S8000000x3.rank)
  gather_S205x205x13x3_S8000000x3_S8000000x3_1_012_n_n_012_1_1113_wf : GatherDims.WF S205x205x13x3 S8000000x3 S8000000x3 [1] [0, 1, 2] [] [0, 1, 2] [] 1 ![1, 1, 1, 3]

variable [Facts₀]

def gather_S205x205x13x3_S8000000x3_S8000000x3_1_012_n_n_012_1_1113 : GatherDims S205x205x13x3 S8000000x3 S8000000x3 where
  offsetDims := [1]
  collapsedSliceDims := [0, 1, 2]
  operandBatchingDims := []
  startIndicesBatchingDims := []
  startIndexMap := [0, 1, 2]
  indexVectorDim := 1
  sliceSizes := ![1, 1, 1, 3]
  wf := gather_S205x205x13x3_S8000000x3_S8000000x3_1_012_n_n_012_1_1113_wf

class Facts : Prop extends Facts₀ where

variable [Facts]
-- ==== Proof.FrameBitsHost.lean ====
/- The host side of the frame of @main: the buffer contents the one region is entered with (the fold of the
   fourteen stretches of host operations before it), @main as those stretches, the region and the one stretch after
   it, and the facts about those stretches the frame run takes: none allocates, none writes an argument array, the
   stretch after the region writes no array of the pipeline. -/
import proofs.«147916_j62354335203431_2_alg».proof.Proof.Gen.Kernel.Launch
import proofs.«147916_j62354335203431_2_alg».proof.Proof.Gen.Kernel.Points
import Idealize.ShloMosaic.Lib.Pipeline.FrameBody
import Idealize.ShloMosaic.Lib.Pipeline.FrameSuffix

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-! ## The contents the region is entered with -/

/-- Core `c`'s TensorCore buffer contents when the region is entered, as a valuation: the launch contents folded
    through the fourteen stretches of host operations before the region, in order. -/
abbrev V0 (c : Dev nD) : Valuation τ sig (Elt F) := StableHlo.after (List.flatten [hostOps0, hostOps0_1, hostOps0_2, hostOps0_3, hostOps0_4, hostOps0_5, hostOps0_6, hostOps0_7, hostOps0_8, hostOps0_9, hostOps0_10, hostOps0_11, hostOps0_12, hostOps0_13]) (fun b => m (c, b))
/-- The same read at a TensorCore reference. -/
abbrev V (c : Dev nD) (b : Ref sig .tc) : Buf (Elt F) ((c : Thread nD τ).loc b) := V0 m c (Proc.devRef .tc b)

/-! ## No stretch allocates -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-! ## @main around the region -/

/-- @main is the fourteen stretches, the region, the last stretch: it reduces to the region continued by the last
    stretch, entered at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13] [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh⟩) main_chain

/-! ## The stretch after the region -/

/-- It touches the pipeline's arrays and the buffers bypassing the region only: its buffers are unscoped TensorCore
    references, and with nothing prefetched every such reference is one or the other. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- It writes no array of the pipeline: its one operation writes the transposed result, which is neither. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## No host operation writes an argument array

Every host operation writes its own result buffer only, and no result buffer is an argument: stretch by stretch,
each operation's written set is a singleton, told apart from the argument as references. -/

theorem hostOps0_keeps (r : Ref sig .tc) (hr : r = main_arg0 ∨ r = main_arg1) :
    ∀ op ∈ (hostOps0 : List (HloOp τ sig (Elt F))), Proc.devRef .tc r ∉ op.writes := by
  suffices h : (hostOps0 : List (HloOp τ sig (Elt F))).Forall (fun op => Proc.devRef .tc r ∉ op.writes) from
    List.forall_iff_forall_mem.mp h
  rcases hr with rfl | rfl
  all_goals
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)
theorem hostOps0_1_keeps (r : Ref sig .tc) (hr : r = main_arg0 ∨ r = main_arg1) :
    ∀ op ∈ (hostOps0_1 : List (HloOp τ sig (Elt F))), Proc.devRef .tc r ∉ op.writes := by
  suffices h : (hostOps0_1 : List (HloOp τ sig (Elt F))).Forall (fun op => Proc.devRef .tc r ∉ op.writes) from
    List.forall_iff_forall_mem.mp h
  rcases hr with rfl | rfl
  all_goals
    simp only [hostOps0_1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)
theorem hostOps0_2_keeps (r : Ref sig .tc) (hr : r = main_arg0 ∨ r = main_arg1) :
    ∀ op ∈ (hostOps0_2 : List (HloOp τ sig (Elt F))), Proc.devRef .tc r ∉ op.writes := by
  suffices h : (hostOps0_2 : List (HloOp τ sig (Elt F))).Forall (fun op => Proc.devRef .tc r ∉ op.writes) from
    List.forall_iff_forall_mem.mp h
  rcases hr with rfl | rfl
  all_goals
    simp only [hostOps0_2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)
theorem hostOps0_3_keeps (r : Ref sig .tc) (hr : r = main_arg0 ∨ r = main_arg1) :
    ∀ op ∈ (hostOps0_3 : List (HloOp τ sig (Elt F))), Proc.devRef .tc r ∉ op.writes := by
  suffices h : (hostOps0_3 : List (HloOp τ sig (Elt F))).Forall (fun op => Proc.devRef .tc r ∉ op.writes) from
    List.forall_iff_forall_mem.mp h
  rcases hr with rfl | rfl
  all_goals
    simp only [hostOps0_3, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)
theorem hostOps0_4_keeps (r : Ref sig .tc) (hr : r = main_arg0 ∨ r = main_arg1) :
    ∀ op ∈ (hostOps0_4 : List (HloOp τ sig (Elt F))), Proc.devRef .tc r ∉ op.writes := by
  suffices h : (hostOps0_4 : List (HloOp τ sig (Elt F))).Forall (fun op => Proc.devRef .tc r ∉ op.writes) from
    List.forall_iff_forall_mem.mp h
  rcases hr with rfl | rfl
  all_goals
    simp only [hostOps0_4, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)
theorem hostOps0_5_keeps (r : Ref sig .tc) (hr : r = main_arg0 ∨ r = main_arg1) :
    ∀ op ∈ (hostOps0_5 : List (HloOp τ sig (Elt F))), Proc.devRef .tc r ∉ op.writes := by
  suffices h : (hostOps0_5 : List (HloOp τ sig (Elt F))).Forall (fun op => Proc.devRef .tc r ∉ op.writes) from
    List.forall_iff_forall_mem.mp h
  rcases hr with rfl | rfl
  all_goals
    simp only [hostOps0_5, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)
theorem hostOps0_6_keeps (r : Ref sig .tc) (hr : r = main_arg0 ∨ r = main_arg1) :
    ∀ op ∈ (hostOps0_6 : List (HloOp τ sig (Elt F))), Proc.devRef .tc r ∉ op.writes := by
  suffices h : (hostOps0_6 : List (HloOp τ sig (Elt F))).Forall (fun op => Proc.devRef .tc r ∉ op.writes) from
    List.forall_iff_forall_mem.mp h
  rcases hr with rfl | rfl
  all_goals
    simp only [hostOps0_6, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)
theorem hostOps0_7_keeps (r : Ref sig .tc) (hr : r = main_arg0 ∨ r = main_arg1) :
    ∀ op ∈ (hostOps0_7 : List (HloOp τ sig (Elt F))), Proc.devRef .tc r ∉ op.writes := by
  suffices h : (hostOps0_7 : List (HloOp τ sig (Elt F))).Forall (fun op => Proc.devRef .tc r ∉ op.writes) from
    List.forall_iff_forall_mem.mp h
  rcases hr with rfl | rfl
  all_goals
    simp only [hostOps0_7, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)
theorem hostOps0_8_keeps (r : Ref sig .tc) (hr : r = main_arg0 ∨ r = main_arg1) :
    ∀ op ∈ (hostOps0_8 : List (HloOp τ sig (Elt F))), Proc.devRef .tc r ∉ op.writes := by
  suffices h : (hostOps0_8 : List (HloOp τ sig (Elt F))).Forall (fun op => Proc.devRef .tc r ∉ op.writes) from
    List.forall_iff_forall_mem.mp h
  rcases hr with rfl | rfl
  all_goals
    simp only [hostOps0_8, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)
theorem hostOps0_9_keeps (r : Ref sig .tc) (hr : r = main_arg0 ∨ r = main_arg1) :
    ∀ op ∈ (hostOps0_9 : List (HloOp τ sig (Elt F))), Proc.devRef .tc r ∉ op.writes := by
  suffices h : (hostOps0_9 : List (HloOp τ sig (Elt F))).Forall (fun op => Proc.devRef .tc r ∉ op.writes) from
    List.forall_iff_forall_mem.mp h
  rcases hr with rfl | rfl
  all_goals
    simp only [hostOps0_9, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)
theorem hostOps0_10_keeps (r : Ref sig .tc) (hr : r = main_arg0 ∨ r = main_arg1) :
    ∀ op ∈ (hostOps0_10 : List (HloOp τ sig (Elt F))), Proc.devRef .tc r ∉ op.writes := by
  suffices h : (hostOps0_10 : List (HloOp τ sig (Elt F))).Forall (fun op => Proc.devRef .tc r ∉ op.writes) from
    List.forall_iff_forall_mem.mp h
  rcases hr with rfl | rfl
  all_goals
    simp only [hostOps0_10, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)
theorem hostOps0_11_keeps (r : Ref sig .tc) (hr : r = main_arg0 ∨ r = main_arg1) :
    ∀ op ∈ (hostOps0_11 : List (HloOp τ sig (Elt F))), Proc.devRef .tc r ∉ op.writes := by
  suffices h : (hostOps0_11 : List (HloOp τ sig (Elt F))).Forall (fun op => Proc.devRef .tc r ∉ op.writes) from
    List.forall_iff_forall_mem.mp h
  rcases hr with rfl | rfl
  all_goals
    simp only [hostOps0_11, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)
theorem hostOps0_12_keeps (r : Ref sig .tc) (hr : r = main_arg0 ∨ r = main_arg1) :
    ∀ op ∈ (hostOps0_12 : List (HloOp τ sig (Elt F))), Proc.devRef .tc r ∉ op.writes := by
  suffices h : (hostOps0_12 : List (HloOp τ sig (Elt F))).Forall (fun op => Proc.devRef .tc r ∉ op.writes) from
    List.forall_iff_forall_mem.mp h
  rcases hr with rfl | rfl
  all_goals
    simp only [hostOps0_12, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)
theorem hostOps0_13_keeps (r : Ref sig .tc) (hr : r = main_arg0 ∨ r = main_arg1) :
    ∀ op ∈ (hostOps0_13 : List (HloOp τ sig (Elt F))), Proc.devRef .tc r ∉ op.writes := by
  suffices h : (hostOps0_13 : List (HloOp τ sig (Elt F))).Forall (fun op => Proc.devRef .tc r ∉ op.writes) from
    List.forall_iff_forall_mem.mp h
  rcases hr with rfl | rfl
  all_goals
    simp only [hostOps0_13, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)

/-- The whole prefix: an operation of the flattened stretches is an operation of one of them. -/
theorem prefix_keeps (r : Ref sig .tc) (hr : r = main_arg0 ∨ r = main_arg1) :
    ∀ op ∈ (List.flatten [hostOps0, hostOps0_1, hostOps0_2, hostOps0_3, hostOps0_4, hostOps0_5, hostOps0_6, hostOps0_7, hostOps0_8, hostOps0_9, hostOps0_10, hostOps0_11, hostOps0_12, hostOps0_13] : List (HloOp τ sig (Elt F))), Proc.devRef .tc r ∉ op.writes := by
  intro op hop
  obtain ⟨l, hl, hop⟩ := List.mem_flatten.mp hop
  simp only [List.mem_cons, List.mem_nil_iff, or_false] at hl
  rcases hl with rfl | rfl | rfl | rfl | rfl | rfl | rfl | rfl | rfl | rfl | rfl | rfl | rfl | rfl
  · exact hostOps0_keeps r hr op hop
  · exact hostOps0_1_keeps r hr op hop
  · exact hostOps0_2_keeps r hr op hop
  · exact hostOps0_3_keeps r hr op hop
  · exact hostOps0_4_keeps r hr op hop
  · exact hostOps0_5_keeps r hr op hop
  · exact hostOps0_6_keeps r hr op hop
  · exact hostOps0_7_keeps r hr op hop
  · exact hostOps0_8_keeps r hr op hop
  · exact hostOps0_9_keeps r hr op hop
  · exact hostOps0_10_keeps r hr op hop
  · exact hostOps0_11_keeps r hr op hop
  · exact hostOps0_12_keeps r hr op hop
  · exact hostOps0_13_keeps r hr op hop

/-- The region finds `main_arg0` as launched. -/
theorem V_main_arg0 (c : Dev nD) : V m c main_arg0 = m ((c : Thread nD τ).loc main_arg0) :=
  StableHlo.after_of_forall_not_mem (b := Proc.devRef .tc main_arg0) _ _ (prefix_keeps main_arg0 (.inl rfl))
/-- The region finds `main_arg1` as launched. -/
theorem V_main_arg1 (c : Dev nD) : V m c main_arg1 = m ((c : Thread nD τ).loc main_arg1) :=
  StableHlo.after_of_forall_not_mem (b := Proc.devRef .tc main_arg1) _ _ (prefix_keeps main_arg1 (.inr rfl))

/-- The stretch after the region writes no argument array either. -/
theorem hostOps1_keeps (r : Ref sig .tc) (hr : r = main_arg0 ∨ r = main_arg1) :
    ∀ op ∈ (List.flatten [hostOps1] : List (HloOp τ sig (Elt F))), Proc.devRef .tc r ∉ op.writes := by
  suffices h : (List.flatten [hostOps1] : List (HloOp τ sig (Elt F))).Forall (fun op => Proc.devRef .tc r ∉ op.writes) from
    List.forall_iff_forall_mem.mp h
  rcases hr with rfl | rfl
  all_goals
    simp only [hostOps1, List.flatten_cons, List.flatten_nil, List.append_nil, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    exact StableHlo.devRef_ne_of_ne (by decide)

/-- `main_arg0` ends as launched: the last stretch does not write it, it is no array of the pipeline, and the region
    found it as launched. -/
theorem W_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (hostOps1_keeps main_arg0 (.inl rfl)),
    Pipeline.withArrays_of_ne _ c (V0 m c) _ main_arg0 (by exact (by decide : ∀ w, Pipeline.arrRef spec0 w ≠ main_arg0))]
  exact V_main_arg0 m c
/-- `main_arg1` ends as launched, likewise. -/
theorem W_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (hostOps1_keeps main_arg1 (.inr rfl)),
    Pipeline.withArrays_of_ne _ c (V0 m c) _ main_arg1 (by exact (by decide : ∀ w, Pipeline.arrRef spec0 w ≠ main_arg1))]
  exact V_main_arg1 m c

end Cert.Kernel.Hand

end
-- ==== Proof.FrameBitsBody.lean ====
/- The kernel body of the one region, as a triple on whole staging buffers: what it leaves in the output window's
   buffer as a function of the input window's block (`bodyOut`), and the run of the body establishing it. The body
   loads nine row bands of three rows each out of the 27-row input block, combines them pointwise (a trilinear blend:
   eight corner bands and one band of weights), and stores the 3-row result over the whole output block. -/
import proofs.«147916_j62354335203431_2_alg».proof.Proof.Gen.Kernel.Launch
import proofs.«147916_j62354335203431_2_alg».proof.Proof.Gen.Kernel.Skeleton
import proofs.«147916_j62354335203431_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- Rows 0…2 of the input block. -/
abbrev band0 : Rect S27x80000 := Rect.unit (s := S27x80000) ![0, 0] S3x80000.size inb_S27x80000_S3x80000_0_0
/-- Rows 3…5 of the input block. -/
abbrev band3 : Rect S27x80000 := Rect.unit (s := S27x80000) ![3, 0] S3x80000.size inb_S27x80000_S3x80000_3_0
/-- Rows 6…8 of the input block. -/
abbrev band6 : Rect S27x80000 := Rect.unit (s := S27x80000) ![6, 0] S3x80000.size inb_S27x80000_S3x80000_6_0
/-- Rows 9…11 of the input block. -/
abbrev band9 : Rect S27x80000 := Rect.unit (s := S27x80000) ![9, 0] S3x80000.size inb_S27x80000_S3x80000_9_0
/-- Rows 12…14 of the input block. -/
abbrev band12 : Rect S27x80000 := Rect.unit (s := S27x80000) ![12, 0] S3x80000.size inb_S27x80000_S3x80000_12_0
/-- Rows 15…17 of the input block. -/
abbrev band15 : Rect S27x80000 := Rect.unit (s := S27x80000) ![15, 0] S3x80000.size inb_S27x80000_S3x80000_15_0
/-- Rows 18…20 of the input block. -/
abbrev band18 : Rect S27x80000 := Rect.unit (s := S27x80000) ![18, 0] S3x80000.size inb_S27x80000_S3x80000_18_0
/-- Rows 21…23 of the input block. -/
abbrev band21 : Rect S27x80000 := Rect.unit (s := S27x80000) ![21, 0] S3x80000.size inb_S27x80000_S3x80000_21_0
/-- Rows 24…26 of the input block. -/
abbrev band24 : Rect S27x80000 := Rect.unit (s := S27x80000) ![24, 0] S3x80000.size inb_S27x80000_S3x80000_24_0
/-- The whole output block. -/
abbrev outAll : Rect S3x80000 := Rect.unit (s := S3x80000) ![0, 0] S3x80000.size inb_S3x80000_S3x80000_0_0

/-! ## What the body leaves in the output window's buffer -/

/-- The output window's staging buffer after the body, from the input window's block `x0`: the one store, covering
    the block, of the blend of the nine bands read off `x0` (the payloads are the skeleton's). -/
def bodyOut (x0 : Vec F S27x80000 .f32) : Vec F S3x80000 .f32 :=
  View.canon [⟨outAll, k0_pay1 (k0_pay2 (View.ld x0 band6)) (k0_pay3 (View.ld x0 band9)) (k0_pay4 (View.ld x0 band18)) (k0_pay5 (View.ld x0 band21))
    (k0_pay7 (View.ld x0 band24)) (k0_pay8 (View.ld x0 band24)) (k0_pay9 (View.ld x0 band24))
    (k0_pay10 (View.ld x0 band0) (View.ld x0 band12) (View.ld x0 band24)) (k0_pay11 (View.ld x0 band3) (View.ld x0 band15) (View.ld x0 band24))
    (k0_pay12 (View.ld x0 band24))⟩]

/-- The one store is the whole block, so it covers it (one tile of the block's own size). -/
theorem cover_out (p0 : Vec F S3x80000 .f32) (y : S3x80000.Idx) :
    ∃ pc ∈ ([⟨outAll, p0⟩] : List (View.Piece (Elt F) S3x80000 .f32)), y ∈ pc.1.set :=
  View.cover_of_tiled [⟨outAll, p0⟩] S3x80000.size (by rfl) y

/-! ## The body's triple -/

set_option maxHeartbeats 1000000 in
/-- The kernel body on whole staging memrefs, the input's at read contents `x0` and the output's at anything, runs to
    the continuation holding the input's as it was and the output's at `bodyOut x0`: the nine loads read `x0`'s bands,
    the load of the output buffer reads whatever it holds and its value is dropped, and the store overwrites all of it. -/
theorem sound_kernel (c : Dev nD) (E : Set ℕ) (i : grid0.Coords) (arg1 : Memref sig .tc .vmem S27x80000 .f32) (harg1 : arg1.IsWhole)
    (arg2 : Memref sig .tc .vmem S3x80000 .f32) (harg2 : arg2.IsWhole)
    (x0 : Vec F S27x80000 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (bodyOut x0)) -∗ K ⟨⟩))
      ⊢ wp frame (wpE (defs₀ (F := F)) Variants.none c none) E (cc0__trilinear_kernel i arg1 harg1 arg2 harg2) K := by
  simp only [cc0__trilinear_kernel_eq_skeleton]; unfold cc0__trilinear_kernel_skel
  simp only [k0_part1_eq_skeleton]; unfold k0_part1_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  try dsimp only
  exact View.read_writes_eq_canon _ _ _ (cover_out _)

end Cert.Kernel.Hand

end
-- ==== Proof.FrameBits.lean ====
/- The frame run of @main: the proof data of the one pipeline (its arrays as the region finds them, the input window's
   buffer at its block and the output window's at the body's result of that block after every point), the body
   obligation at a generic grid point, the run of @main — fourteen stretches of host operations, the region, one
   stretch more — and the frame claim: both argument arrays end as launched. -/
import proofs.«147916_j62354335203431_2_alg».proof.Proof.FrameBitsHost
import proofs.«147916_j62354335203431_2_alg».proof.Proof.FrameBitsBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, fetched there or not, for any proof
    data whose array is `V`'s and whose body leaves the block in place: the window is fetched whole and never idle. -/
theorem before_in_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The pipeline's proof data -/

/-- The proof data of the one pipeline on core `c`: the arrays as the region finds them; after the body at point `t`
    the input's buffer at its block and the output's at `bodyOut` of that block; the invariant the scoped rest and the
    generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => bodyOut (iblk m c 0 t)
  Φ _ := Pipeline.ΦA spec0 c
  q _ := fullShare
  owed _ := 0

/-- The proof data's arrays are the region-entry contents (the definition projected: `V`, a fold over the whole host
    prefix, is never unfolded to check it). -/
theorem A_eq (c : Dev nD) (w : Fin cfg0.W) : (dats m 0 c).A w = V m c (Pipeline.arrRef spec0 w) := by
  dsimp only [dats]

/-- What the body leaves, window by window. -/
theorem after_in (c : Dev nD) (t : Fin cfg0.N) : (dats m 0 c).after 0 t = iblk m c 0 t := by dsimp only [dats]
theorem after_out (c : Dev nD) (t : Fin cfg0.N) : (dats m 0 c).after 1 t = bodyOut (iblk m c 0 t) := by dsimp only [dats]

/-- The input's current staging buffer holds its block at every point. -/
theorem before_in (c : Dev nD) (t : Fin cfg0.N) (d) : (dats m 0 c).before 0 t d = iblk m c 0 t :=
  before_in_of m (dats m 0 c) (A_eq m c 0) (after_in m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point: the input's memref holds its block, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in]
  rw [show (dats m 0 c).Φ t.succ = (dats m 0 c).Φ t.castSucc from rfl,
    show (dats m 0 c).owesAt () t.succ = (dats m 0 c).owesAt () t.castSucc from rfl,
    after_in, after_out]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main on
    the TensorCores terminates, and every final state has every array of the pipeline at what the proof data give and
    every other unscoped buffer as the stretch after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME: @main runs, and both argument arrays end as launched — neither is an array of the pipeline, so each is
    read off the post's second clause, and no host operation before or after the region writes it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩) (run_main m ρ)

end Cert.Kernel.Hand

end
-- ==== Proof.FrameIdealHost.lean ====
/- The host side of the frame of @main: the buffer contents the one region is entered with (the fold of the
   fourteen stretches of host operations before it), @main as those stretches, the region and the one stretch after
   it, and the facts about those stretches the frame run takes: none allocates, none writes an argument array, the
   stretch after the region writes no array of the pipeline. -/
import proofs.«147916_j62354335203431_2_alg».proof.Proof.Gen.KernelIdeal.Launch
import proofs.«147916_j62354335203431_2_alg».proof.Proof.Gen.KernelIdeal.Points
import Idealize.ShloMosaic.Lib.Pipeline.FrameBody
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-! ## The contents the region is entered with -/

/-- Core `c`'s TensorCore buffer contents when the region is entered, as a valuation: the launch contents folded
    through the fourteen stretches of host operations before the region, in order. -/
abbrev V0 (c : Dev nD) : Valuation τ sig (Elt F) := StableHlo.after (List.flatten [hostOps0, hostOps0_1, hostOps0_2, hostOps0_3, hostOps0_4, hostOps0_5, hostOps0_6, hostOps0_7, hostOps0_8, hostOps0_9, hostOps0_10, hostOps0_11, hostOps0_12, hostOps0_13]) (fun b => m (c, b))
/-- The same read at a TensorCore reference. -/
abbrev V (c : Dev nD) (b : Ref sig .tc) : Buf (Elt F) ((c : Thread nD τ).loc b) := V0 m c (Proc.devRef .tc b)

/-! ## No stretch allocates -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-! ## @main around the region -/

/-- @main is the fourteen stretches, the region, the last stretch: it reduces to the region continued by the last
    stretch, entered at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13] [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh⟩) main_chain

/-! ## The stretch after the region -/

/-- It touches the pipeline's arrays and the buffers bypassing the region only: its buffers are unscoped TensorCore
    references, and with nothing prefetched every such reference is one or the other. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- It writes no array of the pipeline: its one operation writes the transposed result, which is neither. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## No host operation writes an argument array

Every host operation writes its own result buffer only, and no result buffer is an argument: stretch by stretch,
each operation's written set is a singleton, told apart from the argument as references. -/

theorem hostOps0_keeps (r : Ref sig .tc) (hr : r = main_arg0 ∨ r = main_arg1) :
    ∀ op ∈ (hostOps0 : List (HloOp τ sig (Elt F))), Proc.devRef .tc r ∉ op.writes := by
  suffices h : (hostOps0 : List (HloOp τ sig (Elt F))).Forall (fun op => Proc.devRef .tc r ∉ op.writes) from
    List.forall_iff_forall_mem.mp h
  rcases hr with rfl | rfl
  all_goals
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)
theorem hostOps0_1_keeps (r : Ref sig .tc) (hr : r = main_arg0 ∨ r = main_arg1) :
    ∀ op ∈ (hostOps0_1 : List (HloOp τ sig (Elt F))), Proc.devRef .tc r ∉ op.writes := by
  suffices h : (hostOps0_1 : List (HloOp τ sig (Elt F))).Forall (fun op => Proc.devRef .tc r ∉ op.writes) from
    List.forall_iff_forall_mem.mp h
  rcases hr with rfl | rfl
  all_goals
    simp only [hostOps0_1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)
theorem hostOps0_2_keeps (r : Ref sig .tc) (hr : r = main_arg0 ∨ r = main_arg1) :
    ∀ op ∈ (hostOps0_2 : List (HloOp τ sig (Elt F))), Proc.devRef .tc r ∉ op.writes := by
  suffices h : (hostOps0_2 : List (HloOp τ sig (Elt F))).Forall (fun op => Proc.devRef .tc r ∉ op.writes) from
    List.forall_iff_forall_mem.mp h
  rcases hr with rfl | rfl
  all_goals
    simp only [hostOps0_2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)
theorem hostOps0_3_keeps (r : Ref sig .tc) (hr : r = main_arg0 ∨ r = main_arg1) :
    ∀ op ∈ (hostOps0_3 : List (HloOp τ sig (Elt F))), Proc.devRef .tc r ∉ op.writes := by
  suffices h : (hostOps0_3 : List (HloOp τ sig (Elt F))).Forall (fun op => Proc.devRef .tc r ∉ op.writes) from
    List.forall_iff_forall_mem.mp h
  rcases hr with rfl | rfl
  all_goals
    simp only [hostOps0_3, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)
theorem hostOps0_4_keeps (r : Ref sig .tc) (hr : r = main_arg0 ∨ r = main_arg1) :
    ∀ op ∈ (hostOps0_4 : List (HloOp τ sig (Elt F))), Proc.devRef .tc r ∉ op.writes := by
  suffices h : (hostOps0_4 : List (HloOp τ sig (Elt F))).Forall (fun op => Proc.devRef .tc r ∉ op.writes) from
    List.forall_iff_forall_mem.mp h
  rcases hr with rfl | rfl
  all_goals
    simp only [hostOps0_4, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)
theorem hostOps0_5_keeps (r : Ref sig .tc) (hr : r = main_arg0 ∨ r = main_arg1) :
    ∀ op ∈ (hostOps0_5 : List (HloOp τ sig (Elt F))), Proc.devRef .tc r ∉ op.writes := by
  suffices h : (hostOps0_5 : List (HloOp τ sig (Elt F))).Forall (fun op => Proc.devRef .tc r ∉ op.writes) from
    List.forall_iff_forall_mem.mp h
  rcases hr with rfl | rfl
  all_goals
    simp only [hostOps0_5, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)
theorem hostOps0_6_keeps (r : Ref sig .tc) (hr : r = main_arg0 ∨ r = main_arg1) :
    ∀ op ∈ (hostOps0_6 : List (HloOp τ sig (Elt F))), Proc.devRef .tc r ∉ op.writes := by
  suffices h : (hostOps0_6 : List (HloOp τ sig (Elt F))).Forall (fun op => Proc.devRef .tc r ∉ op.writes) from
    List.forall_iff_forall_mem.mp h
  rcases hr with rfl | rfl
  all_goals
    simp only [hostOps0_6, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)
theorem hostOps0_7_keeps (r : Ref sig .tc) (hr : r = main_arg0 ∨ r = main_arg1) :
    ∀ op ∈ (hostOps0_7 : List (HloOp τ sig (Elt F))), Proc.devRef .tc r ∉ op.writes := by
  suffices h : (hostOps0_7 : List (HloOp τ sig (Elt F))).Forall (fun op => Proc.devRef .tc r ∉ op.writes) from
    List.forall_iff_forall_mem.mp h
  rcases hr with rfl | rfl
  all_goals
    simp only [hostOps0_7, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)
theorem hostOps0_8_keeps (r : Ref sig .tc) (hr : r = main_arg0 ∨ r = main_arg1) :
    ∀ op ∈ (hostOps0_8 : List (HloOp τ sig (Elt F))), Proc.devRef .tc r ∉ op.writes := by
  suffices h : (hostOps0_8 : List (HloOp τ sig (Elt F))).Forall (fun op => Proc.devRef .tc r ∉ op.writes) from
    List.forall_iff_forall_mem.mp h
  rcases hr with rfl | rfl
  all_goals
    simp only [hostOps0_8, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)
theorem hostOps0_9_keeps (r : Ref sig .tc) (hr : r = main_arg0 ∨ r = main_arg1) :
    ∀ op ∈ (hostOps0_9 : List (HloOp τ sig (Elt F))), Proc.devRef .tc r ∉ op.writes := by
  suffices h : (hostOps0_9 : List (HloOp τ sig (Elt F))).Forall (fun op => Proc.devRef .tc r ∉ op.writes) from
    List.forall_iff_forall_mem.mp h
  rcases hr with rfl | rfl
  all_goals
    simp only [hostOps0_9, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)
theorem hostOps0_10_keeps (r : Ref sig .tc) (hr : r = main_arg0 ∨ r = main_arg1) :
    ∀ op ∈ (hostOps0_10 : List (HloOp τ sig (Elt F))), Proc.devRef .tc r ∉ op.writes := by
  suffices h : (hostOps0_10 : List (HloOp τ sig (Elt F))).Forall (fun op => Proc.devRef .tc r ∉ op.writes) from
    List.forall_iff_forall_mem.mp h
  rcases hr with rfl | rfl
  all_goals
    simp only [hostOps0_10, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)
theorem hostOps0_11_keeps (r : Ref sig .tc) (hr : r = main_arg0 ∨ r = main_arg1) :
    ∀ op ∈ (hostOps0_11 : List (HloOp τ sig (Elt F))), Proc.devRef .tc r ∉ op.writes := by
  suffices h : (hostOps0_11 : List (HloOp τ sig (Elt F))).Forall (fun op => Proc.devRef .tc r ∉ op.writes) from
    List.forall_iff_forall_mem.mp h
  rcases hr with rfl | rfl
  all_goals
    simp only [hostOps0_11, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)
theorem hostOps0_12_keeps (r : Ref sig .tc) (hr : r = main_arg0 ∨ r = main_arg1) :
    ∀ op ∈ (hostOps0_12 : List (HloOp τ sig (Elt F))), Proc.devRef .tc r ∉ op.writes := by
  suffices h : (hostOps0_12 : List (HloOp τ sig (Elt F))).Forall (fun op => Proc.devRef .tc r ∉ op.writes) from
    List.forall_iff_forall_mem.mp h
  rcases hr with rfl | rfl
  all_goals
    simp only [hostOps0_12, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)
theorem hostOps0_13_keeps (r : Ref sig .tc) (hr : r = main_arg0 ∨ r = main_arg1) :
    ∀ op ∈ (hostOps0_13 : List (HloOp τ sig (Elt F))), Proc.devRef .tc r ∉ op.writes := by
  suffices h : (hostOps0_13 : List (HloOp τ sig (Elt F))).Forall (fun op => Proc.devRef .tc r ∉ op.writes) from
    List.forall_iff_forall_mem.mp h
  rcases hr with rfl | rfl
  all_goals
    simp only [hostOps0_13, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)

/-- The whole prefix: an operation of the flattened stretches is an operation of one of them. -/
theorem prefix_keeps (r : Ref sig .tc) (hr : r = main_arg0 ∨ r = main_arg1) :
    ∀ op ∈ (List.flatten [hostOps0, hostOps0_1, hostOps0_2, hostOps0_3, hostOps0_4, hostOps0_5, hostOps0_6, hostOps0_7, hostOps0_8, hostOps0_9, hostOps0_10, hostOps0_11, hostOps0_12, hostOps0_13] : List (HloOp τ sig (Elt F))), Proc.devRef .tc r ∉ op.writes := by
  intro op hop
  obtain ⟨l, hl, hop⟩ := List.mem_flatten.mp hop
  simp only [List.mem_cons, List.mem_nil_iff, or_false] at hl
  rcases hl with rfl | rfl | rfl | rfl | rfl | rfl | rfl | rfl | rfl | rfl | rfl | rfl | rfl | rfl
  · exact hostOps0_keeps r hr op hop
  · exact hostOps0_1_keeps r hr op hop
  · exact hostOps0_2_keeps r hr op hop
  · exact hostOps0_3_keeps r hr op hop
  · exact hostOps0_4_keeps r hr op hop
  · exact hostOps0_5_keeps r hr op hop
  · exact hostOps0_6_keeps r hr op hop
  · exact hostOps0_7_keeps r hr op hop
  · exact hostOps0_8_keeps r hr op hop
  · exact hostOps0_9_keeps r hr op hop
  · exact hostOps0_10_keeps r hr op hop
  · exact hostOps0_11_keeps r hr op hop
  · exact hostOps0_12_keeps r hr op hop
  · exact hostOps0_13_keeps r hr op hop

/-- The region finds `main_arg0` as launched. -/
theorem V_main_arg0 (c : Dev nD) : V m c main_arg0 = m ((c : Thread nD τ).loc main_arg0) :=
  StableHlo.after_of_forall_not_mem (b := Proc.devRef .tc main_arg0) _ _ (prefix_keeps main_arg0 (.inl rfl))
/-- The region finds `main_arg1` as launched. -/
theorem V_main_arg1 (c : Dev nD) : V m c main_arg1 = m ((c : Thread nD τ).loc main_arg1) :=
  StableHlo.after_of_forall_not_mem (b := Proc.devRef .tc main_arg1) _ _ (prefix_keeps main_arg1 (.inr rfl))

/-- The stretch after the region writes no argument array either. -/
theorem hostOps1_keeps (r : Ref sig .tc) (hr : r = main_arg0 ∨ r = main_arg1) :
    ∀ op ∈ (List.flatten [hostOps1] : List (HloOp τ sig (Elt F))), Proc.devRef .tc r ∉ op.writes := by
  suffices h : (List.flatten [hostOps1] : List (HloOp τ sig (Elt F))).Forall (fun op => Proc.devRef .tc r ∉ op.writes) from
    List.forall_iff_forall_mem.mp h
  rcases hr with rfl | rfl
  all_goals
    simp only [hostOps1, List.flatten_cons, List.flatten_nil, List.append_nil, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    exact StableHlo.devRef_ne_of_ne (by decide)

/-- `main_arg0` ends as launched: the last stretch does not write it, it is no array of the pipeline, and the region
    found it as launched. -/
theorem W_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (hostOps1_keeps main_arg0 (.inl rfl)),
    Pipeline.withArrays_of_ne _ c (V0 m c) _ main_arg0 (by exact (by decide : ∀ w, Pipeline.arrRef spec0 w ≠ main_arg0))]
  exact V_main_arg0 m c
/-- `main_arg1` ends as launched, likewise. -/
theorem W_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (hostOps1_keeps main_arg1 (.inr rfl)),
    Pipeline.withArrays_of_ne _ c (V0 m c) _ main_arg1 (by exact (by decide : ∀ w, Pipeline.arrRef spec0 w ≠ main_arg1))]
  exact V_main_arg1 m c

end Cert.KernelIdeal.Hand

end
-- ==== Proof.FrameIdealBody.lean ====
/- The kernel body of the one region, as a triple on whole staging buffers: what it leaves in the output window's
   buffer as a function of the input window's block (`bodyOut`), and the run of the body establishing it. The body
   loads nine row bands of three rows each out of the 27-row input block, combines them pointwise (a trilinear blend:
   eight corner bands and one band of weights), and stores the 3-row result over the whole output block. -/
import proofs.«147916_j62354335203431_2_alg».proof.Proof.Gen.KernelIdeal.Launch
import proofs.«147916_j62354335203431_2_alg».proof.Proof.Gen.KernelIdeal.Skeleton
import proofs.«147916_j62354335203431_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- Rows 0…2 of the input block. -/
abbrev band0 : Rect S27x80000 := Rect.unit (s := S27x80000) ![0, 0] S3x80000.size inb_S27x80000_S3x80000_0_0
/-- Rows 3…5 of the input block. -/
abbrev band3 : Rect S27x80000 := Rect.unit (s := S27x80000) ![3, 0] S3x80000.size inb_S27x80000_S3x80000_3_0
/-- Rows 6…8 of the input block. -/
abbrev band6 : Rect S27x80000 := Rect.unit (s := S27x80000) ![6, 0] S3x80000.size inb_S27x80000_S3x80000_6_0
/-- Rows 9…11 of the input block. -/
abbrev band9 : Rect S27x80000 := Rect.unit (s := S27x80000) ![9, 0] S3x80000.size inb_S27x80000_S3x80000_9_0
/-- Rows 12…14 of the input block. -/
abbrev band12 : Rect S27x80000 := Rect.unit (s := S27x80000) ![12, 0] S3x80000.size inb_S27x80000_S3x80000_12_0
/-- Rows 15…17 of the input block. -/
abbrev band15 : Rect S27x80000 := Rect.unit (s := S27x80000) ![15, 0] S3x80000.size inb_S27x80000_S3x80000_15_0
/-- Rows 18…20 of the input block. -/
abbrev band18 : Rect S27x80000 := Rect.unit (s := S27x80000) ![18, 0] S3x80000.size inb_S27x80000_S3x80000_18_0
/-- Rows 21…23 of the input block. -/
abbrev band21 : Rect S27x80000 := Rect.unit (s := S27x80000) ![21, 0] S3x80000.size inb_S27x80000_S3x80000_21_0
/-- Rows 24…26 of the input block. -/
abbrev band24 : Rect S27x80000 := Rect.unit (s := S27x80000) ![24, 0] S3x80000.size inb_S27x80000_S3x80000_24_0
/-- The whole output block. -/
abbrev outAll : Rect S3x80000 := Rect.unit (s := S3x80000) ![0, 0] S3x80000.size inb_S3x80000_S3x80000_0_0

/-! ## What the body leaves in the output window's buffer -/

/-- The output window's staging buffer after the body, from the input window's block `x0`: the one store, covering
    the block, of the blend of the nine bands read off `x0` (the payloads are the skeleton's). -/
def bodyOut (x0 : Vec F S27x80000 .f32) : Vec F S3x80000 .f32 :=
  View.canon [⟨outAll, k0_pay1 (k0_pay2 (View.ld x0 band6)) (k0_pay3 (View.ld x0 band9)) (k0_pay4 (View.ld x0 band18)) (k0_pay5 (View.ld x0 band21))
    (k0_pay7 (View.ld x0 band24)) (k0_pay8 (View.ld x0 band24)) (k0_pay9 (View.ld x0 band24))
    (k0_pay10 (View.ld x0 band0) (View.ld x0 band12) (View.ld x0 band24)) (k0_pay11 (View.ld x0 band3) (View.ld x0 band15) (View.ld x0 band24))
    (k0_pay12 (View.ld x0 band24))⟩]

/-- The one store is the whole block, so it covers it (one tile of the block's own size). -/
theorem cover_out (p0 : Vec F S3x80000 .f32) (y : S3x80000.Idx) :
    ∃ pc ∈ ([⟨outAll, p0⟩] : List (View.Piece (Elt F) S3x80000 .f32)), y ∈ pc.1.set :=
  View.cover_of_tiled [⟨outAll, p0⟩] S3x80000.size (by rfl) y

/-! ## The body's triple -/

set_option maxHeartbeats 1000000 in
/-- The kernel body on whole staging memrefs, the input's at read contents `x0` and the output's at anything, runs to
    the continuation holding the input's as it was and the output's at `bodyOut x0`: the nine loads read `x0`'s bands,
    the load of the output buffer reads whatever it holds and its value is dropped, and the store overwrites all of it. -/
theorem sound_kernel (c : Dev nD) (E : Set ℕ) (i : grid0.Coords) (arg1 : Memref sig .tc .vmem S27x80000 .f32) (harg1 : arg1.IsWhole)
    (arg2 : Memref sig .tc .vmem S3x80000 .f32) (harg2 : arg2.IsWhole)
    (x0 : Vec F S27x80000 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (bodyOut x0)) -∗ K ⟨⟩))
      ⊢ wp frame (wpE (defs₀ (F := F)) Variants.none c none) E (cc0__trilinear_kernel i arg1 harg1 arg2 harg2) K := by
  simp only [cc0__trilinear_kernel_eq_skeleton]; unfold cc0__trilinear_kernel_skel
  simp only [k0_part1_eq_skeleton]; unfold k0_part1_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  try dsimp only
  exact View.read_writes_eq_canon _ _ _ (cover_out _)

end Cert.KernelIdeal.Hand

end
-- ==== Proof.FrameIdeal.lean ====
/- The frame run of @main: the proof data of the one pipeline (its arrays as the region finds them, the input window's
   buffer at its block and the output window's at the body's result of that block after every point), the body
   obligation at a generic grid point, the run of @main — fourteen stretches of host operations, the region, one
   stretch more — and the frame claim: both argument arrays end as launched. -/
import proofs.«147916_j62354335203431_2_alg».proof.Proof.FrameIdealHost
import proofs.«147916_j62354335203431_2_alg».proof.Proof.FrameIdealBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, fetched there or not, for any proof
    data whose array is `V`'s and whose body leaves the block in place: the window is fetched whole and never idle. -/
theorem before_in_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The pipeline's proof data -/

/-- The proof data of the one pipeline on core `c`: the arrays as the region finds them; after the body at point `t`
    the input's buffer at its block and the output's at `bodyOut` of that block; the invariant the scoped rest and the
    generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => bodyOut (iblk m c 0 t)
  Φ _ := Pipeline.ΦA spec0 c
  q _ := fullShare
  owed _ := 0

/-- The proof data's arrays are the region-entry contents (the definition projected: `V`, a fold over the whole host
    prefix, is never unfolded to check it). -/
theorem A_eq (c : Dev nD) (w : Fin cfg0.W) : (dats m 0 c).A w = V m c (Pipeline.arrRef spec0 w) := by
  dsimp only [dats]

/-- What the body leaves, window by window. -/
theorem after_in (c : Dev nD) (t : Fin cfg0.N) : (dats m 0 c).after 0 t = iblk m c 0 t := by dsimp only [dats]
theorem after_out (c : Dev nD) (t : Fin cfg0.N) : (dats m 0 c).after 1 t = bodyOut (iblk m c 0 t) := by dsimp only [dats]

/-- The input's current staging buffer holds its block at every point. -/
theorem before_in (c : Dev nD) (t : Fin cfg0.N) (d) : (dats m 0 c).before 0 t d = iblk m c 0 t :=
  before_in_of m (dats m 0 c) (A_eq m c 0) (after_in m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point: the input's memref holds its block, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in]
  rw [show (dats m 0 c).Φ t.succ = (dats m 0 c).Φ t.castSucc from rfl,
    show (dats m 0 c).owesAt () t.succ = (dats m 0 c).owesAt () t.castSucc from rfl,
    after_in, after_out]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main on
    the TensorCores terminates, and every final state has every array of the pipeline at what the proof data give and
    every other unscoped buffer as the stretch after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME: @main runs, and both argument arrays end as launched — neither is an array of the pipeline, so each is
    read off the post's second clause, and no host operation before or after the region writes it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩) (run_main m ρ)

end Cert.KernelIdeal.Hand

end
-- ==== Proof.KerTerm.lean ====
/-
  The 27-row slab the kernel's one region reads, as a pure function of the program's two argument arrays, stated as
  small named stages in the kernel's channel-first layout (one row per channel, one column per point): the continuous
  grid coordinate of each point, its floor, the two clamped corner indices, the fractional offset, the rows of an index
  array, the flat index of a grid cell, the grid flattened to one column per cell, the negative-index wrap, the
  in-range mask, the masked gather of one corner of the cell, and the slab: the eight corners' values, in the order
  (x, y, z) = 000, 001, 010, 011, 100, 101, 110, 111, then the fractional offsets. Each stage is the composition of the
  program's operations in their order, so the host prefix of the program reads back as `slab`.
-/
import proofs.«147916_j62354335203431_2_alg».proof.KernelIdeal
import proofs.«147916_j62354335203431_2_alg».proof.Proof.Gen.KernelIdeal

noncomputable section

namespace Cert.KernelIdeal.Hand

open Cert.KernelIdeal Idealize.ShloMosaic
open Cert.KernelIdeal.Facts₀ Cert.KernelIdeal.Facts

variable {F : FTy → Type} [FloatOps F]

/-- The lower corner of the grid's range, one entry per coordinate axis. -/
def lo : FVec F S3 .f32 := fun i => FloatOps.ofBits .f32 (lit0 (S3.rowMajor i))

/-- The largest valid index along each grid axis. -/
def hi : IVec S3 32 := fun i => lit1 (S3.rowMajor i)

/-- The continuous grid coordinate, channel-first: (pᵀ − lo) / voxel, the voxel edge being 0.5. -/
def gcT (p : FVec F S8000000x3 .f32) : FVec F S3x8000000 .f32 :=
  Host.divf
    (subf (transpose S3x8000000 [1, 0] p transposes_S8000000x3_S3x8000000_1_0)
      (broadcastInDim S3x8000000 ![0, 1] bcast_S3x1_S3x8000000_0_1 (shapeCast S3x1 (lo (F := F)) shapeCasts_S3_S3x1)))
    (broadcastInDim S3x8000000 ![] bcast_S_S3x8000000 (constant S_ .f32 0x3F000000#32))

/-- The integer cell index: the floor of the grid coordinate. -/
def f0T (p : FVec F S8000000x3 .f32) : IVec S3x8000000 32 :=
  fptosi 32 (Host.floor (gcT p))

/-- Clamp into [0, hi] per axis: min (hi, max (0, x)). -/
def clipT (x : IVec S3x8000000 32) : IVec S3x8000000 32 :=
  minsi
    (broadcastInDim S3x8000000 ![0, 1] bcast_S3x1_S3x8000000_0_1 (shapeCast S3x1 hi shapeCasts_S3_S3x1))
    (maxsi (broadcastInDim S3x8000000 ![] bcast_S_S3x8000000 (id (constantI S_ 32 0#32))) x)

/-- The clamped lower corner. -/
def i0T (p : FVec F S8000000x3 .f32) : IVec S3x8000000 32 := clipT (f0T p)

/-- The clamped upper corner. -/
def i1T (p : FVec F S8000000x3 .f32) : IVec S3x8000000 32 :=
  clipT (addi (f0T p) (broadcastInDim S3x8000000 ![] bcast_S_S3x8000000 (constantI S_ 32 1#32)))

/-- The fractional offset from the clamped lower corner. -/
def fracT (p : FVec F S8000000x3 .f32) : FVec F S3x8000000 .f32 :=
  subf (gcT p) (sitofp .f32 (i0T p))

/-- Row 0 of an integer array, as a vector. -/
def irow0 (x : IVec S3x8000000 32) : IVec S8000000 32 :=
  shapeCast S8000000 (extractStridedSlice S1x8000000 ![0, 0] x slices_S3x8000000_S1x8000000_0_0)
    shapeCasts_S1x8000000_S8000000
/-- Row 1 of an integer array, as a vector. -/
def irow1 (x : IVec S3x8000000 32) : IVec S8000000 32 :=
  shapeCast S8000000 (extractStridedSlice S1x8000000 ![1, 0] x slices_S3x8000000_S1x8000000_1_0)
    shapeCasts_S1x8000000_S8000000
/-- Row 2 of an integer array, as a vector. -/
def irow2 (x : IVec S3x8000000 32) : IVec S8000000 32 :=
  shapeCast S8000000 (extractStridedSlice S1x8000000 ![2, 0] x slices_S3x8000000_S1x8000000_2_0)
    shapeCasts_S1x8000000_S8000000

/-- The flat index of grid cell (x, y, z) in the grid laid out row-major over 205 · 205 · 13 cells: x · 2665 + y · 13 + z. -/
def comb (x y z : IVec S8000000 32) : IVec S8000000 32 :=
  addi
    (addi (muli x (broadcastInDim S8000000 ![] bcast_S_S8000000 (constantI S_ 32 2665#32)))
          (muli y (broadcastInDim S8000000 ![] bcast_S_S8000000 (constantI S_ 32 13#32))))
    z

/-- The grid flattened to one column per cell, channel-first. -/
def gridT (g : FVec F S205x205x13x3 .f32) : FVec F S3x546325 .f32 :=
  transpose S3x546325 [1, 0] (shapeCast S546325x3 g shapeCasts_S205x205x13x3_S546325x3) transposes_S546325x3_S3x546325_1_0

/-- The index of a gather along the cell axis: a negative index counts from the end of the 546325 cells; stood up as
    a one-column array. -/
def takeIdx (i : IVec S8000000 32) : IVec S8000000x1 32 :=
  broadcastInDim S8000000x1 ![0] bcast_S8000000_S8000000x1_0
    (select
      (cmpi .slt i (broadcastInDim S8000000 ![] bcast_S_S8000000 (constantI S_ 32 0#32)))
      (addi i (broadcastInDim S8000000 ![] bcast_S_S8000000 (constantI S_ 32 546325#32)))
      i)

/-- Whether each index lies in [0, 546324], repeated over the three channels. -/
def takeMask (i5 : IVec S8000000x1 32) : IVec S3x8000000 1 :=
  broadcastInDim S3x8000000 ![1] bcast_S8000000_S3x8000000_1
    (Host.reduce IntOp.andi
      (andi
        (cmpi .sge i5 (broadcastInDim S8000000x1 ![] bcast_S_S8000000x1 (constantI S_ 32 0#32)))
        (cmpi .sle i5 (broadcastInDim S8000000x1 ![0, 1] bcast_S1x1_S8000000x1_0_1
          (broadcastInDim S1x1 ![1] bcast_S1_S1x1_1 (constantI S1 32 546324#32)))))
      (constantI S_ 1 1#1) reducesTo_S8000000x1_S8000000_d1 h_S_)

/-- The columns of `t` at the cells `i`, one per point; a point whose index is out of range gets the fill value. -/
def take (t : FVec F S3x546325 .f32) (i : IVec S8000000 32) : FVec F S3x8000000 .f32 :=
  select (takeMask (takeIdx i))
    (Host.gather gather_S3x546325_S8000000x1_S3x8000000_0_1_n_n_1_1_31 t (takeIdx i))
    (broadcastInDim S3x8000000 ![] bcast_S_S3x8000000 (constant S_ .f32 0x7FC00000#32))

/-- The slab the region reads: the grid's 3-vectors at the eight corners of each point's cell, in the order
    (x, y, z) = 000, 001, 010, 011, 100, 101, 110, 111, then the three fractional offsets — 27 rows. -/
def slab (p : FVec F S8000000x3 .f32) (g : FVec F S205x205x13x3 .f32) : FVec F S27x8000000 .f32 :=
  concatenate S27x8000000 0
    [⟨S3x8000000, take (gridT g) (comb (irow0 (i0T p)) (irow1 (i0T p)) (irow2 (i0T p)))⟩,
     ⟨S3x8000000, take (gridT g) (comb (irow0 (i0T p)) (irow1 (i0T p)) (irow2 (i1T p)))⟩,
     ⟨S3x8000000, take (gridT g) (comb (irow0 (i0T p)) (irow1 (i1T p)) (irow2 (i0T p)))⟩,
     ⟨S3x8000000, take (gridT g) (comb (irow0 (i0T p)) (irow1 (i1T p)) (irow2 (i1T p)))⟩,
     ⟨S3x8000000, take (gridT g) (comb (irow0 (i1T p)) (irow1 (i0T p)) (irow2 (i0T p)))⟩,
     ⟨S3x8000000, take (gridT g) (comb (irow0 (i1T p)) (irow1 (i0T p)) (irow2 (i1T p)))⟩,
     ⟨S3x8000000, take (gridT g) (comb (irow0 (i1T p)) (irow1 (i1T p)) (irow2 (i0T p)))⟩,
     ⟨S3x8000000, take (gridT g) (comb (irow0 (i1T p)) (irow1 (i1T p)) (irow2 (i1T p)))⟩,
     ⟨S3x8000000, fracT p⟩]
    concatenates_S3x8000000_S3x8000000_S3x8000000_S3x8000000_S3x8000000_S3x8000000_S3x8000000_S3x8000000_S3x8000000_S27x8000000_d0

end Cert.KernelIdeal.Hand

end
-- ==== Proof.KerSlab.lean ====
/-
  The slab read back: the contents of the 27-row array the region reads, after the host operations before the region
  have run in order from the launch contents, are `slab` of the two argument arrays. The last host operation
  concatenates nine arrays along the rows and writes nothing else, so the slab is the concatenation of those nine as
  the region finds them; each of the nine is then read back through the whole line of operations: eight masked gathers
  of the flattened grid at the flat indices of the eight corners of each point's cell, and the fractional offsets.
-/
import proofs.«147916_j62354335203431_2_alg».proof.Proof.KerTerm
import proofs.«147916_j62354335203431_2_alg».proof.Proof.FrameIdealHost
import Idealize.ShloMosaic.Lib.StableHlo.Run

set_option maxRecDepth 16384

noncomputable section

namespace Cert.KernelIdeal.Hand

open Cert.KernelIdeal Idealize.ShloMosaic Idealize.ShloMosaic.TcCoe Idealize.SL.Sem Idealize.ShloMosaic.StableHlo
open Cert.KernelIdeal.Facts₀ Cert.KernelIdeal.Facts

variable {F : FTy → Type} [FloatOps F]
variable (m : (ℓ : Loc nD τ sig) → Buf (Elt F) ℓ)

/-! ## Moving contents between a value's type and its buffer's -/

/-- Contents moved to a buffer's own type and back are the contents. -/
theorem ofBuf_toBuf {T : BufTy} (x : TRef sig T) (v : T.Contents (Elt F)) : x.ofBuf (x.toBuf v) = v := by
  obtain ⟨r, h, h2, h3⟩ := x
  subst h
  rfl

/-- At a reference taken at its own type the move is the identity. -/
theorem toBuf_self (r : Ref sig .tc) (h : r.ty = r.ty) (h2 h3) (v : r.ty.Contents (Elt F)) :
    (TRef.of r h h2 h3 : TRef sig r.ty).toBuf v = v := rfl

/-! ## The nine operands of the concatenation -/

set_option maxHeartbeats 4000000 in
/-- The corner (x, y, z) = 000 of each point's cell: the masked gather of the flattened grid at that corner's flat cell index. -/
theorem V_v77 (c : Dev nD) : (V m c main_v77 : S3x8000000.Idx → F .f32) = take (gridT (m ((c.tc : Thread nD τ).loc main_arg1))) (comb (irow0 (i0T (m ((c.tc : Thread nD τ).loc main_arg0)))) (irow1 (i0T (m ((c.tc : Thread nD τ).loc main_arg0)))) (irow2 (i0T (m ((c.tc : Thread nD τ).loc main_arg0))))) := by
  dsimp only [V, V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, List.flatten_cons, List.flatten_nil, List.append_nil, List.cons_append, List.nil_append]
  after_results_simp
  simp only [ofBuf_toBuf]
  refine (toBuf_self main_v77 _ _ _ _).trans ?_
  rfl

set_option maxHeartbeats 4000000 in
/-- The corner (x, y, z) = 001 of each point's cell: the masked gather of the flattened grid at that corner's flat cell index. -/
theorem V_v78 (c : Dev nD) : (V m c main_v78 : S3x8000000.Idx → F .f32) = take (gridT (m ((c.tc : Thread nD τ).loc main_arg1))) (comb (irow0 (i0T (m ((c.tc : Thread nD τ).loc main_arg0)))) (irow1 (i0T (m ((c.tc : Thread nD τ).loc main_arg0)))) (irow2 (i1T (m ((c.tc : Thread nD τ).loc main_arg0))))) := by
  dsimp only [V, V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, List.flatten_cons, List.flatten_nil, List.append_nil, List.cons_append, List.nil_append]
  after_results_simp
  simp only [ofBuf_toBuf]
  refine (toBuf_self main_v78 _ _ _ _).trans ?_
  rfl

set_option maxHeartbeats 4000000 in
/-- The corner (x, y, z) = 010 of each point's cell: the masked gather of the flattened grid at that corner's flat cell index. -/
theorem V_v79 (c : Dev nD) : (V m c main_v79 : S3x8000000.Idx → F .f32) = take (gridT (m ((c.tc : Thread nD τ).loc main_arg1))) (comb (irow0 (i0T (m ((c.tc : Thread nD τ).loc main_arg0)))) (irow1 (i1T (m ((c.tc : Thread nD τ).loc main_arg0)))) (irow2 (i0T (m ((c.tc : Thread nD τ).loc main_arg0))))) := by
  dsimp only [V, V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, List.flatten_cons, List.flatten_nil, List.append_nil, List.cons_append, List.nil_append]
  after_results_simp
  simp only [ofBuf_toBuf]
  refine (toBuf_self main_v79 _ _ _ _).trans ?_
  rfl

set_option maxHeartbeats 4000000 in
/-- The corner (x, y, z) = 011 of each point's cell: the masked gather of the flattened grid at that corner's flat cell index. -/
theorem V_v80 (c : Dev nD) : (V m c main_v80 : S3x8000000.Idx → F .f32) = take (gridT (m ((c.tc : Thread nD τ).loc main_arg1))) (comb (irow0 (i0T (m ((c.tc : Thread nD τ).loc main_arg0)))) (irow1 (i1T (m ((c.tc : Thread nD τ).loc main_arg0)))) (irow2 (i1T (m ((c.tc : Thread nD τ).loc main_arg0))))) := by
  dsimp only [V, V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, List.flatten_cons, List.flatten_nil, List.append_nil, List.cons_append, List.nil_append]
  after_results_simp
  simp only [ofBuf_toBuf]
  refine (toBuf_self main_v80 _ _ _ _).trans ?_
  rfl

set_option maxHeartbeats 4000000 in
/-- The corner (x, y, z) = 100 of each point's cell: the masked gather of the flattened grid at that corner's flat cell index. -/
theorem V_v81 (c : Dev nD) : (V m c main_v81 : S3x8000000.Idx → F .f32) = take (gridT (m ((c.tc : Thread nD τ).loc main_arg1))) (comb (irow0 (i1T (m ((c.tc : Thread nD τ).loc main_arg0)))) (irow1 (i0T (m ((c.tc : Thread nD τ).loc main_arg0)))) (irow2 (i0T (m ((c.tc : Thread nD τ).loc main_arg0))))) := by
  dsimp only [V, V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, List.flatten_cons, List.flatten_nil, List.append_nil, List.cons_append, List.nil_append]
  after_results_simp
  simp only [ofBuf_toBuf]
  refine (toBuf_self main_v81 _ _ _ _).trans ?_
  rfl

set_option maxHeartbeats 4000000 in
/-- The corner (x, y, z) = 101 of each point's cell: the masked gather of the flattened grid at that corner's flat cell index. -/
theorem V_v82 (c : Dev nD) : (V m c main_v82 : S3x8000000.Idx → F .f32) = take (gridT (m ((c.tc : Thread nD τ).loc main_arg1))) (comb (irow0 (i1T (m ((c.tc : Thread nD τ).loc main_arg0)))) (irow1 (i0T (m ((c.tc : Thread nD τ).loc main_arg0)))) (irow2 (i1T (m ((c.tc : Thread nD τ).loc main_arg0))))) := by
  dsimp only [V, V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, List.flatten_cons, List.flatten_nil, List.append_nil, List.cons_append, List.nil_append]
  after_results_simp
  simp only [ofBuf_toBuf]
  refine (toBuf_self main_v82 _ _ _ _).trans ?_
  rfl

set_option maxHeartbeats 4000000 in
/-- The corner (x, y, z) = 110 of each point's cell: the masked gather of the flattened grid at that corner's flat cell index. -/
theorem V_v83 (c : Dev nD) : (V m c main_v83 : S3x8000000.Idx → F .f32) = take (gridT (m ((c.tc : Thread nD τ).loc main_arg1))) (comb (irow0 (i1T (m ((c.tc : Thread nD τ).loc main_arg0)))) (irow1 (i1T (m ((c.tc : Thread nD τ).loc main_arg0)))) (irow2 (i0T (m ((c.tc : Thread nD τ).loc main_arg0))))) := by
  dsimp only [V, V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, List.flatten_cons, List.flatten_nil, List.append_nil, List.cons_append, List.nil_append]
  after_results_simp
  simp only [ofBuf_toBuf]
  refine (toBuf_self main_v83 _ _ _ _).trans ?_
  rfl

set_option maxHeartbeats 4000000 in
/-- The corner (x, y, z) = 111 of each point's cell: the masked gather of the flattened grid at that corner's flat cell index. -/
theorem V_v84 (c : Dev nD) : (V m c main_v84 : S3x8000000.Idx → F .f32) = take (gridT (m ((c.tc : Thread nD τ).loc main_arg1))) (comb (irow0 (i1T (m ((c.tc : Thread nD τ).loc main_arg0)))) (irow1 (i1T (m ((c.tc : Thread nD τ).loc main_arg0)))) (irow2 (i1T (m ((c.tc : Thread nD τ).loc main_arg0))))) := by
  dsimp only [V, V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, List.flatten_cons, List.flatten_nil, List.append_nil, List.cons_append, List.nil_append]
  after_results_simp
  simp only [ofBuf_toBuf]
  refine (toBuf_self main_v84 _ _ _ _).trans ?_
  rfl

set_option maxHeartbeats 4000000 in
/-- The fractional offsets. -/
theorem V_v14 (c : Dev nD) : (V m c main_v14 : S3x8000000.Idx → F .f32) = fracT (m ((c.tc : Thread nD τ).loc main_arg0)) := by
  dsimp only [V, V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, List.flatten_cons, List.flatten_nil, List.append_nil, List.cons_append, List.nil_append]
  after_results_simp
  simp only [ofBuf_toBuf]
  rfl

/-! ## The slab -/

/-- Fourteen lists flattened are the first thirteen flattened, then the last. -/
theorem flatten_snoc {α : Type} (a0 a1 a2 a3 a4 a5 a6 a7 a8 a9 a10 a11 a12 a13 : List α) :
    List.flatten [a0, a1, a2, a3, a4, a5, a6, a7, a8, a9, a10, a11, a12, a13] = List.flatten [a0, a1, a2, a3, a4, a5, a6, a7, a8, a9, a10, a11, a12] ++ a13 := by
  simp only [List.flatten_cons, List.flatten_nil, List.append_nil, List.append_assoc]

/-- The slab is the concatenation, along the rows, of the nine arrays the last host operation reads: that operation
    writes the slab only, so each operand is read as the region finds it. -/
theorem V_concat (c : Dev nD) : (V m c main_v85 : S27x8000000.Idx → F .f32) =
    concatenate S27x8000000 0
      [⟨S3x8000000, (V m c main_v77 : S3x8000000.Idx → F .f32)⟩,
       ⟨S3x8000000, (V m c main_v78 : S3x8000000.Idx → F .f32)⟩,
       ⟨S3x8000000, (V m c main_v79 : S3x8000000.Idx → F .f32)⟩,
       ⟨S3x8000000, (V m c main_v80 : S3x8000000.Idx → F .f32)⟩,
       ⟨S3x8000000, (V m c main_v81 : S3x8000000.Idx → F .f32)⟩,
       ⟨S3x8000000, (V m c main_v82 : S3x8000000.Idx → F .f32)⟩,
       ⟨S3x8000000, (V m c main_v83 : S3x8000000.Idx → F .f32)⟩,
       ⟨S3x8000000, (V m c main_v84 : S3x8000000.Idx → F .f32)⟩,
       ⟨S3x8000000, (V m c main_v14 : S3x8000000.Idx → F .f32)⟩]
      concatenates_S3x8000000_S3x8000000_S3x8000000_S3x8000000_S3x8000000_S3x8000000_S3x8000000_S3x8000000_S3x8000000_S27x8000000_d0 := by
  dsimp only [V, V0]
  rw [flatten_snoc, StableHlo.after_append]
  generalize StableHlo.after (List.flatten [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12]) (fun b => m (c, b)) = W
  simp only [Gen.hostOps0_13]
  after_results_simp
  rfl

/-- THE SLAB: what the region reads is `slab` of the two argument arrays as launched. -/
theorem V_slab (c : Dev nD) : (V m c main_v85 : S27x8000000.Idx → F .f32) = slab (m ((c.tc : Thread nD τ).loc main_arg0)) (m ((c.tc : Thread nD τ).loc main_arg1)) := by
  rw [V_concat, V_v77, V_v78, V_v79, V_v80, V_v81, V_v82, V_v83, V_v84, V_v14]
  rfl

end Cert.KernelIdeal.Hand

end
-- ==== Proof.KerArray.lean ====
/- From the blocks to the array. The region's output array, after the run, is ONE function of the 27-row slab the
   region reads: the body's result, block of 80000 columns by block, each block computed from the same columns of the
   slab. Point t of the grid writes back columns 80000·t … 80000·t + 79999 of all three rows, read from the same columns
   of all 27 rows of the slab; the hundred blocks cover the array. Then the run of @main with the result array named:
   the transpose of that function of the slab. -/
import proofs.«147916_j62354335203431_2_alg».proof.Proof.FrameIdeal
import Idealize.ShloMosaic.Lib.StableHlo.Run
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window BodyObligation cellOf)

variable {F : FTy → Type} [FloatOps F]
variable (m : (ℓ : Loc nD τ sig) → Buf (Elt F) ℓ) (ρ : Dev nD → PrngReg)

/-! ## The whole-array function -/

/-- The column of the array that column `j` of the block holding column `n` is. -/
theorem col_lt (n : Fin 8000000) (j : Fin 80000) : 80000 * (n.val / 80000) + j.val < 8000000 := by
  have := n.isLt; have := j.isLt; omega

/-- What the region leaves in the output array, from the 27-row slab it reads: at row `ch`, column `n`, what the body
    computes, in the block of 80000 columns holding `n`, from that block of the slab. -/
def kernelBlocks (S : FVec F S27x8000000 .f32) : FVec F S3x8000000 .f32 := fun i =>
  bodyOut (fun y => S (ix2 (n0 := 27) (n1 := 8000000) (y 0) ⟨80000 * ((i 1).val / 80000) + (y 1).val, col_lt (i 1) (y 1)⟩))
    (ix2 (n0 := 3) (n1 := 80000) (i 0) ⟨(i 1).val % 80000, Nat.mod_lt _ (by decide)⟩)

/-! ## From the blocks to the array -/

/-- The printed index maps, decided over the grid: both windows' blocks are all the rows and the same 80000 columns. -/
theorem idx_facts : ∀ t : Fin cfg0.N, win0_0.index t (0 : Fin 2) = 0 ∧ win0_1.index t (0 : Fin 2) = 0
    ∧ win0_0.index t (1 : Fin 2) = win0_1.index t (1 : Fin 2) ∧ win0_1.index t (1 : Fin 2) < 100 :=
  (by decide +kernel : ∀ t : Fin grid0.N, _)

/-- Every block of 80000 columns is some point's. -/
theorem idx_onto : ∀ q : Fin 100, ∃ t : Fin cfg0.N, win0_1.index t = ![0, q.val] :=
  (by decide +kernel : ∀ q : Fin 100, ∃ t : Fin grid0.N, win0_1.index t = ![0, q.val])

/-- What point `t` writes back is block `t` of `kernelBlocks` of the slab as the region finds it. -/
theorem flushed_eq (c : Dev nD) (t : Fin cfg0.N) :
    (dats m 0 c).flushed 1 t = ((cfg0.win 1).blk t).view.read (Elt F) (kernelBlocks (V m c main_v85)) := by
  show (cfg0.win 1).cut (grid0.coords t) ((dats m 0 c).after 1 t) = _
  rw [after_out]
  obtain ⟨e0, e1, e2, e3⟩ := idx_facts t
  generalize hB : bodyOut (iblk m c 0 t) = B
  generalize hK : kernelBlocks (V m c main_v85) = K
  funext j
  show B j = K (((cfg0.win 1).blk t).view.emb j)
  subst hB hK
  unfold kernelBlocks
  have hj0 : (j 0).val < 3 := (j 0).isLt
  have hj1 : (j 1).val < 80000 := (j 1).isLt
  have hemb0 : ((((cfg0.win 1).blk t).view.emb j) 0).val = (j 0).val := by
    show win0_1.index t (0 : Fin 2) * 3 + 1 * (j 0).val = _; omega
  have hemb1 : ((((cfg0.win 1).blk t).view.emb j) 1).val = win0_1.index t (1 : Fin 2) * 80000 + (j 1).val := by
    show win0_1.index t (1 : Fin 2) * 80000 + 1 * (j 1).val = _; omega
  refine congr (congrArg bodyOut ?_) ?_
  · funext y
    have hy0 : (y 0).val < 27 := (y 0).isLt
    have hy1 : (y 1).val < 80000 := (y 1).isLt
    unfold iblk
    show V m c main_v85 (((cfg0.win 0).blk t).view.emb y) = V m c main_v85 _
    congr 1
    funext a; apply Fin.ext
    match a with
    | ⟨0, _⟩ => show win0_0.index t (0 : Fin 2) * 27 + 1 * (y 0).val = (y 0).val; omega
    | ⟨1, _⟩ =>
      show win0_0.index t (1 : Fin 2) * 80000 + 1 * (y 1).val = 80000 * (((((cfg0.win 1).blk t).view.emb j) 1).val / 80000) + (y 1).val
      rw [hemb1]; omega
  · funext a; apply Fin.ext
    match a with
    | ⟨0, _⟩ => exact hemb0.symm
    | ⟨1, _⟩ => show (j 1).val = ((((cfg0.win 1).blk t).view.emb j) 1).val % 80000; rw [hemb1]; omega

/-- An index of the array is in point `t`'s block iff each coordinate is in the block's range on its axis. -/
theorem mem_blk (t : Fin cfg0.N) (i : S3x8000000.Idx) :
    i ∈ ((cfg0.win 1).blk t).view.set ↔ ∀ a : Fin 2, win0_1.index t a * S3x80000.size a ≤ (i a).val ∧ (i a).val < win0_1.index t a * S3x80000.size a + S3x80000.size a := by
  show i ∈ ((View.whole main_v86).slice (win0_1.rect t)).set ↔ _
  rw [View.set_slice_whole, Rect.mem_set_unit]
  exact Iff.rfl

/-- Every index of the array is in some point's block: column `n` in the block of point `n / 80000`. -/
theorem cover (i : S3x8000000.Idx) : ∃ t : Fin cfg0.N, (cfg0.win 1).flush t = true ∧ i ∈ ((cfg0.win 1).blk t).view.set := by
  have hi0 : (i 0).val < 3 := (i 0).isLt
  have hi1 : (i 1).val < 8000000 := (i 1).isLt
  obtain ⟨t, ht⟩ := idx_onto ⟨(i 1).val / 80000, by omega⟩
  have q0 : win0_1.index t (0 : Fin 2) = 0 := congrFun ht 0
  have q1 : win0_1.index t (1 : Fin 2) = (i 1).val / 80000 := congrFun ht 1
  refine ⟨t, flush0_1 t, ?_⟩
  rw [mem_blk]
  intro a
  match a with
  | ⟨0, _⟩ => show win0_1.index t (0 : Fin 2) * 3 ≤ (i 0).val ∧ (i 0).val < win0_1.index t (0 : Fin 2) * 3 + 3; omega
  | ⟨1, _⟩ => show win0_1.index t (1 : Fin 2) * 80000 ≤ (i 1).val ∧ (i 1).val < win0_1.index t (1 : Fin 2) * 80000 + 80000; omega

/-- The output array after the run: `kernelBlocks` of the slab as the region finds it. -/
theorem final (c : Dev nD) : (dats m 0 c).arrAt 1 cfg0.N = kernelBlocks (V m c main_v85) :=
  (dats m 0 c).arrAt_eq_of_cover 1 (kernelBlocks (V m c main_v85)) (fun t _ => flushed_eq m c t) cover

/-! ## The run, with the result named -/

/-- The result array ends as the transpose of the output array: the one operation after the region writes it from
    the output array, which the region leaves at `kernelBlocks` of the slab it was entered with. -/
theorem W_main_v87 (c : Dev nD) :
    Pipeline.afterTail₀ cfgs (dats m) 0 (V0 m) [hostOps1] c main_v87
      = transpose S8000000x3 [1, 0] (kernelBlocks (V m c main_v85)) Facts₀.transposes_S3x8000000_S8000000x3_1_0 := by
  unfold Pipeline.afterTail₀
  show StableHlo.after hostOps1 _ (Proc.devRef .tc main_v87) = _
  simp only [hostOps1]
  after_results
  rw [show Pipeline.withArrays (cfgs 0).spec c (V0 m c) (fun w => (dats m 0 c).arrAt w (cfgs 0).N) (Proc.devRef .tc main_v86)
        = kernelBlocks (V m c main_v85) from
      (Pipeline.withArrays_arr spec0 launch0.win.arr_inj c _ _ 1).trans (final m c)]

/-- At the compiled mesh, from any memory with zero counters: @main runs, the result array ends as the transpose of
    `kernelBlocks` of the slab the region was entered with, and both argument arrays end as launched. -/
theorem run_array : θ_run defs (onTc (τ := τ) (main (F := F))) ⟨m, fun _ => 0, ρ⟩ (fun r => ∀ c : Dev nD,
      r.2.mem ((c.tc : Thread nD τ).loc main_v87)
        = transpose S8000000x3 [1, 0] (kernelBlocks (V m c main_v85)) Facts₀.transposes_S3x8000000_S8000000x3_1_0
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v87 (Pipeline.mem_restRefs_of main_v87 (by decide) (by decide))).trans (W_main_v87 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩) (run_main m ρ)

end Cert.KernelIdeal.Hand

end
-- ==== Proof.Spec.lean ====
/-
  Trilinear interpolation of a voxel grid, one point and one channel at a time.

  A point's coordinate on axis `a` is moved to grid units, `(x − lo a) / ½`; its floor, read as a signed 32-bit
  word, is clamped into `[0, hi a]` to give the lower cell index, and the floor plus one, clamped the same way, the
  upper one; the fractional offset is the grid coordinate minus the lower index.  The value is the grid's entry
  interpolated linearly along x, then y, then z between the eight corners of the cell.  Both programs compute exactly
  this expression element by element — one on arrays laid out point-major, the other channel-major — so the
  specification is written over the scalar operations themselves, for any interpretation of the floats.
-/
import Idealize.ShloMosaic.PureOps
import Idealize.ShloMosaic.Lib.ValueIdx

noncomputable section

namespace Cert.Spec

open Idealize.ShloMosaic Idealize.ShloMosaic.ValueIdx

variable {F : FTy → Type} [FloatOps F]

/-- The low end of the grid's range on each axis (−51.2, −51.2, −3), as f32 words. -/
def loW : Fin 3 → BitVec 32
  | 0 => 0xC24CCCCD#32 | 1 => 0xC24CCCCD#32 | 2 => 0xC0400000#32

/-- The largest cell index on each axis. -/
def hiW : Fin 3 → BitVec 32
  | 0 => 204#32 | 1 => 204#32 | 2 => 12#32

/-- The coordinate in grid units: (x − lo) / ½. -/
def gcS (x : F .f32) (a : Fin 3) : F .f32 :=
  FloatOps.hostDivf (FloatOps.subf x (FloatOps.ofBits .f32 (loW a))) (FloatOps.ofBits .f32 0x3F000000#32)

/-- Its floor as a signed word. -/
def f0S (x : F .f32) (a : Fin 3) : BitVec 32 := FloatOps.fptosi 32 (FloatOps.hostUnary .floor (gcS x a))

/-- A word clamped into [0, hi a]. -/
def clipS (a : Fin 3) (w : BitVec 32) : BitVec 32 := IntOp.minsi (hiW a) (IntOp.maxsi 0#32 w)

/-- The lower cell index. -/
def i0S (x : F .f32) (a : Fin 3) : BitVec 32 := clipS a (f0S x a)

/-- The upper cell index. -/
def i1S (x : F .f32) (a : Fin 3) : BitVec 32 := clipS a (IntOp.addi (f0S x a) 1#32)

/-- The offset from the lower cell index. -/
def fracS (x : F .f32) (a : Fin 3) : F .f32 := FloatOps.subf (gcS x a) (FloatOps.sitofp .f32 (i0S x a))

/-- The grid's entry at the cell whose three indices are the words `x y z` (read signed, kept inside the grid). -/
def cell (g : (⟨4, ![205, 205, 13, 3]⟩ : Shape).Idx → F .f32) (x y z : BitVec 32) (ch : Fin 3) : F .f32 :=
  g (ix4 ⟨min x.toInt.toNat 204, by omega⟩ ⟨min y.toInt.toNat 204, by omega⟩ ⟨min z.toInt.toNat 12, by omega⟩ ch)

/-- a·(1 − w) + b·w. -/
def lerpS (a b w : F .f32) : F .f32 :=
  FloatOps.addf (FloatOps.mulf a (FloatOps.subf (FloatOps.ofBits .f32 0x3F800000#32) w)) (FloatOps.mulf b w)

/-- The interpolated value for point `n`, channel `ch`. -/
def out (p : (⟨2, ![8000000, 3]⟩ : Shape).Idx → F .f32) (g : (⟨4, ![205, 205, 13, 3]⟩ : Shape).Idx → F .f32)
    (n : Fin 8000000) (ch : Fin 3) : F .f32 :=
  let X : Fin 3 → F .f32 := fun a => p (ix2 n a)
  let x0 := i0S (X 0) 0; let y0 := i0S (X 1) 1; let z0 := i0S (X 2) 2
  let x1 := i1S (X 0) 0; let y1 := i1S (X 1) 1; let z1 := i1S (X 2) 2
  let xd := fracS (X 0) 0; let yd := fracS (X 1) 1; let zd := fracS (X 2) 2
  lerpS
    (lerpS (lerpS (cell g x0 y0 z0 ch) (cell g x1 y0 z0 ch) xd) (lerpS (cell g x0 y1 z0 ch) (cell g x1 y1 z0 ch) xd) yd)
    (lerpS (lerpS (cell g x0 y0 z1 ch) (cell g x1 y0 z1 ch) xd) (lerpS (cell g x0 y1 z1 ch) (cell g x1 y1 z1 ch) xd) yd)
    zd

/-! ## The cell indices stay inside the grid -/

/-- A clamped word, read signed, is between 0 and the axis's last index. -/
theorem clipS_range (a : Fin 3) (w : BitVec 32) : 0 ≤ (clipS a w).toInt ∧ (clipS a w).toInt ≤ (hiW a).toInt := by
  unfold clipS IntOp.minsi IntOp.maxsi
  have h0 : (0#32 : BitVec 32).toInt = 0 := by decide
  have hh : 0 ≤ (hiW a).toInt := by fin_cases a <;> decide
  simp only [BitVec.slt, decide_eq_true_eq]
  split <;> split <;> omega

/-- A non-negative signed word is its unsigned reading, below 2³¹. -/
theorem toInt_nonneg_eq (x : BitVec 32) (h : 0 ≤ x.toInt) : x.toInt = (x.toNat : Int) ∧ x.toNat < 2147483648 := by
  rw [BitVec.toInt_eq_toNat_cond] at h ⊢
  have := x.isLt
  split at h <;> constructor <;> simp_all <;> omega

/-- The row-major position of a cell: no wrap-around for indices inside the grid. -/
theorem flat_toInt (x y z : BitVec 32) (hx : 0 ≤ x.toInt ∧ x.toInt ≤ 204) (hy : 0 ≤ y.toInt ∧ y.toInt ≤ 204)
    (hz : 0 ≤ z.toInt ∧ z.toInt ≤ 12) :
    (IntOp.addi (IntOp.addi (IntOp.muli x 2665#32) (IntOp.muli y 13#32)) z).toInt
      = x.toInt * 2665 + y.toInt * 13 + z.toInt := by
  obtain ⟨ex, bx⟩ := toInt_nonneg_eq x hx.1
  obtain ⟨ey, by'⟩ := toInt_nonneg_eq y hy.1
  obtain ⟨ez, bz⟩ := toInt_nonneg_eq z hz.1
  have hx2 := hx.2; have hy2 := hy.2; have hz2 := hz.2
  rw [ex] at hx2 ⊢; rw [ey] at hy2 ⊢; rw [ez] at hz2 ⊢
  unfold IntOp.addi IntOp.muli
  rw [BitVec.toInt_eq_toNat_cond]
  simp only [BitVec.toNat_add, BitVec.toNat_mul, BitVec.toNat_ofNat]
  have h1 : x.toNat * 2665 % 4294967296 = x.toNat * 2665 := Nat.mod_eq_of_lt (by omega)
  have h2 : y.toNat * 13 % 4294967296 = y.toNat * 13 := Nat.mod_eq_of_lt (by omega)
  norm_num
  omega
end Cert.Spec

end
-- ==== Proof.KerOut.lean ====
/-
  What the kernel's region computes, as one function of the 27-row slab it reads: for channel `ch` and point `n`, the
  eight corner values are rows 3k + ch (k = 0 … 7, corners in the order 000, 001, 010, 011, 100, 101, 110, 111 of
  (x, y, z)) and the offsets rows 24, 25, 26 of column `n`; the result is their interpolation along x, then y, then z.
-/
import proofs.«147916_j62354335203431_2_alg».proof.KernelIdeal
import proofs.«147916_j62354335203431_2_alg».proof.Proof.Spec

noncomputable section

namespace Cert.KernelIdeal.Hand

open Cert.KernelIdeal Idealize.ShloMosaic Idealize.ShloMosaic.ValueIdx Cert.Spec

variable {F : FTy → Type} [FloatOps F]

/-- Interpolation between the eight corners `c` (in the order 000, 001, 010, 011, 100, 101, 110, 111), along x with
    weight `xd`, then y with `yd`, then z with `zd`. -/
def tri (c : Fin 8 → F .f32) (xd yd zd : F .f32) : F .f32 :=
  lerpS (lerpS (lerpS (c 0) (c 4) xd) (lerpS (c 2) (c 6) xd) yd) (lerpS (lerpS (c 1) (c 5) xd) (lerpS (c 3) (c 7) xd) yd) zd

/-- The region's result as a whole-array function of the slab. -/
def kernelOut (S : FVec F S27x8000000 .f32) : FVec F S3x8000000 .f32 := fun j =>
  tri (fun k => S (ix2 ⟨3 * k.val + (j 0).val, by have := idx2_lt0 j; have := k.isLt; show _ < 27; omega⟩ (j 1)))
    (S (ix2 ⟨24, by decide⟩ (j 1))) (S (ix2 ⟨25, by decide⟩ (j 1))) (S (ix2 ⟨26, by decide⟩ (j 1)))

theorem kernelOut_apply (S : FVec F S27x8000000 .f32) (ch : Fin 3) (n : Fin 8000000) :
    kernelOut S (ix2 ch n)
      = tri (fun k => S (ix2 ⟨3 * k.val + ch.val, by have := ch.isLt; have := k.isLt; omega⟩ n))
          (S (ix2 ⟨24, by decide⟩ n)) (S (ix2 ⟨25, by decide⟩ n)) (S (ix2 ⟨26, by decide⟩ n)) := rfl

end Cert.KernelIdeal.Hand

end
-- ==== Proof.KerBody.lean ====
/-
  The kernel body's result block read at one element. The body's one store covers the whole output block, so the
  block after the body is the stored payload; the payload is three nested linear interpolations of nine three-row
  bands of the input block, each weight one row broadcast over the three channels; and a band loaded at row offset K,
  read at (channel, column), is the input block at row K + channel of that column. So the element at (channel, column)
  is the interpolation of the eight corner entries at rows 3k + channel with the weights at rows 24, 25, 26.
-/
import proofs.«147916_j62354335203431_2_alg».proof.Proof.FrameIdealBody
import proofs.«147916_j62354335203431_2_alg».proof.Proof.KerOut
import Idealize.ShloMosaic.Lib.Pipeline.Value
import Idealize.ShloMosaic.Lib.ValueLayout
import Idealize.ShloMosaic.Lib.ValueIdx

noncomputable section

namespace Cert.KernelIdeal.Hand

open Cert.KernelIdeal Cert.KernelIdeal.Gen Idealize.ShloMosaic Idealize.ShloMosaic.ValueIdx Cert.Spec

variable {F : FTy → Type} [FloatOps F]

theorem zero_off : (![0, 0] : Fin 2 → Nat) = fun _ => 0 := funext fun a => by fin_cases a <;> rfl

/-! ## A band read at an element -/

/-- Three rows from row K on, read at (channel, column): the block at row K + channel. -/
theorem ld_band (x0 : Vec F S27x80000 .f32) (K : Nat) (inb : ∀ a, (![K, 0] : Fin 2 → Nat) a + S3x80000.size a ≤ S27x80000.size a)
    (ch : Fin 3) (l : Fin 80000) (r : Fin 27) (hr : r.val = K + ch.val) :
    View.ld x0 (Rect.unit (s := S27x80000) ![K, 0] S3x80000.size inb) (ix2 ch l) = x0 (ix2 r l) := by
  show x0 _ = x0 _
  refine congrArg x0 (funext fun a => Fin.ext ?_)
  match a with
  | ⟨0, _⟩ => show K + 1 * ch.val = r.val; omega
  | ⟨1, _⟩ => show 0 + 1 * l.val = l.val; omega

/-! ## The interpolation of two bands by one row of weights -/

/-- a·(1 − w) + b·w on three-row bands, the weight row broadcast over the rows. -/
def lerpV (a b : FVec F S3x80000 .f32) (w : FVec F S1x80000 .f32) : FVec F S3x80000 .f32 :=
  addf (mulf a (broadcastTo S3x80000 (subf (broadcast S1x80000 (Scalar.ofBits .f32 0x3F800000#32)) w) broadcasts_S1x80000_S3x80000))
    (mulf b (broadcastTo S3x80000 w broadcasts_S1x80000_S3x80000))

theorem lerpV_apply (a b : FVec F S3x80000 .f32) (w : FVec F S1x80000 .f32) (ch : Fin 3) (l : Fin 80000) :
    lerpV a b w (ix2 ch l) = lerpS (a (ix2 ch l)) (b (ix2 ch l)) (w (ix2 (0 : Fin 1) l)) := by
  show FloatOps.addf (FloatOps.mulf (a (ix2 ch l)) (broadcastTo S3x80000 _ broadcasts_S1x80000_S3x80000 (ix2 ch l)))
      (FloatOps.mulf (b (ix2 ch l)) (broadcastTo S3x80000 w broadcasts_S1x80000_S3x80000 (ix2 ch l))) = _
  rw [broadcastTo_1b_ab_apply, broadcastTo_1b_ab_apply]
  rfl

/-! ## The payloads -/

theorem pay2_eq (v : Vec F S3x80000 .f32) : k0_pay2 v = v := shapeCast_self v _
theorem pay3_eq (v : Vec F S3x80000 .f32) : k0_pay3 v = v := shapeCast_self v _
theorem pay4_eq (v : Vec F S3x80000 .f32) : k0_pay4 v = v := shapeCast_self v _
theorem pay5_eq (v : Vec F S3x80000 .f32) : k0_pay5 v = v := shapeCast_self v _
theorem pay6_eq (v : Vec F S3x80000 .f32) : k0_pay6 v = v := shapeCast_self v _

/-- Row 0 of the weight band. -/
theorem pay7_apply (v : Vec F S3x80000 .f32) (l : Fin 80000) : k0_pay7 v (ix2 (0 : Fin 1) l) = v (ix2 (0 : Fin 3) l) := by
  show extractStridedSlice S1x80000 ![0, 0] (k0_pay6 v) slices_S3x80000_o0_0_S1x80000 (ix2 (0 : Fin 1) l) = _
  rw [pay6_eq]
  exact extractStridedSlice_apply _ _ _ _ _ fun a => match a with
    | ⟨0, _⟩ => rfl
    | ⟨1, _⟩ => by show l.val = 0 + l.val; omega

/-- Row 1 of the weight band. -/
theorem pay8_apply (v : Vec F S3x80000 .f32) (l : Fin 80000) : k0_pay8 v (ix2 (0 : Fin 1) l) = v (ix2 (1 : Fin 3) l) := by
  show extractStridedSlice S1x80000 ![1, 0] (k0_pay6 v) slices_S3x80000_o1_0_S1x80000 (ix2 (0 : Fin 1) l) = _
  rw [pay6_eq]
  exact extractStridedSlice_apply _ _ _ _ _ fun a => match a with
    | ⟨0, _⟩ => rfl
    | ⟨1, _⟩ => by show l.val = 0 + l.val; omega

/-- Row 2 of the weight band. -/
theorem pay9_apply (v : Vec F S3x80000 .f32) (l : Fin 80000) : k0_pay9 v (ix2 (0 : Fin 1) l) = v (ix2 (2 : Fin 3) l) := by
  show extractStridedSlice S1x80000 ![2, 0] (k0_pay6 v) slices_S3x80000_o2_0_S1x80000 (ix2 (0 : Fin 1) l) = _
  rw [pay6_eq]
  exact extractStridedSlice_apply _ _ _ _ _ fun a => match a with
    | ⟨0, _⟩ => rfl
    | ⟨1, _⟩ => by show l.val = 0 + l.val; omega

theorem pay10_eq (v0 v8 v16 : Vec F S3x80000 .f32) : k0_pay10 v0 v8 v16 = lerpV v0 v8 (k0_pay7 v16) := by
  show lerpV (shapeCast S3x80000 v0 shapeCasts_S3x80000_S3x80000) (shapeCast S3x80000 v8 shapeCasts_S3x80000_S3x80000) (k0_pay7 v16) = _
  rw [shapeCast_self, shapeCast_self]

theorem pay11_eq (v2 v10 v16 : Vec F S3x80000 .f32) : k0_pay11 v2 v10 v16 = lerpV v2 v10 (k0_pay7 v16) := by
  show lerpV (shapeCast S3x80000 v2 shapeCasts_S3x80000_S3x80000) (shapeCast S3x80000 v10 shapeCasts_S3x80000_S3x80000) (k0_pay7 v16) = _
  rw [shapeCast_self, shapeCast_self]

/-- The payload stored: the interpolation along x of four pairs of bands, then along y, then along z (one of the x
    interpolations has its factor 1 − xd passed in already broadcast). -/
theorem pay1_eq (v5 v7 v13 v15 : FVec F S3x80000 .f32) (v18 v19 v20 : FVec F S1x80000 .f32) (v27 v34 : FVec F S3x80000 .f32)
    (v16 : Vec F S3x80000 .f32) (h18 : v18 = k0_pay7 v16) :
    k0_pay1 v5 v7 v13 v15 v18 v19 v20 v27 v34 (k0_pay12 v16)
      = lerpV (lerpV v27 (lerpV v5 v13 v18) v19) (lerpV v34 (lerpV v7 v15 v18) v19) v20 := by
  subst h18
  rfl

/-! ## The block after the body, at an element -/

/-- The output block after the body at (channel, column): the interpolation of the eight corner entries of the
    input block at rows 3k + channel, with the weights at rows 24, 25 and 26 of the same column. -/
theorem bodyOut_apply (x0 : Vec F S27x80000 .f32) (ch : Fin 3) (l : Fin 80000) :
    bodyOut x0 (ix2 ch l)
      = tri (fun k => x0 (ix2 ⟨3 * k.val + ch.val, by have := ch.isLt; have := k.isLt; omega⟩ l))
          (x0 (ix2 ⟨24, by decide⟩ l)) (x0 (ix2 ⟨25, by decide⟩ l)) (x0 (ix2 ⟨26, by decide⟩ l)) := by
  have e0 : View.ld x0 band0 (ix2 ch l) = x0 (ix2 ⟨3 * (0 : Fin 8).val + ch.val, by have := ch.isLt; show 3 * 0 + ch.val < 27; omega⟩ l) :=
    ld_band x0 0 _ ch l _ (by show 3 * 0 + ch.val = 0 + ch.val; omega)
  have e1 : View.ld x0 band3 (ix2 ch l) = x0 (ix2 ⟨3 * (1 : Fin 8).val + ch.val, by have := ch.isLt; show 3 * 1 + ch.val < 27; omega⟩ l) :=
    ld_band x0 3 _ ch l _ (by show 3 * 1 + ch.val = 3 + ch.val; omega)
  have e2 : View.ld x0 band6 (ix2 ch l) = x0 (ix2 ⟨3 * (2 : Fin 8).val + ch.val, by have := ch.isLt; show 3 * 2 + ch.val < 27; omega⟩ l) :=
    ld_band x0 6 _ ch l _ (by show 3 * 2 + ch.val = 6 + ch.val; omega)
  have e3 : View.ld x0 band9 (ix2 ch l) = x0 (ix2 ⟨3 * (3 : Fin 8).val + ch.val, by have := ch.isLt; show 3 * 3 + ch.val < 27; omega⟩ l) :=
    ld_band x0 9 _ ch l _ (by show 3 * 3 + ch.val = 9 + ch.val; omega)
  have e4 : View.ld x0 band12 (ix2 ch l) = x0 (ix2 ⟨3 * (4 : Fin 8).val + ch.val, by have := ch.isLt; show 3 * 4 + ch.val < 27; omega⟩ l) :=
    ld_band x0 12 _ ch l _ (by show 3 * 4 + ch.val = 12 + ch.val; omega)
  have e5 : View.ld x0 band15 (ix2 ch l) = x0 (ix2 ⟨3 * (5 : Fin 8).val + ch.val, by have := ch.isLt; show 3 * 5 + ch.val < 27; omega⟩ l) :=
    ld_band x0 15 _ ch l _ (by show 3 * 5 + ch.val = 15 + ch.val; omega)
  have e6 : View.ld x0 band18 (ix2 ch l) = x0 (ix2 ⟨3 * (6 : Fin 8).val + ch.val, by have := ch.isLt; show 3 * 6 + ch.val < 27; omega⟩ l) :=
    ld_band x0 18 _ ch l _ (by show 3 * 6 + ch.val = 18 + ch.val; omega)
  have e7 : View.ld x0 band21 (ix2 ch l) = x0 (ix2 ⟨3 * (7 : Fin 8).val + ch.val, by have := ch.isLt; show 3 * 7 + ch.val < 27; omega⟩ l) :=
    ld_band x0 21 _ ch l _ (by show 3 * 7 + ch.val = 21 + ch.val; omega)
  have w0 : View.ld x0 band24 (ix2 (0 : Fin 3) l) = x0 (ix2 ⟨24, by decide⟩ l) :=
    ld_band x0 24 _ (0 : Fin 3) l _ (by show 24 = 24 + 0; rfl)
  have w1 : View.ld x0 band24 (ix2 (1 : Fin 3) l) = x0 (ix2 ⟨25, by decide⟩ l) :=
    ld_band x0 24 _ (1 : Fin 3) l _ (by show 25 = 24 + 1; rfl)
  have w2 : View.ld x0 band24 (ix2 (2 : Fin 3) l) = x0 (ix2 ⟨26, by decide⟩ l) :=
    ld_band x0 24 _ (2 : Fin 3) l _ (by show 26 = 24 + 2; rfl)
  unfold bodyOut
  rw [View.canon_unit_zero zero_off]
  rw [pay1_eq _ _ _ _ _ _ _ _ _ (View.ld x0 band24) rfl, pay10_eq, pay11_eq, pay2_eq, pay3_eq, pay4_eq, pay5_eq]
  simp only [lerpV_apply, pay7_apply, pay8_apply, pay9_apply]
  rw [e0, e1, e2, e3, e4, e5, e6, e7, w0, w1, w2]
  rfl

end Cert.KernelIdeal.Hand

end
-- ==== Proof.KerBlocks.lean ====
/-
  The array the region leaves, block by block, is one closed expression of the slab: in the block of 80000 columns
  holding column n, the body reads column 80000·(n / 80000) + (n mod 80000) = n of the slab, so the block-by-block
  function and the whole-array interpolation agree at every element.
-/
import proofs.«147916_j62354335203431_2_alg».proof.Proof.KerArray
import proofs.«147916_j62354335203431_2_alg».proof.Proof.KerBody

noncomputable section

namespace Cert.KernelIdeal.Hand

open Cert.KernelIdeal Cert.KernelIdeal.Gen Idealize.ShloMosaic Idealize.ShloMosaic.ValueIdx Cert.Spec

variable {F : FTy → Type} [FloatOps F]

/-- A column is its block's first column plus its place inside the block. -/
theorem col_eq (n : Fin 8000000) (h : 80000 * (n.val / 80000) + n.val % 80000 < 8000000) :
    (⟨80000 * (n.val / 80000) + n.val % 80000, h⟩ : Fin 8000000) = n :=
  Fin.ext (Nat.div_add_mod n.val 80000)

/-- The block-by-block function of the slab is the whole-array interpolation. -/
theorem kernelBlocks_eq (S : FVec F S27x8000000 .f32) : kernelBlocks S = kernelOut S := by
  funext j
  obtain ⟨ch, n, rfl⟩ : ∃ (ch : Fin 3) (n : Fin 8000000), j = ix2 ch n := ⟨j 0, j 1, eq_ix2 j⟩
  rw [kernelOut_apply]
  show bodyOut (fun y => S (ix2 (n0 := 27) (n1 := 8000000) (y 0) ⟨80000 * (n.val / 80000) + (y 1).val, col_lt n (y 1)⟩))
      (ix2 (n0 := 3) (n1 := 80000) ch ⟨n.val % 80000, Nat.mod_lt _ (by decide)⟩) = _
  rw [bodyOut_apply]
  show tri (fun k => S (ix2 (n0 := 27) (n1 := 8000000) ⟨3 * k.val + ch.val, _⟩ ⟨80000 * (n.val / 80000) + n.val % 80000, _⟩))
      (S (ix2 (n0 := 27) (n1 := 8000000) ⟨24, _⟩ ⟨80000 * (n.val / 80000) + n.val % 80000, _⟩))
      (S (ix2 (n0 := 27) (n1 := 8000000) ⟨25, _⟩ ⟨80000 * (n.val / 80000) + n.val % 80000, _⟩))
      (S (ix2 (n0 := 27) (n1 := 8000000) ⟨26, _⟩ ⟨80000 * (n.val / 80000) + n.val % 80000, _⟩)) = _
  simp only [col_eq]

end Cert.KernelIdeal.Hand

end
-- ==== Proof.KerValue.lean ====
/-
  The kernel's host prefix read entry by entry.  Each channel-first stage (grid coordinate, floor, clamped cell
  indices, fractional offset, rows of an index array, flat cell index, flattened grid, index normalisation, in-range
  mask, masked gather) is read at a channel `ch` and a point `n` and found to be the corresponding scalar expression
  of the specification.  The flat index x·2665 + y·13 + z of a cell inside the grid does not wrap around and names
  the cell (x, y, z) of the flattened grid, it is in range, so the mask is one and the fill value is never taken.
-/
import proofs.«147916_j62354335203431_2_alg».proof.Proof.KerTerm
import proofs.«147916_j62354335203431_2_alg».proof.Proof.Spec
import Idealize.ShloMosaic.Lib.ValueIdx
import Idealize.ShloMosaic.Lib.ValueLayout
import Idealize.ShloMosaic.Lib.Pipeline.Value
import Idealize.ShloMosaic.Lib.ReduceAll

noncomputable section

namespace Cert.KernelIdeal.Hand

open Cert.KernelIdeal Idealize.ShloMosaic Idealize.ShloMosaic.ValueIdx Cert.Spec

variable {F : FTy → Type} [FloatOps F] {α : Type}

/-! ## Layout reads -/

/-- A length-3 table stood up as a column and repeated along the points: entry (a, n) is the table's entry a. -/
theorem tableT_apply (x : S3.Idx → α) (a : Fin 3) (n : Fin 8000000) :
    broadcastInDim S3x8000000 ![0, 1] Facts₀.bcast_S3x1_S3x8000000_0_1 (shapeCast S3x1 x Facts₀.shapeCasts_S3_S3x1) (ix2 a n)
      = x (ix1 a) := by
  rw [broadcastInDim_apply _ _ _ _ (ix2 a (0 : Fin 1)) (fun d => by match d with | ⟨0, _⟩ => rfl | ⟨1, _⟩ => rfl)]
  exact shapeCast_apply x _ _ _ (by rw [Shape.rowMajor_val_two, Shape.rowMajor_val_one]; show a.val = a.val * 1 + 0; omega)

theorem loT_apply (a : Fin 3) : (lo (F := F)) (ix1 a) = FloatOps.ofBits .f32 (loW a) := by
  fin_cases a <;> rfl

theorem hiT_apply (a : Fin 3) : hi (ix1 a) = hiW a := by
  fin_cases a <;> rfl

theorem gcT_apply (p : FVec F S8000000x3 .f32) (a : Fin 3) (n : Fin 8000000) : gcT p (ix2 a n) = gcS (p (ix2 n a)) a := by
  unfold gcT gcS
  show FloatOps.hostDivf (FloatOps.subf (transpose S3x8000000 [1, 0] p _ (ix2 a n))
    (broadcastInDim S3x8000000 _ Facts₀.bcast_S3x1_S3x8000000_0_1 (shapeCast S3x1 lo _) (ix2 a n))) _ = _
  rw [tableT_apply, loT_apply, transpose_ix2_apply]
  rfl

theorem f0T_apply (p : FVec F S8000000x3 .f32) (a : Fin 3) (n : Fin 8000000) : f0T p (ix2 a n) = f0S (p (ix2 n a)) a := by
  unfold f0T f0S
  show FloatOps.fptosi 32 (FloatOps.hostUnary .floor (gcT p (ix2 a n))) = _
  rw [gcT_apply]

theorem clipT_apply (x : IVec S3x8000000 32) (a : Fin 3) (n : Fin 8000000) : clipT x (ix2 a n) = clipS a (x (ix2 a n)) := by
  unfold clipT clipS
  show IntOp.minsi (broadcastInDim S3x8000000 _ Facts₀.bcast_S3x1_S3x8000000_0_1 (shapeCast S3x1 hi _) (ix2 a n))
    (IntOp.maxsi 0#32 (x (ix2 a n))) = _
  rw [tableT_apply, hiT_apply]

theorem i0T_apply (p : FVec F S8000000x3 .f32) (a : Fin 3) (n : Fin 8000000) : i0T p (ix2 a n) = i0S (p (ix2 n a)) a := by
  unfold i0T i0S; rw [clipT_apply, f0T_apply]

theorem i1T_apply (p : FVec F S8000000x3 .f32) (a : Fin 3) (n : Fin 8000000) : i1T p (ix2 a n) = i1S (p (ix2 n a)) a := by
  unfold i1T i1S; rw [clipT_apply]
  show clipS a (IntOp.addi (f0T p (ix2 a n)) 1#32) = _
  rw [f0T_apply]

theorem fracT_apply (p : FVec F S8000000x3 .f32) (a : Fin 3) (n : Fin 8000000) : fracT p (ix2 a n) = fracS (p (ix2 n a)) a := by
  unfold fracT fracS
  show FloatOps.subf (gcT p (ix2 a n)) (FloatOps.sitofp .f32 (i0T p (ix2 a n))) = _
  rw [gcT_apply, i0T_apply]

/-- Row `k` cut out of a [3, n] array and flattened, read at `n`. -/
theorem row_apply (k : Fin 3) (x : S3x8000000.Idx → α) (h : S3x8000000.Slices ![k.val, 0] S1x8000000) (n : Fin 8000000) :
    shapeCast S8000000 (extractStridedSlice S1x8000000 ![k.val, 0] x h) Facts₀.shapeCasts_S1x8000000_S8000000 (ix1 n)
      = x (ix2 k n) := by
  rw [shapeCast_apply _ _ _ (ix2 (0 : Fin 1) n)
    (by rw [Shape.rowMajor_val_two, Shape.rowMajor_val_one]; show 0 * 8000000 + n.val = n.val; omega)]
  exact extractStridedSlice_apply _ x h _ (ix2 k n) fun d => by
    match d with
    | ⟨0, _⟩ => rfl
    | ⟨1, _⟩ => exact (Nat.zero_add _).symm

theorem irow0_apply (x : IVec S3x8000000 32) (n : Fin 8000000) : irow0 x (ix1 n) = x (ix2 0 n) := row_apply 0 x _ n
theorem irow1_apply (x : IVec S3x8000000 32) (n : Fin 8000000) : irow1 x (ix1 n) = x (ix2 1 n) := row_apply 1 x _ n
theorem irow2_apply (x : IVec S3x8000000 32) (n : Fin 8000000) : irow2 x (ix1 n) = x (ix2 2 n) := row_apply 2 x _ n

theorem comb_apply (x y z : IVec S8000000 32) (n : Fin 8000000) :
    comb x y z (ix1 n)
      = IntOp.addi (IntOp.addi (IntOp.muli (x (ix1 n)) 2665#32) (IntOp.muli (y (ix1 n)) 13#32)) (z (ix1 n)) := rfl

/-- The flattened grid at channel `ch` and flat position (x·205 + y)·13 + z is the grid's entry at (x, y, z, ch). -/
theorem gridT_apply (g : FVec F S205x205x13x3 .f32) (ch : Fin 3) (f : Fin 546325) (x y : Fin 205) (z : Fin 13)
    (hf : f.val = (x.val * 205 + y.val) * 13 + z.val) : gridT g (ix2 ch f) = g (ix4 x y z ch) := by
  unfold gridT
  rw [transpose_ix2_apply]
  exact shapeCast_apply g _ _ _ (by
    rw [Shape.rowMajor_val_four, Shape.rowMajor_val_two]
    show ((x.val * 205 + y.val) * 13 + z.val) * 3 + ch.val = f.val * 3 + ch.val
    rw [hf])

/-! ## The gather -/

abbrev kd := gather_S3x546325_S8000000x1_S3x8000000_0_1_n_n_1_1_31

theorem ksiIdx_eq (n : Fin 8000000) (ch : Fin 3) :
    kd.siIdx (ix2 ch n : S3x8000000.Idx) ((0 : Fin 1).cast (by rfl)) = (ix2 n (0 : Fin 1) : S8000000x1.Idx) := by
  funext b; refine Fin.ext ?_
  match b with
  | ⟨0, _⟩ => rfl
  | ⟨1, _⟩ => rfl

theorem kop0 (idx : IVec S8000000x1 32) (ch : Fin 3) (n : Fin 8000000) :
    (kd.operandIdx (ix2 ch n : S3x8000000.Idx) idx (0 : Fin 2)).val = ch.val := by
  show kd.start (ix2 ch n) idx 0 + kd.batchCoord (ix2 ch n) 0 + kd.offCoord (ix2 ch n) 0 = _
  rw [GatherDims.batchCoord_eq_zero _ _ _ List.not_mem_nil]
  unfold GatherDims.start
  rw [dif_neg (by decide)]
  unfold GatherDims.offCoord
  rw [dif_pos (by decide)]
  simp only [Nat.zero_add]
  rfl

theorem kop1 (idx : IVec S8000000x1 32) (ch : Fin 3) (n : Fin 8000000) :
    (kd.operandIdx (ix2 ch n : S3x8000000.Idx) idx (1 : Fin 2)).val = min (idx (ix2 n (0 : Fin 1))).toInt.toNat 546324 := by
  show kd.start (ix2 ch n) idx 1 + kd.batchCoord (ix2 ch n) 1 + kd.offCoord (ix2 ch n) 1 = _
  rw [GatherDims.batchCoord_eq_zero _ _ _ List.not_mem_nil,
    GatherDims.offCoord_eq_zero _ _ _ (fun h => ((GatherDims.mem_sKept _ _).mp h).1 (by decide))]
  unfold GatherDims.start
  rw [dif_pos (by decide)]
  simp only [Nat.add_zero]
  show min (idx (kd.siIdx (ix2 ch n) ⟨List.idxOf (1 : Fin 2) kd.startIndexMap, _⟩)).toInt.toNat (546325 - 1) = _
  rw [← ksiIdx_eq n ch]
  rfl

/-- A row-gather along the second axis of a [3, m] table through a column of index words: entry (ch, n) is the
    table's entry in row `ch` at the column the n-th word names (read signed, kept inside the table). -/
theorem kgather_apply (t : S3x546325.Idx → α) (idx : IVec S8000000x1 32) (ch : Fin 3) (n : Fin 8000000) :
    Host.gather kd t idx (ix2 ch n) = t (ix2 ch ⟨min (idx (ix2 n (0 : Fin 1))).toInt.toNat 546324, by omega⟩) := by
  unfold Host.gather
  congr 1
  funext a; refine Fin.ext ?_
  match a with
  | ⟨0, _⟩ => exact kop0 idx ch n
  | ⟨1, _⟩ => exact kop1 idx ch n

theorem foldl_andi_ones {ι : Type} (f : ι → BitVec 1) : ∀ (l : List ι) (init : BitVec 1), init = 1#1 → (∀ i ∈ l, f i = 1#1) →
    l.foldl (fun r i => IntOp.andi r (f i)) init = 1#1
  | [], _, h, _ => h
  | a :: l, init, h, hl => by
    rw [List.foldl_cons]
    refine foldl_andi_ones f l _ ?_ (fun i hi => hl i (List.mem_cons_of_mem _ hi))
    rw [h, hl a (List.mem_cons_self ..)]; rfl

/-- An `and`-reduction over a unit axis of a column that holds a one at row `n` is one at `n`. -/
theorem reduce_unit_and (x : IVec S8000000x1 1) (n : Fin 8000000) (hx : x (ix2 n (0 : Fin 1)) = 1#1) :
    Host.reduce IntOp.andi x (constantI S_ 1 1#1) Facts₀.reducesTo_S8000000x1_S8000000_d1 Facts₀.h_S_ (ix1 n) = 1#1 := by
  rw [Host.reduce_eq_foldl]
  refine foldl_andi_ones x _ _ rfl (fun i hi => ?_)
  have hd := of_decide_eq_true (List.mem_filter.1 hi).2
  have h0 : (i 0).val = n.val := by
    have := congrArg (fun j : S8000000.Idx => (j 0).val) hd
    exact this
  have : i = ix2 n (0 : Fin 1) := by
    funext b; refine Fin.ext ?_
    match b with
    | ⟨0, _⟩ => exact h0
    | ⟨1, _⟩ => exact Nat.lt_one_iff.1 (i 1).isLt
  rw [this]; exact hx

/-- A non-negative flat index is left as it is by the index normalisation. -/
theorem takeIdx_apply_of_nonneg (i : IVec S8000000 32) (n : Fin 8000000) (h : 0 ≤ (i (ix1 n)).toInt) :
    takeIdx i (ix2 n (0 : Fin 1)) = i (ix1 n) := by
  unfold takeIdx
  rw [broadcastInDim_apply _ _ _ _ (ix1 n) (fun d => by match d with | ⟨0, _⟩ => rfl)]
  show Scalar.select (IntOp.cmpi .slt (i (ix1 n)) 0#32) _ _ = _
  have : IntOp.cmpi .slt (i (ix1 n)) 0#32 = 0#1 := by
    unfold IntOp.cmpi
    have h0 : (0#32 : BitVec 32).toInt = 0 := by decide
    have : (i (ix1 n)).slt 0#32 = false := by
      simp only [BitVec.slt, decide_eq_false_iff_not]; omega
    rw [this]; rfl
  rw [this]; rfl

/-- The in-range mask is one where the index word lies in [0, 546324]. -/
theorem takeMask_apply_of_range (i5 : IVec S8000000x1 32) (ch : Fin 3) (n : Fin 8000000)
    (h0 : 0 ≤ (i5 (ix2 n (0 : Fin 1))).toInt) (h1 : (i5 (ix2 n (0 : Fin 1))).toInt ≤ 546324) :
    takeMask i5 (ix2 ch n) = 1#1 := by
  unfold takeMask
  rw [broadcastInDim_apply _ _ _ _ (ix1 n) (fun d => by match d with | ⟨0, _⟩ => rfl)]
  refine reduce_unit_and _ n ?_
  show IntOp.andi (IntOp.cmpi .sge (i5 (ix2 n (0 : Fin 1))) 0#32) (IntOp.cmpi .sle (i5 (ix2 n (0 : Fin 1))) 546324#32) = 1#1
  have e0 : (0#32 : BitVec 32).toInt = 0 := by decide
  have e1 : (546324#32 : BitVec 32).toInt = 546324 := by decide
  have a : IntOp.cmpi .sge (i5 (ix2 n (0 : Fin 1))) 0#32 = 1#1 := by
    unfold IntOp.cmpi
    have : (0#32 : BitVec 32).sle (i5 (ix2 n (0 : Fin 1))) = true := by
      simp only [BitVec.sle, decide_eq_true_eq]; omega
    rw [this]; rfl
  have b : IntOp.cmpi .sle (i5 (ix2 n (0 : Fin 1))) 546324#32 = 1#1 := by
    unfold IntOp.cmpi
    have : (i5 (ix2 n (0 : Fin 1))).sle 546324#32 = true := by
      simp only [BitVec.sle, decide_eq_true_eq]; omega
    rw [this]; rfl
  rw [a, b]; rfl

/-- The masked gather of the flattened grid at the flat index of a cell inside the grid is the grid's entry there. -/
theorem take_comb_apply (g : FVec F S205x205x13x3 .f32) (x y z : IVec S8000000 32) (ch : Fin 3) (n : Fin 8000000)
    (hx : 0 ≤ (x (ix1 n)).toInt ∧ (x (ix1 n)).toInt ≤ 204) (hy : 0 ≤ (y (ix1 n)).toInt ∧ (y (ix1 n)).toInt ≤ 204)
    (hz : 0 ≤ (z (ix1 n)).toInt ∧ (z (ix1 n)).toInt ≤ 12) :
    take (gridT g) (comb x y z) (ix2 ch n) = cell g (x (ix1 n)) (y (ix1 n)) (z (ix1 n)) ch := by
  have hflat := flat_toInt _ _ _ hx hy hz
  rw [← comb_apply] at hflat
  have hnn : 0 ≤ (comb x y z (ix1 n)).toInt := by rw [hflat]; omega
  have hidx := takeIdx_apply_of_nonneg (comb x y z) n hnn
  have hle : (comb x y z (ix1 n)).toInt ≤ 546324 := by rw [hflat]; omega
  unfold take
  show Scalar.select (takeMask (takeIdx (comb x y z)) (ix2 ch n)) (Host.gather kd (gridT g) (takeIdx (comb x y z)) (ix2 ch n)) _ = _
  rw [takeMask_apply_of_range _ ch n (by rw [hidx]; exact hnn) (by rw [hidx]; exact hle), kgather_apply]
  show gridT g (ix2 ch ⟨min (takeIdx (comb x y z) (ix2 n (0 : Fin 1))).toInt.toNat 546324, _⟩) = _
  unfold cell
  refine gridT_apply g ch _ _ _ _ ?_
  show min (takeIdx (comb x y z) (ix2 n (0 : Fin 1))).toInt.toNat 546324
    = (min (x (ix1 n)).toInt.toNat 204 * 205 + min (y (ix1 n)).toInt.toNat 204) * 13 + min (z (ix1 n)).toInt.toNat 12
  rw [hidx]
  omega

end Cert.KernelIdeal.Hand

end
-- ==== Proof.KerSlabRows.lean ====
/-
  The slab read row by row: rows 3k, 3k+1, 3k+2 hold corner k of the cell (in the order 000, 001, 010, 011, 100, 101,
  110, 111 of (x, y, z)), channel by channel, and rows 24, 25, 26 the three fractional offsets.
-/
import proofs.«147916_j62354335203431_2_alg».proof.Proof.KerValue

noncomputable section

namespace Cert.KernelIdeal.Hand

open Cert.KernelIdeal Idealize.ShloMosaic Idealize.ShloMosaic.ValueIdx Cert.Spec

variable {F : FTy → Type} [FloatOps F]

/-- The nine three-row pieces of the slab, in order. -/
def slabPiece (p : FVec F S8000000x3 .f32) (g : FVec F S205x205x13x3 .f32) : Fin 9 → FVec F S3x8000000 .f32
  | 0 => take (gridT g) (comb (irow0 (i0T p)) (irow1 (i0T p)) (irow2 (i0T p)))
  | 1 => take (gridT g) (comb (irow0 (i0T p)) (irow1 (i0T p)) (irow2 (i1T p)))
  | 2 => take (gridT g) (comb (irow0 (i0T p)) (irow1 (i1T p)) (irow2 (i0T p)))
  | 3 => take (gridT g) (comb (irow0 (i0T p)) (irow1 (i1T p)) (irow2 (i1T p)))
  | 4 => take (gridT g) (comb (irow0 (i1T p)) (irow1 (i0T p)) (irow2 (i0T p)))
  | 5 => take (gridT g) (comb (irow0 (i1T p)) (irow1 (i0T p)) (irow2 (i1T p)))
  | 6 => take (gridT g) (comb (irow0 (i1T p)) (irow1 (i1T p)) (irow2 (i0T p)))
  | 7 => take (gridT g) (comb (irow0 (i1T p)) (irow1 (i1T p)) (irow2 (i1T p)))
  | 8 => fracT p

/-- Row 3k + r of the slab is row r of its k-th piece. -/
theorem slab_row (p : FVec F S8000000x3 .f32) (g : FVec F S205x205x13x3 .f32) (k : Fin 9) (r : Fin 3) (n : Fin 8000000) :
    slab p g (ix2 ⟨3 * k.val + r.val, by omega⟩ n) = slabPiece p g k (ix2 r n) := by
  unfold slab
  exact concatenate_ofFn_apply (t := S27x8000000) (s₁ := S3x8000000) 0 (slabPiece p g) _ rfl 3 rfl _ k
    (by show (3 * k.val + r.val) / 3 = k.val; omega) (ix2 r n)
    (by show r.val = (3 * k.val + r.val) % 3; omega)
    (fun b hb => by match b with | ⟨0, _⟩ => exact absurd rfl hb | ⟨1, _⟩ => rfl)

end Cert.KernelIdeal.Hand

end
-- ==== Proof.KerFinal.lean ====
/-
  The kernel's result, transposed back to point-major, compared with the specification entry by entry: the slab's
  corner rows are the grid's entries at the eight corners of the point's cell, its last three rows the fractional
  offsets, and the region interpolates between them along x, then y, then z.
-/
import proofs.«147916_j62354335203431_2_alg».proof.Proof.KerSlabRows
import proofs.«147916_j62354335203431_2_alg».proof.Proof.KerOut

noncomputable section

namespace Cert.KernelIdeal.Hand

open Cert.KernelIdeal Idealize.ShloMosaic Idealize.ShloMosaic.ValueIdx Cert.Spec

variable {F : FTy → Type} [FloatOps F]

/-- The clamped index words are inside the grid on every axis. -/
theorem i0S_range (x : F .f32) (a : Fin 3) : 0 ≤ (i0S x a).toInt ∧ (i0S x a).toInt ≤ (hiW a).toInt := clipS_range a _
theorem i1S_range (x : F .f32) (a : Fin 3) : 0 ≤ (i1S x a).toInt ∧ (i1S x a).toInt ≤ (hiW a).toInt := clipS_range a _

theorem hiW0 : (hiW 0).toInt = 204 := by decide
theorem hiW1 : (hiW 1).toInt = 204 := by decide
theorem hiW2 : (hiW 2).toInt = 12 := by decide

/-- One corner piece of the slab at (ch, n): the grid's entry at the cell the three chosen index arrays name. -/
theorem piece_apply (p : FVec F S8000000x3 .f32) (g : FVec F S205x205x13x3 .f32) (ix iy iz : IVec S3x8000000 32)
    (wx wy wz : BitVec 32) (ch : Fin 3) (n : Fin 8000000)
    (ex : ix (ix2 0 n) = wx) (ey : iy (ix2 1 n) = wy) (ez : iz (ix2 2 n) = wz)
    (hx : 0 ≤ wx.toInt ∧ wx.toInt ≤ 204) (hy : 0 ≤ wy.toInt ∧ wy.toInt ≤ 204) (hz : 0 ≤ wz.toInt ∧ wz.toInt ≤ 12) :
    take (gridT g) (comb (irow0 ix) (irow1 iy) (irow2 iz)) (ix2 ch n) = cell g wx wy wz ch := by
  rw [take_comb_apply g _ _ _ ch n (by rw [irow0_apply, ex]; exact hx) (by rw [irow1_apply, ey]; exact hy)
    (by rw [irow2_apply, ez]; exact hz), irow0_apply, irow1_apply, irow2_apply, ex, ey, ez]

/-- THE KERNEL, entry by entry: its result read at point `n`, channel `ch` is the specification's value. -/
theorem kernel_apply (p : FVec F S8000000x3 .f32) (g : FVec F S205x205x13x3 .f32) (n : Fin 8000000) (ch : Fin 3) :
    transpose S8000000x3 [1, 0] (kernelOut (slab p g)) Facts₀.transposes_S3x8000000_S8000000x3_1_0 (ix2 n ch)
      = Cert.Spec.out p g n ch := by
  rw [transpose_ix2_apply, kernelOut_apply]
  have x0 := i0S_range (p (ix2 n 0)) 0; rw [hiW0] at x0
  have y0 := i0S_range (p (ix2 n 1)) 1; rw [hiW1] at y0
  have z0 := i0S_range (p (ix2 n 2)) 2; rw [hiW2] at z0
  have x1 := i1S_range (p (ix2 n 0)) 0; rw [hiW0] at x1
  have y1 := i1S_range (p (ix2 n 1)) 1; rw [hiW1] at y1
  have z1 := i1S_range (p (ix2 n 2)) 2; rw [hiW2] at z1
  have c0 := (slab_row p g 0 ch n).trans (piece_apply p g _ _ _ _ _ _ ch n (i0T_apply p 0 n) (i0T_apply p 1 n) (i0T_apply p 2 n) x0 y0 z0)
  have c1 := (slab_row p g 1 ch n).trans (piece_apply p g _ _ _ _ _ _ ch n (i0T_apply p 0 n) (i0T_apply p 1 n) (i1T_apply p 2 n) x0 y0 z1)
  have c2 := (slab_row p g 2 ch n).trans (piece_apply p g _ _ _ _ _ _ ch n (i0T_apply p 0 n) (i1T_apply p 1 n) (i0T_apply p 2 n) x0 y1 z0)
  have c3 := (slab_row p g 3 ch n).trans (piece_apply p g _ _ _ _ _ _ ch n (i0T_apply p 0 n) (i1T_apply p 1 n) (i1T_apply p 2 n) x0 y1 z1)
  have c4 := (slab_row p g 4 ch n).trans (piece_apply p g _ _ _ _ _ _ ch n (i1T_apply p 0 n) (i0T_apply p 1 n) (i0T_apply p 2 n) x1 y0 z0)
  have c5 := (slab_row p g 5 ch n).trans (piece_apply p g _ _ _ _ _ _ ch n (i1T_apply p 0 n) (i0T_apply p 1 n) (i1T_apply p 2 n) x1 y0 z1)
  have c6 := (slab_row p g 6 ch n).trans (piece_apply p g _ _ _ _ _ _ ch n (i1T_apply p 0 n) (i1T_apply p 1 n) (i0T_apply p 2 n) x1 y1 z0)
  have c7 := (slab_row p g 7 ch n).trans (piece_apply p g _ _ _ _ _ _ ch n (i1T_apply p 0 n) (i1T_apply p 1 n) (i1T_apply p 2 n) x1 y1 z1)
  have d0 := (slab_row p g 8 0 n).trans (fracT_apply p 0 n)
  have d1 := (slab_row p g 8 1 n).trans (fracT_apply p 1 n)
  have d2 := (slab_row p g 8 2 n).trans (fracT_apply p 2 n)
  unfold tri Cert.Spec.out
  show lerpS (lerpS (lerpS (slab p g (ix2 ⟨3 * (0 : Fin 9).val + ch.val, _⟩ n)) (slab p g (ix2 ⟨3 * (4 : Fin 9).val + ch.val, _⟩ n)) (slab p g (ix2 ⟨3 * (8 : Fin 9).val + (0 : Fin 3).val, _⟩ n)))
          (lerpS (slab p g (ix2 ⟨3 * (2 : Fin 9).val + ch.val, _⟩ n)) (slab p g (ix2 ⟨3 * (6 : Fin 9).val + ch.val, _⟩ n)) (slab p g (ix2 ⟨3 * (8 : Fin 9).val + (0 : Fin 3).val, _⟩ n)))
          (slab p g (ix2 ⟨3 * (8 : Fin 9).val + (1 : Fin 3).val, _⟩ n)))
        (lerpS (lerpS (slab p g (ix2 ⟨3 * (1 : Fin 9).val + ch.val, _⟩ n)) (slab p g (ix2 ⟨3 * (5 : Fin 9).val + ch.val, _⟩ n)) (slab p g (ix2 ⟨3 * (8 : Fin 9).val + (0 : Fin 3).val, _⟩ n)))
          (lerpS (slab p g (ix2 ⟨3 * (3 : Fin 9).val + ch.val, _⟩ n)) (slab p g (ix2 ⟨3 * (7 : Fin 9).val + ch.val, _⟩ n)) (slab p g (ix2 ⟨3 * (8 : Fin 9).val + (0 : Fin 3).val, _⟩ n)))
          (slab p g (ix2 ⟨3 * (8 : Fin 9).val + (1 : Fin 3).val, _⟩ n)))
        (slab p g (ix2 ⟨3 * (8 : Fin 9).val + (2 : Fin 3).val, _⟩ n)) = _
  rw [c0, c1, c2, c3, c4, c5, c6, c7, d0, d1, d2]

end Cert.KernelIdeal.Hand

end
-- ==== Proof.RefTerm.lean ====
/-
  The reference program's result as a pure function of its two argument arrays, stated as small
  named stages: the continuous grid coordinate of each point, its floor, the two clamped corner
  indices, the fractional offset, the column extractions, the negative-index wrap, the gather of one
  corner of the cell, and the linear interpolation along one axis. Each stage is the composition of
  the program's operations in their order, so the run of the program reads back as `result`.
-/
import proofs.«147916_j62354335203431_2_alg».proof.ReferenceIdeal
import proofs.«147916_j62354335203431_2_alg».proof.Proof.Gen.ReferenceIdeal

noncomputable section

namespace Cert.ReferenceIdeal.Hand

open Cert.ReferenceIdeal Idealize.ShloMosaic
open Cert.ReferenceIdeal.Facts₀ Cert.ReferenceIdeal.Facts

variable {F : FTy → Type} [FloatOps F]

/-- The lower corner of the grid's range, one entry per coordinate axis. -/
def lo : FVec F S3 .f32 := fun i => FloatOps.ofBits .f32 (lit0 (S3.rowMajor i))

/-- The largest valid index along each grid axis. -/
def hi : IVec S3 32 := fun i => lit1 (S3.rowMajor i)

/-- The continuous grid coordinate: (p − lo) / voxel, the voxel edge being 0.5. -/
def gc (p : FVec F S8000000x3 .f32) : FVec F S8000000x3 .f32 :=
  Host.divf
    (subf p (broadcastInDim S8000000x3 ![0, 1] bcast_S1x3_S8000000x3_0_1
      (broadcastInDim S1x3 ![1] bcast_S3_S1x3_1 (lo (F := F)))))
    (broadcastInDim S8000000x3 ![] bcast_S_S8000000x3 (constant S_ .f32 0x3F000000#32))

/-- The integer cell index: the floor of the grid coordinate. -/
def f0 (p : FVec F S8000000x3 .f32) : IVec S8000000x3 32 :=
  fptosi 32 (Host.floor (gc p))

/-- Clamp into [0, hi] per axis: min (hi, max (0, x)). -/
def clip (x : IVec S8000000x3 32) : IVec S8000000x3 32 :=
  minsi
    (broadcastInDim S8000000x3 ![0, 1] bcast_S1x3_S8000000x3_0_1
      (broadcastInDim S1x3 ![1] bcast_S3_S1x3_1 hi))
    (maxsi (broadcastInDim S8000000x3 ![] bcast_S_S8000000x3 (id (constantI S_ 32 0#32))) x)

/-- The clamped lower corner. -/
def i0 (p : FVec F S8000000x3 .f32) : IVec S8000000x3 32 := clip (f0 p)

/-- The clamped upper corner. -/
def i1 (p : FVec F S8000000x3 .f32) : IVec S8000000x3 32 :=
  clip (addi (f0 p) (broadcastInDim S8000000x3 ![] bcast_S_S8000000x3 (constantI S_ 32 1#32)))

/-- The fractional offset from the clamped lower corner. -/
def frac (p : FVec F S8000000x3 .f32) : FVec F S8000000x3 .f32 :=
  subf (gc p) (sitofp .f32 (i0 p))

/-- Column 0 of a float array, kept as a one-column array. -/
def fcol0 (x : FVec F S8000000x3 .f32) : FVec F S8000000x1 .f32 :=
  extractStridedSlice S8000000x1 ![0, 0] x slices_S8000000x3_S8000000x1_0_0
/-- Column 1 of a float array, kept as a one-column array. -/
def fcol1 (x : FVec F S8000000x3 .f32) : FVec F S8000000x1 .f32 :=
  extractStridedSlice S8000000x1 ![0, 1] x slices_S8000000x3_S8000000x1_0_1
/-- Column 2 of a float array, kept as a one-column array. -/
def fcol2 (x : FVec F S8000000x3 .f32) : FVec F S8000000x1 .f32 :=
  extractStridedSlice S8000000x1 ![0, 2] x slices_S8000000x3_S8000000x1_0_2

/-- Column 0 of an integer array, as a vector. -/
def icol0 (x : IVec S8000000x3 32) : IVec S8000000 32 :=
  shapeCast S8000000 (extractStridedSlice S8000000x1 ![0, 0] x slices_S8000000x3_S8000000x1_0_0)
    shapeCasts_S8000000x1_S8000000
/-- Column 1 of an integer array, as a vector. -/
def icol1 (x : IVec S8000000x3 32) : IVec S8000000 32 :=
  shapeCast S8000000 (extractStridedSlice S8000000x1 ![0, 1] x slices_S8000000x3_S8000000x1_0_1)
    shapeCasts_S8000000x1_S8000000
/-- Column 2 of an integer array, as a vector. -/
def icol2 (x : IVec S8000000x3 32) : IVec S8000000 32 :=
  shapeCast S8000000 (extractStridedSlice S8000000x1 ![0, 2] x slices_S8000000x3_S8000000x1_0_2)
    shapeCasts_S8000000x1_S8000000

/-- Python-style index normalisation: a negative index counts from the end of an axis of length n. -/
def wrap (n : BitVec 32) (x : IVec S8000000 32) : IVec S8000000 32 :=
  select
    (cmpi .slt x (broadcastInDim S8000000 ![] bcast_S_S8000000 (constantI S_ 32 0#32)))
    (addi x (broadcastInDim S8000000 ![] bcast_S_S8000000 (constantI S_ 32 n)))
    x

/-- The index rows (x, y, z) of one corner, one row per point. -/
def cornerIdx (x y z : IVec S8000000 32) : IVec S8000000x3 32 :=
  concatenate S8000000x3 1
    [⟨S8000000x1, broadcastInDim S8000000x1 ![0] bcast_S8000000_S8000000x1_0 (wrap 205#32 x)⟩,
     ⟨S8000000x1, broadcastInDim S8000000x1 ![0] bcast_S8000000_S8000000x1_0 (wrap 205#32 y)⟩,
     ⟨S8000000x1, broadcastInDim S8000000x1 ![0] bcast_S8000000_S8000000x1_0 (wrap 13#32 z)⟩]
    concatenates_S8000000x1_S8000000x1_S8000000x1_S8000000x3_d1

/-- The grid's 3-vector at one corner (x, y, z) of each point's cell. -/
def corner (g : FVec F S205x205x13x3 .f32) (x y z : IVec S8000000 32) : FVec F S8000000x3 .f32 :=
  Host.gather gather_S205x205x13x3_S8000000x3_S8000000x3_1_012_n_n_012_1_1113 g (cornerIdx x y z)

/-- Linear interpolation along one axis: a·(1 − w) + b·w, the weight one column broadcast over the three channels. -/
def lerp (a b : FVec F S8000000x3 .f32) (w : FVec F S8000000x1 .f32) : FVec F S8000000x3 .f32 :=
  addf
    (mulf a (broadcastInDim S8000000x3 ![0, 1] bcast_S8000000x1_S8000000x3_0_1
      (subf (broadcastInDim S8000000x1 ![] bcast_S_S8000000x1 (constant S_ .f32 0x3F800000#32)) w)))
    (mulf b (broadcastInDim S8000000x3 ![0, 1] bcast_S8000000x1_S8000000x3_0_1 w))

/-- The trilinear interpolation of the grid at every point. -/
def result (p : FVec F S8000000x3 .f32) (g : FVec F S205x205x13x3 .f32) : FVec F S8000000x3 .f32 :=
  lerp
    (lerp
      (lerp (corner g (icol0 (i0 p)) (icol1 (i0 p)) (icol2 (i0 p)))
            (corner g (icol0 (i1 p)) (icol1 (i0 p)) (icol2 (i0 p))) (fcol0 (frac p)))
      (lerp (corner g (icol0 (i0 p)) (icol1 (i1 p)) (icol2 (i0 p)))
            (corner g (icol0 (i1 p)) (icol1 (i1 p)) (icol2 (i0 p))) (fcol0 (frac p)))
      (fcol1 (frac p)))
    (lerp
      (lerp (corner g (icol0 (i0 p)) (icol1 (i0 p)) (icol2 (i1 p)))
            (corner g (icol0 (i1 p)) (icol1 (i0 p)) (icol2 (i1 p))) (fcol0 (frac p)))
      (lerp (corner g (icol0 (i0 p)) (icol1 (i1 p)) (icol2 (i1 p)))
            (corner g (icol0 (i1 p)) (icol1 (i1 p)) (icol2 (i1 p))) (fcol0 (frac p)))
      (fcol1 (frac p)))
    (fcol2 (frac p))

end Cert.ReferenceIdeal.Hand

end
-- ==== Proof.RefOps.lean ====
/-
  The reference program as a straight line of operations: each of its five windows is the sequence of
  a literal list of operations (a call of the clamping function listed as that function's six
  operations over the call's own buffers), and the program is the sequence of the five lists appended.
-/
import proofs.«147916_j62354335203431_2_alg».proof.Proof.RefTerm
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]
/-- The operations of the program's statements in its window 0, in order, a call's body listed at the call over that call's buffers. -/
abbrev ops0 : List (HloOp τ sig (Elt F)) :=
  [ nullary main_cst (fun i => FloatOps.ofBits .f32 (lit0 (S3.rowMajor i))),
    nullary main_c (fun i => lit1 (S3.rowMajor i)),
    unary main_cst main_v0 (broadcastInDim S1x3 ![1] bcast_S3_S1x3_1 : (⟨S3, .f32⟩ : BufTy).Contents (Elt F) → (⟨S1x3, .f32⟩ : BufTy).Contents (Elt F)),
    unary main_v0 main_v1 (broadcastInDim S8000000x3 ![0, 1] bcast_S1x3_S8000000x3_0_1 : (⟨S1x3, .f32⟩ : BufTy).Contents (Elt F) → (⟨S8000000x3, .f32⟩ : BufTy).Contents (Elt F)),
    binary main_arg0 main_v1 main_v2 (subf : (⟨S8000000x3, .f32⟩ : BufTy).Contents (Elt F) → (⟨S8000000x3, .f32⟩ : BufTy).Contents (Elt F) → (⟨S8000000x3, .f32⟩ : BufTy).Contents (Elt F)),
    nullary main_cst_0 (constant S_ .f32 0x3F000000#32),
    unary main_cst_0 main_v3 (broadcastInDim S8000000x3 ![] bcast_S_S8000000x3 : (⟨S_, .f32⟩ : BufTy).Contents (Elt F) → (⟨S8000000x3, .f32⟩ : BufTy).Contents (Elt F)),
    binary main_v2 main_v3 main_v4 (Host.divf : (⟨S8000000x3, .f32⟩ : BufTy).Contents (Elt F) → (⟨S8000000x3, .f32⟩ : BufTy).Contents (Elt F) → (⟨S8000000x3, .f32⟩ : BufTy).Contents (Elt F)),
    unary main_v4 main_v5 (Host.floor : (⟨S8000000x3, .f32⟩ : BufTy).Contents (Elt F) → (⟨S8000000x3, .f32⟩ : BufTy).Contents (Elt F)),
    unary main_v5 main_v6 (fptosi 32 : (⟨S8000000x3, .f32⟩ : BufTy).Contents (Elt F) → (⟨S8000000x3, .i32⟩ : BufTy).Contents (Elt F)),
    nullary main_c_1 (constantI S_ 32 0#32),
    TRef.unary (.of main_c_1 : TRef sig ⟨S_, .i32⟩) (.of main_call0_v0 : TRef sig ⟨S_, .i32⟩) id,
    TRef.unary (.of main_call0_v0 : TRef sig ⟨S_, .i32⟩) (.of main_call0_v1 : TRef sig ⟨S8000000x3, .i32⟩) (broadcastInDim S8000000x3 ![] bcast_S_S8000000x3),
    TRef.binary (.of main_call0_v1 : TRef sig ⟨S8000000x3, .i32⟩) (.of main_v6 : TRef sig ⟨S8000000x3, .i32⟩) (.of main_call0_v2 : TRef sig ⟨S8000000x3, .i32⟩) maxsi,
    TRef.unary (.of main_c : TRef sig ⟨S3, .i32⟩) (.of main_call0_v3 : TRef sig ⟨S1x3, .i32⟩) (broadcastInDim S1x3 ![1] bcast_S3_S1x3_1),
    TRef.unary (.of main_call0_v3 : TRef sig ⟨S1x3, .i32⟩) (.of main_call0_v4 : TRef sig ⟨S8000000x3, .i32⟩) (broadcastInDim S8000000x3 ![0, 1] bcast_S1x3_S8000000x3_0_1),
    TRef.binary (.of main_call0_v4 : TRef sig ⟨S8000000x3, .i32⟩) (.of main_call0_v2 : TRef sig ⟨S8000000x3, .i32⟩) (.of main_v7 : TRef sig ⟨S8000000x3, .i32⟩) minsi,
    nullary main_c_2 (constantI S_ 32 1#32),
    unary main_c_2 main_v8 (broadcastInDim S8000000x3 ![] bcast_S_S8000000x3 : (⟨S_, .i32⟩ : BufTy).Contents (Elt F) → (⟨S8000000x3, .i32⟩ : BufTy).Contents (Elt F)),
    binary main_v6 main_v8 main_v9 (addi : (⟨S8000000x3, .i32⟩ : BufTy).Contents (Elt F) → (⟨S8000000x3, .i32⟩ : BufTy).Contents (Elt F) → (⟨S8000000x3, .i32⟩ : BufTy).Contents (Elt F)),
    nullary main_c_3 (constantI S_ 32 0#32),
    TRef.unary (.of main_c_3 : TRef sig ⟨S_, .i32⟩) (.of main_call1_v0 : TRef sig ⟨S_, .i32⟩) id,
    TRef.unary (.of main_call1_v0 : TRef sig ⟨S_, .i32⟩) (.of main_call1_v1 : TRef sig ⟨S8000000x3, .i32⟩) (broadcastInDim S8000000x3 ![] bcast_S_S8000000x3),
    TRef.binary (.of main_call1_v1 : TRef sig ⟨S8000000x3, .i32⟩) (.of main_v9 : TRef sig ⟨S8000000x3, .i32⟩) (.of main_call1_v2 : TRef sig ⟨S8000000x3, .i32⟩) maxsi,
    TRef.unary (.of main_c : TRef sig ⟨S3, .i32⟩) (.of main_call1_v3 : TRef sig ⟨S1x3, .i32⟩) (broadcastInDim S1x3 ![1] bcast_S3_S1x3_1),
    TRef.unary (.of main_call1_v3 : TRef sig ⟨S1x3, .i32⟩) (.of main_call1_v4 : TRef sig ⟨S8000000x3, .i32⟩) (broadcastInDim S8000000x3 ![0, 1] bcast_S1x3_S8000000x3_0_1),
    TRef.binary (.of main_call1_v4 : TRef sig ⟨S8000000x3, .i32⟩) (.of main_call1_v2 : TRef sig ⟨S8000000x3, .i32⟩) (.of main_v10 : TRef sig ⟨S8000000x3, .i32⟩) minsi,
    unary main_v7 main_v11 (sitofp .f32 : (⟨S8000000x3, .i32⟩ : BufTy).Contents (Elt F) → (⟨S8000000x3, .f32⟩ : BufTy).Contents (Elt F)),
    binary main_v4 main_v11 main_v12 (subf : (⟨S8000000x3, .f32⟩ : BufTy).Contents (Elt F) → (⟨S8000000x3, .f32⟩ : BufTy).Contents (Elt F) → (⟨S8000000x3, .f32⟩ : BufTy).Contents (Elt F)),
    unary main_v12 main_v13 ((extractStridedSlice S8000000x1 ![0, 0] · slices_S8000000x3_S8000000x1_0_0) : (⟨S8000000x3, .f32⟩ : BufTy).Contents (Elt F) → (⟨S8000000x1, .f32⟩ : BufTy).Contents (Elt F)),
    unary main_v12 main_v14 ((extractStridedSlice S8000000x1 ![0, 1] · slices_S8000000x3_S8000000x1_0_1) : (⟨S8000000x3, .f32⟩ : BufTy).Contents (Elt F) → (⟨S8000000x1, .f32⟩ : BufTy).Contents (Elt F)),
    unary main_v12 main_v15 ((extractStridedSlice S8000000x1 ![0, 2] · slices_S8000000x3_S8000000x1_0_2) : (⟨S8000000x3, .f32⟩ : BufTy).Contents (Elt F) → (⟨S8000000x1, .f32⟩ : BufTy).Contents (Elt F)),
    unary main_v7 main_v16 ((extractStridedSlice S8000000x1 ![0, 0] · slices_S8000000x3_S8000000x1_0_0) : (⟨S8000000x3, .i32⟩ : BufTy).Contents (Elt F) → (⟨S8000000x1, .i32⟩ : BufTy).Contents (Elt F)),
    reshape main_v16 main_v17 rfl shapeCasts_S8000000x1_S8000000,
    unary main_v7 main_v18 ((extractStridedSlice S8000000x1 ![0, 1] · slices_S8000000x3_S8000000x1_0_1) : (⟨S8000000x3, .i32⟩ : BufTy).Contents (Elt F) → (⟨S8000000x1, .i32⟩ : BufTy).Contents (Elt F)),
    reshape main_v18 main_v19 rfl shapeCasts_S8000000x1_S8000000,
    unary main_v7 main_v20 ((extractStridedSlice S8000000x1 ![0, 2] · slices_S8000000x3_S8000000x1_0_2) : (⟨S8000000x3, .i32⟩ : BufTy).Contents (Elt F) → (⟨S8000000x1, .i32⟩ : BufTy).Contents (Elt F)),
    reshape main_v20 main_v21 rfl shapeCasts_S8000000x1_S8000000,
    unary main_v10 main_v22 ((extractStridedSlice S8000000x1 ![0, 0] · slices_S8000000x3_S8000000x1_0_0) : (⟨S8000000x3, .i32⟩ : BufTy).Contents (Elt F) → (⟨S8000000x1, .i32⟩ : BufTy).Contents (Elt F)),
    reshape main_v22 main_v23 rfl shapeCasts_S8000000x1_S8000000,
    unary main_v10 main_v24 ((extractStridedSlice S8000000x1 ![0, 1] · slices_S8000000x3_S8000000x1_0_1) : (⟨S8000000x3, .i32⟩ : BufTy).Contents (Elt F) → (⟨S8000000x1, .i32⟩ : BufTy).Contents (Elt F)),
    reshape main_v24 main_v25 rfl shapeCasts_S8000000x1_S8000000,
    unary main_v10 main_v26 ((extractStridedSlice S8000000x1 ![0, 2] · slices_S8000000x3_S8000000x1_0_2) : (⟨S8000000x3, .i32⟩ : BufTy).Contents (Elt F) → (⟨S8000000x1, .i32⟩ : BufTy).Contents (Elt F)),
    reshape main_v26 main_v27 rfl shapeCasts_S8000000x1_S8000000,
    nullary main_c_4 (constantI S_ 32 0#32),
    unary main_c_4 main_v28 (broadcastInDim S8000000 ![] bcast_S_S8000000 : (⟨S_, .i32⟩ : BufTy).Contents (Elt F) → (⟨S8000000, .i32⟩ : BufTy).Contents (Elt F)),
    binary main_v17 main_v28 main_v29 (cmpi .slt : (⟨S8000000, .i32⟩ : BufTy).Contents (Elt F) → (⟨S8000000, .i32⟩ : BufTy).Contents (Elt F) → (⟨S8000000, .i1⟩ : BufTy).Contents (Elt F)),
    nullary main_c_5 (constantI S_ 32 205#32),
    unary main_c_5 main_v30 (broadcastInDim S8000000 ![] bcast_S_S8000000 : (⟨S_, .i32⟩ : BufTy).Contents (Elt F) → (⟨S8000000, .i32⟩ : BufTy).Contents (Elt F)),
    binary main_v17 main_v30 main_v31 (addi : (⟨S8000000, .i32⟩ : BufTy).Contents (Elt F) → (⟨S8000000, .i32⟩ : BufTy).Contents (Elt F) → (⟨S8000000, .i32⟩ : BufTy).Contents (Elt F)),
    ternary main_v29 main_v31 main_v17 main_v32 (select : (⟨S8000000, .i1⟩ : BufTy).Contents (Elt F) → (⟨S8000000, .i32⟩ : BufTy).Contents (Elt F) → (⟨S8000000, .i32⟩ : BufTy).Contents (Elt F) → (⟨S8000000, .i32⟩ : BufTy).Contents (Elt F)),
    nullary main_c_6 (constantI S_ 32 0#32),
    unary main_c_6 main_v33 (broadcastInDim S8000000 ![] bcast_S_S8000000 : (⟨S_, .i32⟩ : BufTy).Contents (Elt F) → (⟨S8000000, .i32⟩ : BufTy).Contents (Elt F)),
    binary main_v19 main_v33 main_v34 (cmpi .slt : (⟨S8000000, .i32⟩ : BufTy).Contents (Elt F) → (⟨S8000000, .i32⟩ : BufTy).Contents (Elt F) → (⟨S8000000, .i1⟩ : BufTy).Contents (Elt F)),
    nullary main_c_7 (constantI S_ 32 205#32),
    unary main_c_7 main_v35 (broadcastInDim S8000000 ![] bcast_S_S8000000 : (⟨S_, .i32⟩ : BufTy).Contents (Elt F) → (⟨S8000000, .i32⟩ : BufTy).Contents (Elt F)),
    binary main_v19 main_v35 main_v36 (addi : (⟨S8000000, .i32⟩ : BufTy).Contents (Elt F) → (⟨S8000000, .i32⟩ : BufTy).Contents (Elt F) → (⟨S8000000, .i32⟩ : BufTy).Contents (Elt F)),
    ternary main_v34 main_v36 main_v19 main_v37 (select : (⟨S8000000, .i1⟩ : BufTy).Contents (Elt F) → (⟨S8000000, .i32⟩ : BufTy).Contents (Elt F) → (⟨S8000000, .i32⟩ : BufTy).Contents (Elt F) → (⟨S8000000, .i32⟩ : BufTy).Contents (Elt F)),
    nullary main_c_8 (constantI S_ 32 0#32),
    unary main_c_8 main_v38 (broadcastInDim S8000000 ![] bcast_S_S8000000 : (⟨S_, .i32⟩ : BufTy).Contents (Elt F) → (⟨S8000000, .i32⟩ : BufTy).Contents (Elt F)),
    binary main_v21 main_v38 main_v39 (cmpi .slt : (⟨S8000000, .i32⟩ : BufTy).Contents (Elt F) → (⟨S8000000, .i32⟩ : BufTy).Contents (Elt F) → (⟨S8000000, .i1⟩ : BufTy).Contents (Elt F)),
    nullary main_c_9 (constantI S_ 32 13#32),
    unary main_c_9 main_v40 (broadcastInDim S8000000 ![] bcast_S_S8000000 : (⟨S_, .i32⟩ : BufTy).Contents (Elt F) → (⟨S8000000, .i32⟩ : BufTy).Contents (Elt F)),
    binary main_v21 main_v40 main_v41 (addi : (⟨S8000000, .i32⟩ : BufTy).Contents (Elt F) → (⟨S8000000, .i32⟩ : BufTy).Contents (Elt F) → (⟨S8000000, .i32⟩ : BufTy).Contents (Elt F)),
    ternary main_v39 main_v41 main_v21 main_v42 (select : (⟨S8000000, .i1⟩ : BufTy).Contents (Elt F) → (⟨S8000000, .i32⟩ : BufTy).Contents (Elt F) → (⟨S8000000, .i32⟩ : BufTy).Contents (Elt F) → (⟨S8000000, .i32⟩ : BufTy).Contents (Elt F)),
    unary main_v32 main_v43 (broadcastInDim S8000000x1 ![0] bcast_S8000000_S8000000x1_0 : (⟨S8000000, .i32⟩ : BufTy).Contents (Elt F) → (⟨S8000000x1, .i32⟩ : BufTy).Contents (Elt F)),
    unary main_v37 main_v44 (broadcastInDim S8000000x1 ![0] bcast_S8000000_S8000000x1_0 : (⟨S8000000, .i32⟩ : BufTy).Contents (Elt F) → (⟨S8000000x1, .i32⟩ : BufTy).Contents (Elt F)),
    unary main_v42 main_v45 (broadcastInDim S8000000x1 ![0] bcast_S8000000_S8000000x1_0 : (⟨S8000000, .i32⟩ : BufTy).Contents (Elt F) → (⟨S8000000x1, .i32⟩ : BufTy).Contents (Elt F)),
    nary ![main_v43, main_v44, main_v45] main_v46 (fun u => concatenate S8000000x3 1 [⟨S8000000x1, u 0⟩, ⟨S8000000x1, u 1⟩, ⟨S8000000x1, u 2⟩] concatenates_S8000000x1_S8000000x1_S8000000x1_S8000000x3_d1),
    binary main_arg1 main_v46 main_v47 ((fun x i => Host.gather gather_S205x205x13x3_S8000000x3_S8000000x3_1_012_n_n_012_1_1113 x i) : (⟨S205x205x13x3, .f32⟩ : BufTy).Contents (Elt F) → (⟨S8000000x3, .i32⟩ : BufTy).Contents (Elt F) → (⟨S8000000x3, .f32⟩ : BufTy).Contents (Elt F)) ]

theorem ops0_sub : (ops0 : List (HloOp τ sig (Elt F))).Forall fun op => op.bufs ⊆ tcRefs τ sig :=
  ⟨nullary_bufs_sub .., nullary_bufs_sub .., unary_bufs_sub .., unary_bufs_sub .., binary_bufs_sub .., nullary_bufs_sub .., unary_bufs_sub .., binary_bufs_sub .., unary_bufs_sub .., unary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., unary_bufs_sub .., binary_bufs_sub .., unary_bufs_sub .., unary_bufs_sub .., binary_bufs_sub .., unary_bufs_sub .., binary_bufs_sub .., unary_bufs_sub .., unary_bufs_sub .., unary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub ..⟩

set_option maxRecDepth 4096 in
/-- Window 0 is the sequence of its list: both sides are one chain of steps by computation. -/
theorem part0_eq (c : Dev nD) : main_part0 (F := F) c = seq ops0 := rfl

/-- The operations of the program's statements in its window 1, in order, a call's body listed at the call over that call's buffers. -/
abbrev ops1 : List (HloOp τ sig (Elt F)) :=
  [ nullary main_c_10 (constantI S_ 32 0#32),
    unary main_c_10 main_v48 (broadcastInDim S8000000 ![] bcast_S_S8000000 : (⟨S_, .i32⟩ : BufTy).Contents (Elt F) → (⟨S8000000, .i32⟩ : BufTy).Contents (Elt F)),
    binary main_v17 main_v48 main_v49 (cmpi .slt : (⟨S8000000, .i32⟩ : BufTy).Contents (Elt F) → (⟨S8000000, .i32⟩ : BufTy).Contents (Elt F) → (⟨S8000000, .i1⟩ : BufTy).Contents (Elt F)),
    nullary main_c_11 (constantI S_ 32 205#32),
    unary main_c_11 main_v50 (broadcastInDim S8000000 ![] bcast_S_S8000000 : (⟨S_, .i32⟩ : BufTy).Contents (Elt F) → (⟨S8000000, .i32⟩ : BufTy).Contents (Elt F)),
    binary main_v17 main_v50 main_v51 (addi : (⟨S8000000, .i32⟩ : BufTy).Contents (Elt F) → (⟨S8000000, .i32⟩ : BufTy).Contents (Elt F) → (⟨S8000000, .i32⟩ : BufTy).Contents (Elt F)),
    ternary main_v49 main_v51 main_v17 main_v52 (select : (⟨S8000000, .i1⟩ : BufTy).Contents (Elt F) → (⟨S8000000, .i32⟩ : BufTy).Contents (Elt F) → (⟨S8000000, .i32⟩ : BufTy).Contents (Elt F) → (⟨S8000000, .i32⟩ : BufTy).Contents (Elt F)),
    nullary main_c_12 (constantI S_ 32 0#32),
    unary main_c_12 main_v53 (broadcastInDim S8000000 ![] bcast_S_S8000000 : (⟨S_, .i32⟩ : BufTy).Contents (Elt F) → (⟨S8000000, .i32⟩ : BufTy).Contents (Elt F)),
    binary main_v19 main_v53 main_v54 (cmpi .slt : (⟨S8000000, .i32⟩ : BufTy).Contents (Elt F) → (⟨S8000000, .i32⟩ : BufTy).Contents (Elt F) → (⟨S8000000, .i1⟩ : BufTy).Contents (Elt F)),
    nullary main_c_13 (constantI S_ 32 205#32),
    unary main_c_13 main_v55 (broadcastInDim S8000000 ![] bcast_S_S8000000 : (⟨S_, .i32⟩ : BufTy).Contents (Elt F) → (⟨S8000000, .i32⟩ : BufTy).Contents (Elt F)),
    binary main_v19 main_v55 main_v56 (addi : (⟨S8000000, .i32⟩ : BufTy).Contents (Elt F) → (⟨S8000000, .i32⟩ : BufTy).Contents (Elt F) → (⟨S8000000, .i32⟩ : BufTy).Contents (Elt F)),
    ternary main_v54 main_v56 main_v19 main_v57 (select : (⟨S8000000, .i1⟩ : BufTy).Contents (Elt F) → (⟨S8000000, .i32⟩ : BufTy).Contents (Elt F) → (⟨S8000000, .i32⟩ : BufTy).Contents (Elt F) → (⟨S8000000, .i32⟩ : BufTy).Contents (Elt F)),
    nullary main_c_14 (constantI S_ 32 0#32),
    unary main_c_14 main_v58 (broadcastInDim S8000000 ![] bcast_S_S8000000 : (⟨S_, .i32⟩ : BufTy).Contents (Elt F) → (⟨S8000000, .i32⟩ : BufTy).Contents (Elt F)),
    binary main_v27 main_v58 main_v59 (cmpi .slt : (⟨S8000000, .i32⟩ : BufTy).Contents (Elt F) → (⟨S8000000, .i32⟩ : BufTy).Contents (Elt F) → (⟨S8000000, .i1⟩ : BufTy).Contents (Elt F)),
    nullary main_c_15 (constantI S_ 32 13#32),
    unary main_c_15 main_v60 (broadcastInDim S8000000 ![] bcast_S_S8000000 : (⟨S_, .i32⟩ : BufTy).Contents (Elt F) → (⟨S8000000, .i32⟩ : BufTy).Contents (Elt F)),
    binary main_v27 main_v60 main_v61 (addi : (⟨S8000000, .i32⟩ : BufTy).Contents (Elt F) → (⟨S8000000, .i32⟩ : BufTy).Contents (Elt F) → (⟨S8000000, .i32⟩ : BufTy).Contents (Elt F)),
    ternary main_v59 main_v61 main_v27 main_v62 (select : (⟨S8000000, .i1⟩ : BufTy).Contents (Elt F) → (⟨S8000000, .i32⟩ : BufTy).Contents (Elt F) → (⟨S8000000, .i32⟩ : BufTy).Contents (Elt F) → (⟨S8000000, .i32⟩ : BufTy).Contents (Elt F)),
    unary main_v52 main_v63 (broadcastInDim S8000000x1 ![0] bcast_S8000000_S8000000x1_0 : (⟨S8000000, .i32⟩ : BufTy).Contents (Elt F) → (⟨S8000000x1, .i32⟩ : BufTy).Contents (Elt F)),
    unary main_v57 main_v64 (broadcastInDim S8000000x1 ![0] bcast_S8000000_S8000000x1_0 : (⟨S8000000, .i32⟩ : BufTy).Contents (Elt F) → (⟨S8000000x1, .i32⟩ : BufTy).Contents (Elt F)),
    unary main_v62 main_v65 (broadcastInDim S8000000x1 ![0] bcast_S8000000_S8000000x1_0 : (⟨S8000000, .i32⟩ : BufTy).Contents (Elt F) → (⟨S8000000x1, .i32⟩ : BufTy).Contents (Elt F)),
    nary ![main_v63, main_v64, main_v65] main_v66 (fun u => concatenate S8000000x3 1 [⟨S8000000x1, u 0⟩, ⟨S8000000x1, u 1⟩, ⟨S8000000x1, u 2⟩] concatenates_S8000000x1_S8000000x1_S8000000x1_S8000000x3_d1),
    binary main_arg1 main_v66 main_v67 ((fun x i => Host.gather gather_S205x205x13x3_S8000000x3_S8000000x3_1_012_n_n_012_1_1113 x i) : (⟨S205x205x13x3, .f32⟩ : BufTy).Contents (Elt F) → (⟨S8000000x3, .i32⟩ : BufTy).Contents (Elt F) → (⟨S8000000x3, .f32⟩ : BufTy).Contents (Elt F)),
    nullary main_c_16 (constantI S_ 32 0#32),
    unary main_c_16 main_v68 (broadcastInDim S8000000 ![] bcast_S_S8000000 : (⟨S_, .i32⟩ : BufTy).Contents (Elt F) → (⟨S8000000, .i32⟩ : BufTy).Contents (Elt F)),
    binary main_v17 main_v68 main_v69 (cmpi .slt : (⟨S8000000, .i32⟩ : BufTy).Contents (Elt F) → (⟨S8000000, .i32⟩ : BufTy).Contents (Elt F) → (⟨S8000000, .i1⟩ : BufTy).Contents (Elt F)),
    nullary main_c_17 (constantI S_ 32 205#32),
    unary main_c_17 main_v70 (broadcastInDim S8000000 ![] bcast_S_S8000000 : (⟨S_, .i32⟩ : BufTy).Contents (Elt F) → (⟨S8000000, .i32⟩ : BufTy).Contents (Elt F)),
    binary main_v17 main_v70 main_v71 (addi : (⟨S8000000, .i32⟩ : BufTy).Contents (Elt F) → (⟨S8000000, .i32⟩ : BufTy).Contents (Elt F) → (⟨S8000000, .i32⟩ : BufTy).Contents (Elt F)),
    ternary main_v69 main_v71 main_v17 main_v72 (select : (⟨S8000000, .i1⟩ : BufTy).Contents (Elt F) → (⟨S8000000, .i32⟩ : BufTy).Contents (Elt F) → (⟨S8000000, .i32⟩ : BufTy).Contents (Elt F) → (⟨S8000000, .i32⟩ : BufTy).Contents (Elt F)),
    nullary main_c_18 (constantI S_ 32 0#32),
    unary main_c_18 main_v73 (broadcastInDim S8000000 ![] bcast_S_S8000000 : (⟨S_, .i32⟩ : BufTy).Contents (Elt F) → (⟨S8000000, .i32⟩ : BufTy).Contents (Elt F)),
    binary main_v25 main_v73 main_v74 (cmpi .slt : (⟨S8000000, .i32⟩ : BufTy).Contents (Elt F) → (⟨S8000000, .i32⟩ : BufTy).Contents (Elt F) → (⟨S8000000, .i1⟩ : BufTy).Contents (Elt F)),
    nullary main_c_19 (constantI S_ 32 205#32),
    unary main_c_19 main_v75 (broadcastInDim S8000000 ![] bcast_S_S8000000 : (⟨S_, .i32⟩ : BufTy).Contents (Elt F) → (⟨S8000000, .i32⟩ : BufTy).Contents (Elt F)),
    binary main_v25 main_v75 main_v76 (addi : (⟨S8000000, .i32⟩ : BufTy).Contents (Elt F) → (⟨S8000000, .i32⟩ : BufTy).Contents (Elt F) → (⟨S8000000, .i32⟩ : BufTy).Contents (Elt F)),
    ternary main_v74 main_v76 main_v25 main_v77 (select : (⟨S8000000, .i1⟩ : BufTy).Contents (Elt F) → (⟨S8000000, .i32⟩ : BufTy).Contents (Elt F) → (⟨S8000000, .i32⟩ : BufTy).Contents (Elt F) → (⟨S8000000, .i32⟩ : BufTy).Contents (Elt F)),
    nullary main_c_20 (constantI S_ 32 0#32),
    unary main_c_20 main_v78 (broadcastInDim S8000000 ![] bcast_S_S8000000 : (⟨S_, .i32⟩ : BufTy).Contents (Elt F) → (⟨S8000000, .i32⟩ : BufTy).Contents (Elt F)),
    binary main_v21 main_v78 main_v79 (cmpi .slt : (⟨S8000000, .i32⟩ : BufTy).Contents (Elt F) → (⟨S8000000, .i32⟩ : BufTy).Contents (Elt F) → (⟨S8000000, .i1⟩ : BufTy).Contents (Elt F)),
    nullary main_c_21 (constantI S_ 32 13#32),
    unary main_c_21 main_v80 (broadcastInDim S8000000 ![] bcast_S_S8000000 : (⟨S_, .i32⟩ : BufTy).Contents (Elt F) → (⟨S8000000, .i32⟩ : BufTy).Contents (Elt F)),
    binary main_v21 main_v80 main_v81 (addi : (⟨S8000000, .i32⟩ : BufTy).Contents (Elt F) → (⟨S8000000, .i32⟩ : BufTy).Contents (Elt F) → (⟨S8000000, .i32⟩ : BufTy).Contents (Elt F)),
    ternary main_v79 main_v81 main_v21 main_v82 (select : (⟨S8000000, .i1⟩ : BufTy).Contents (Elt F) → (⟨S8000000, .i32⟩ : BufTy).Contents (Elt F) → (⟨S8000000, .i32⟩ : BufTy).Contents (Elt F) → (⟨S8000000, .i32⟩ : BufTy).Contents (Elt F)),
    unary main_v72 main_v83 (broadcastInDim S8000000x1 ![0] bcast_S8000000_S8000000x1_0 : (⟨S8000000, .i32⟩ : BufTy).Contents (Elt F) → (⟨S8000000x1, .i32⟩ : BufTy).Contents (Elt F)),
    unary main_v77 main_v84 (broadcastInDim S8000000x1 ![0] bcast_S8000000_S8000000x1_0 : (⟨S8000000, .i32⟩ : BufTy).Contents (Elt F) → (⟨S8000000x1, .i32⟩ : BufTy).Contents (Elt F)),
    unary main_v82 main_v85 (broadcastInDim S8000000x1 ![0] bcast_S8000000_S8000000x1_0 : (⟨S8000000, .i32⟩ : BufTy).Contents (Elt F) → (⟨S8000000x1, .i32⟩ : BufTy).Contents (Elt F)),
    nary ![main_v83, main_v84, main_v85] main_v86 (fun u => concatenate S8000000x3 1 [⟨S8000000x1, u 0⟩, ⟨S8000000x1, u 1⟩, ⟨S8000000x1, u 2⟩] concatenates_S8000000x1_S8000000x1_S8000000x1_S8000000x3_d1),
    binary main_arg1 main_v86 main_v87 ((fun x i => Host.gather gather_S205x205x13x3_S8000000x3_S8000000x3_1_012_n_n_012_1_1113 x i) : (⟨S205x205x13x3, .f32⟩ : BufTy).Contents (Elt F) → (⟨S8000000x3, .i32⟩ : BufTy).Contents (Elt F) → (⟨S8000000x3, .f32⟩ : BufTy).Contents (Elt F)),
    nullary main_c_22 (constantI S_ 32 0#32),
    unary main_c_22 main_v88 (broadcastInDim S8000000 ![] bcast_S_S8000000 : (⟨S_, .i32⟩ : BufTy).Contents (Elt F) → (⟨S8000000, .i32⟩ : BufTy).Contents (Elt F)),
    binary main_v17 main_v88 main_v89 (cmpi .slt : (⟨S8000000, .i32⟩ : BufTy).Contents (Elt F) → (⟨S8000000, .i32⟩ : BufTy).Contents (Elt F) → (⟨S8000000, .i1⟩ : BufTy).Contents (Elt F)),
    nullary main_c_23 (constantI S_ 32 205#32),
    unary main_c_23 main_v90 (broadcastInDim S8000000 ![] bcast_S_S8000000 : (⟨S_, .i32⟩ : BufTy).Contents (Elt F) → (⟨S8000000, .i32⟩ : BufTy).Contents (Elt F)),
    binary main_v17 main_v90 main_v91 (addi : (⟨S8000000, .i32⟩ : BufTy).Contents (Elt F) → (⟨S8000000, .i32⟩ : BufTy).Contents (Elt F) → (⟨S8000000, .i32⟩ : BufTy).Contents (Elt F)),
    ternary main_v89 main_v91 main_v17 main_v92 (select : (⟨S8000000, .i1⟩ : BufTy).Contents (Elt F) → (⟨S8000000, .i32⟩ : BufTy).Contents (Elt F) → (⟨S8000000, .i32⟩ : BufTy).Contents (Elt F) → (⟨S8000000, .i32⟩ : BufTy).Contents (Elt F)),
    nullary main_c_24 (constantI S_ 32 0#32) ]

theorem ops1_sub : (ops1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub .., nullary_bufs_sub ..⟩

set_option maxRecDepth 4096 in
/-- Window 1 is the sequence of its list: both sides are one chain of steps by computation. -/
theorem part1_eq (c : Dev nD) : main_part1 (F := F) c = seq ops1 := rfl

/-- The operations of the program's statements in its window 2, in order, a call's body listed at the call over that call's buffers. -/
abbrev ops2 : List (HloOp τ sig (Elt F)) :=
  [ unary main_c_24 main_v93 (broadcastInDim S8000000 ![] bcast_S_S8000000 : (⟨S_, .i32⟩ : BufTy).Contents (Elt F) → (⟨S8000000, .i32⟩ : BufTy).Contents (Elt F)),
    binary main_v25 main_v93 main_v94 (cmpi .slt : (⟨S8000000, .i32⟩ : BufTy).Contents (Elt F) → (⟨S8000000, .i32⟩ : BufTy).Contents (Elt F) → (⟨S8000000, .i1⟩ : BufTy).Contents (Elt F)),
    nullary main_c_25 (constantI S_ 32 205#32),
    unary main_c_25 main_v95 (broadcastInDim S8000000 ![] bcast_S_S8000000 : (⟨S_, .i32⟩ : BufTy).Contents (Elt F) → (⟨S8000000, .i32⟩ : BufTy).Contents (Elt F)),
    binary main_v25 main_v95 main_v96 (addi : (⟨S8000000, .i32⟩ : BufTy).Contents (Elt F) → (⟨S8000000, .i32⟩ : BufTy).Contents (Elt F) → (⟨S8000000, .i32⟩ : BufTy).Contents (Elt F)),
    ternary main_v94 main_v96 main_v25 main_v97 (select : (⟨S8000000, .i1⟩ : BufTy).Contents (Elt F) → (⟨S8000000, .i32⟩ : BufTy).Contents (Elt F) → (⟨S8000000, .i32⟩ : BufTy).Contents (Elt F) → (⟨S8000000, .i32⟩ : BufTy).Contents (Elt F)),
    nullary main_c_26 (constantI S_ 32 0#32),
    unary main_c_26 main_v98 (broadcastInDim S8000000 ![] bcast_S_S8000000 : (⟨S_, .i32⟩ : BufTy).Contents (Elt F) → (⟨S8000000, .i32⟩ : BufTy).Contents (Elt F)),
    binary main_v27 main_v98 main_v99 (cmpi .slt : (⟨S8000000, .i32⟩ : BufTy).Contents (Elt F) → (⟨S8000000, .i32⟩ : BufTy).Contents (Elt F) → (⟨S8000000, .i1⟩ : BufTy).Contents (Elt F)),
    nullary main_c_27 (constantI S_ 32 13#32),
    unary main_c_27 main_v100 (broadcastInDim S8000000 ![] bcast_S_S8000000 : (⟨S_, .i32⟩ : BufTy).Contents (Elt F) → (⟨S8000000, .i32⟩ : BufTy).Contents (Elt F)),
    binary main_v27 main_v100 main_v101 (addi : (⟨S8000000, .i32⟩ : BufTy).Contents (Elt F) → (⟨S8000000, .i32⟩ : BufTy).Contents (Elt F) → (⟨S8000000, .i32⟩ : BufTy).Contents (Elt F)),
    ternary main_v99 main_v101 main_v27 main_v102 (select : (⟨S8000000, .i1⟩ : BufTy).Contents (Elt F) → (⟨S8000000, .i32⟩ : BufTy).Contents (Elt F) → (⟨S8000000, .i32⟩ : BufTy).Contents (Elt F) → (⟨S8000000, .i32⟩ : BufTy).Contents (Elt F)),
    unary main_v92 main_v103 (broadcastInDim S8000000x1 ![0] bcast_S8000000_S8000000x1_0 : (⟨S8000000, .i32⟩ : BufTy).Contents (Elt F) → (⟨S8000000x1, .i32⟩ : BufTy).Contents (Elt F)),
    unary main_v97 main_v104 (broadcastInDim S8000000x1 ![0] bcast_S8000000_S8000000x1_0 : (⟨S8000000, .i32⟩ : BufTy).Contents (Elt F) → (⟨S8000000x1, .i32⟩ : BufTy).Contents (Elt F)),
    unary main_v102 main_v105 (broadcastInDim S8000000x1 ![0] bcast_S8000000_S8000000x1_0 : (⟨S8000000, .i32⟩ : BufTy).Contents (Elt F) → (⟨S8000000x1, .i32⟩ : BufTy).Contents (Elt F)),
    nary ![main_v103, main_v104, main_v105] main_v106 (fun u => concatenate S8000000x3 1 [⟨S8000000x1, u 0⟩, ⟨S8000000x1, u 1⟩, ⟨S8000000x1, u 2⟩] concatenates_S8000000x1_S8000000x1_S8000000x1_S8000000x3_d1),
    binary main_arg1 main_v106 main_v107 ((fun x i => Host.gather gather_S205x205x13x3_S8000000x3_S8000000x3_1_012_n_n_012_1_1113 x i) : (⟨S205x205x13x3, .f32⟩ : BufTy).Contents (Elt F) → (⟨S8000000x3, .i32⟩ : BufTy).Contents (Elt F) → (⟨S8000000x3, .f32⟩ : BufTy).Contents (Elt F)),
    nullary main_c_28 (constantI S_ 32 0#32),
    unary main_c_28 main_v108 (broadcastInDim S8000000 ![] bcast_S_S8000000 : (⟨S_, .i32⟩ : BufTy).Contents (Elt F) → (⟨S8000000, .i32⟩ : BufTy).Contents (Elt F)),
    binary main_v23 main_v108 main_v109 (cmpi .slt : (⟨S8000000, .i32⟩ : BufTy).Contents (Elt F) → (⟨S8000000, .i32⟩ : BufTy).Contents (Elt F) → (⟨S8000000, .i1⟩ : BufTy).Contents (Elt F)),
    nullary main_c_29 (constantI S_ 32 205#32),
    unary main_c_29 main_v110 (broadcastInDim S8000000 ![] bcast_S_S8000000 : (⟨S_, .i32⟩ : BufTy).Contents (Elt F) → (⟨S8000000, .i32⟩ : BufTy).Contents (Elt F)),
    binary main_v23 main_v110 main_v111 (addi : (⟨S8000000, .i32⟩ : BufTy).Contents (Elt F) → (⟨S8000000, .i32⟩ : BufTy).Contents (Elt F) → (⟨S8000000, .i32⟩ : BufTy).Contents (Elt F)),
    ternary main_v109 main_v111 main_v23 main_v112 (select : (⟨S8000000, .i1⟩ : BufTy).Contents (Elt F) → (⟨S8000000, .i32⟩ : BufTy).Contents (Elt F) → (⟨S8000000, .i32⟩ : BufTy).Contents (Elt F) → (⟨S8000000, .i32⟩ : BufTy).Contents (Elt F)),
    nullary main_c_30 (constantI S_ 32 0#32),
    unary main_c_30 main_v113 (broadcastInDim S8000000 ![] bcast_S_S8000000 : (⟨S_, .i32⟩ : BufTy).Contents (Elt F) → (⟨S8000000, .i32⟩ : BufTy).Contents (Elt F)),
    binary main_v19 main_v113 main_v114 (cmpi .slt : (⟨S8000000, .i32⟩ : BufTy).Contents (Elt F) → (⟨S8000000, .i32⟩ : BufTy).Contents (Elt F) → (⟨S8000000, .i1⟩ : BufTy).Contents (Elt F)),
    nullary main_c_31 (constantI S_ 32 205#32),
    unary main_c_31 main_v115 (broadcastInDim S8000000 ![] bcast_S_S8000000 : (⟨S_, .i32⟩ : BufTy).Contents (Elt F) → (⟨S8000000, .i32⟩ : BufTy).Contents (Elt F)),
    binary main_v19 main_v115 main_v116 (addi : (⟨S8000000, .i32⟩ : BufTy).Contents (Elt F) → (⟨S8000000, .i32⟩ : BufTy).Contents (Elt F) → (⟨S8000000, .i32⟩ : BufTy).Contents (Elt F)),
    ternary main_v114 main_v116 main_v19 main_v117 (select : (⟨S8000000, .i1⟩ : BufTy).Contents (Elt F) → (⟨S8000000, .i32⟩ : BufTy).Contents (Elt F) → (⟨S8000000, .i32⟩ : BufTy).Contents (Elt F) → (⟨S8000000, .i32⟩ : BufTy).Contents (Elt F)),
    nullary main_c_32 (constantI S_ 32 0#32),
    unary main_c_32 main_v118 (broadcastInDim S8000000 ![] bcast_S_S8000000 : (⟨S_, .i32⟩ : BufTy).Contents (Elt F) → (⟨S8000000, .i32⟩ : BufTy).Contents (Elt F)),
    binary main_v21 main_v118 main_v119 (cmpi .slt : (⟨S8000000, .i32⟩ : BufTy).Contents (Elt F) → (⟨S8000000, .i32⟩ : BufTy).Contents (Elt F) → (⟨S8000000, .i1⟩ : BufTy).Contents (Elt F)),
    nullary main_c_33 (constantI S_ 32 13#32),
    unary main_c_33 main_v120 (broadcastInDim S8000000 ![] bcast_S_S8000000 : (⟨S_, .i32⟩ : BufTy).Contents (Elt F) → (⟨S8000000, .i32⟩ : BufTy).Contents (Elt F)),
    binary main_v21 main_v120 main_v121 (addi : (⟨S8000000, .i32⟩ : BufTy).Contents (Elt F) → (⟨S8000000, .i32⟩ : BufTy).Contents (Elt F) → (⟨S8000000, .i32⟩ : BufTy).Contents (Elt F)),
    ternary main_v119 main_v121 main_v21 main_v122 (select : (⟨S8000000, .i1⟩ : BufTy).Contents (Elt F) → (⟨S8000000, .i32⟩ : BufTy).Contents (Elt F) → (⟨S8000000, .i32⟩ : BufTy).Contents (Elt F) → (⟨S8000000, .i32⟩ : BufTy).Contents (Elt F)),
    unary main_v112 main_v123 (broadcastInDim S8000000x1 ![0] bcast_S8000000_S8000000x1_0 : (⟨S8000000, .i32⟩ : BufTy).Contents (Elt F) → (⟨S8000000x1, .i32⟩ : BufTy).Contents (Elt F)),
    unary main_v117 main_v124 (broadcastInDim S8000000x1 ![0] bcast_S8000000_S8000000x1_0 : (⟨S8000000, .i32⟩ : BufTy).Contents (Elt F) → (⟨S8000000x1, .i32⟩ : BufTy).Contents (Elt F)),
    unary main_v122 main_v125 (broadcastInDim S8000000x1 ![0] bcast_S8000000_S8000000x1_0 : (⟨S8000000, .i32⟩ : BufTy).Contents (Elt F) → (⟨S8000000x1, .i32⟩ : BufTy).Contents (Elt F)),
    nary ![main_v123, main_v124, main_v125] main_v126 (fun u => concatenate S8000000x3 1 [⟨S8000000x1, u 0⟩, ⟨S8000000x1, u 1⟩, ⟨S8000000x1, u 2⟩] concatenates_S8000000x1_S8000000x1_S8000000x1_S8000000x3_d1),
    binary main_arg1 main_v126 main_v127 ((fun x i => Host.gather gather_S205x205x13x3_S8000000x3_S8000000x3_1_012_n_n_012_1_1113 x i) : (⟨S205x205x13x3, .f32⟩ : BufTy).Contents (Elt F) → (⟨S8000000x3, .i32⟩ : BufTy).Contents (Elt F) → (⟨S8000000x3, .f32⟩ : BufTy).Contents (Elt F)),
    nullary main_c_34 (constantI S_ 32 0#32),
    unary main_c_34 main_v128 (broadcastInDim S8000000 ![] bcast_S_S8000000 : (⟨S_, .i32⟩ : BufTy).Contents (Elt F) → (⟨S8000000, .i32⟩ : BufTy).Contents (Elt F)),
    binary main_v23 main_v128 main_v129 (cmpi .slt : (⟨S8000000, .i32⟩ : BufTy).Contents (Elt F) → (⟨S8000000, .i32⟩ : BufTy).Contents (Elt F) → (⟨S8000000, .i1⟩ : BufTy).Contents (Elt F)),
    nullary main_c_35 (constantI S_ 32 205#32),
    unary main_c_35 main_v130 (broadcastInDim S8000000 ![] bcast_S_S8000000 : (⟨S_, .i32⟩ : BufTy).Contents (Elt F) → (⟨S8000000, .i32⟩ : BufTy).Contents (Elt F)),
    binary main_v23 main_v130 main_v131 (addi : (⟨S8000000, .i32⟩ : BufTy).Contents (Elt F) → (⟨S8000000, .i32⟩ : BufTy).Contents (Elt F) → (⟨S8000000, .i32⟩ : BufTy).Contents (Elt F)),
    ternary main_v129 main_v131 main_v23 main_v132 (select : (⟨S8000000, .i1⟩ : BufTy).Contents (Elt F) → (⟨S8000000, .i32⟩ : BufTy).Contents (Elt F) → (⟨S8000000, .i32⟩ : BufTy).Contents (Elt F) → (⟨S8000000, .i32⟩ : BufTy).Contents (Elt F)),
    nullary main_c_36 (constantI S_ 32 0#32),
    unary main_c_36 main_v133 (broadcastInDim S8000000 ![] bcast_S_S8000000 : (⟨S_, .i32⟩ : BufTy).Contents (Elt F) → (⟨S8000000, .i32⟩ : BufTy).Contents (Elt F)),
    binary main_v19 main_v133 main_v134 (cmpi .slt : (⟨S8000000, .i32⟩ : BufTy).Contents (Elt F) → (⟨S8000000, .i32⟩ : BufTy).Contents (Elt F) → (⟨S8000000, .i1⟩ : BufTy).Contents (Elt F)),
    nullary main_c_37 (constantI S_ 32 205#32),
    unary main_c_37 main_v135 (broadcastInDim S8000000 ![] bcast_S_S8000000 : (⟨S_, .i32⟩ : BufTy).Contents (Elt F) → (⟨S8000000, .i32⟩ : BufTy).Contents (Elt F)),
    binary main_v19 main_v135 main_v136 (addi : (⟨S8000000, .i32⟩ : BufTy).Contents (Elt F) → (⟨S8000000, .i32⟩ : BufTy).Contents (Elt F) → (⟨S8000000, .i32⟩ : BufTy).Contents (Elt F)),
    ternary main_v134 main_v136 main_v19 main_v137 (select : (⟨S8000000, .i1⟩ : BufTy).Contents (Elt F) → (⟨S8000000, .i32⟩ : BufTy).Contents (Elt F) → (⟨S8000000, .i32⟩ : BufTy).Contents (Elt F) → (⟨S8000000, .i32⟩ : BufTy).Contents (Elt F)),
    nullary main_c_38 (constantI S_ 32 0#32),
    unary main_c_38 main_v138 (broadcastInDim S8000000 ![] bcast_S_S8000000 : (⟨S_, .i32⟩ : BufTy).Contents (Elt F) → (⟨S8000000, .i32⟩ : BufTy).Contents (Elt F)) ]

theorem ops2_sub : (ops2 : List (HloOp τ sig (Elt F))).Forall fun op => op.bufs ⊆ tcRefs τ sig :=
  ⟨unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub ..⟩

set_option maxRecDepth 4096 in
/-- Window 2 is the sequence of its list: both sides are one chain of steps by computation. -/
theorem part2_eq (c : Dev nD) : main_part2 (F := F) c = seq ops2 := rfl

/-- The operations of the program's statements in its window 3, in order, a call's body listed at the call over that call's buffers. -/
abbrev ops3 : List (HloOp τ sig (Elt F)) :=
  [ binary main_v27 main_v138 main_v139 (cmpi .slt : (⟨S8000000, .i32⟩ : BufTy).Contents (Elt F) → (⟨S8000000, .i32⟩ : BufTy).Contents (Elt F) → (⟨S8000000, .i1⟩ : BufTy).Contents (Elt F)),
    nullary main_c_39 (constantI S_ 32 13#32),
    unary main_c_39 main_v140 (broadcastInDim S8000000 ![] bcast_S_S8000000 : (⟨S_, .i32⟩ : BufTy).Contents (Elt F) → (⟨S8000000, .i32⟩ : BufTy).Contents (Elt F)),
    binary main_v27 main_v140 main_v141 (addi : (⟨S8000000, .i32⟩ : BufTy).Contents (Elt F) → (⟨S8000000, .i32⟩ : BufTy).Contents (Elt F) → (⟨S8000000, .i32⟩ : BufTy).Contents (Elt F)),
    ternary main_v139 main_v141 main_v27 main_v142 (select : (⟨S8000000, .i1⟩ : BufTy).Contents (Elt F) → (⟨S8000000, .i32⟩ : BufTy).Contents (Elt F) → (⟨S8000000, .i32⟩ : BufTy).Contents (Elt F) → (⟨S8000000, .i32⟩ : BufTy).Contents (Elt F)),
    unary main_v132 main_v143 (broadcastInDim S8000000x1 ![0] bcast_S8000000_S8000000x1_0 : (⟨S8000000, .i32⟩ : BufTy).Contents (Elt F) → (⟨S8000000x1, .i32⟩ : BufTy).Contents (Elt F)),
    unary main_v137 main_v144 (broadcastInDim S8000000x1 ![0] bcast_S8000000_S8000000x1_0 : (⟨S8000000, .i32⟩ : BufTy).Contents (Elt F) → (⟨S8000000x1, .i32⟩ : BufTy).Contents (Elt F)),
    unary main_v142 main_v145 (broadcastInDim S8000000x1 ![0] bcast_S8000000_S8000000x1_0 : (⟨S8000000, .i32⟩ : BufTy).Contents (Elt F) → (⟨S8000000x1, .i32⟩ : BufTy).Contents (Elt F)),
    nary ![main_v143, main_v144, main_v145] main_v146 (fun u => concatenate S8000000x3 1 [⟨S8000000x1, u 0⟩, ⟨S8000000x1, u 1⟩, ⟨S8000000x1, u 2⟩] concatenates_S8000000x1_S8000000x1_S8000000x1_S8000000x3_d1),
    binary main_arg1 main_v146 main_v147 ((fun x i => Host.gather gather_S205x205x13x3_S8000000x3_S8000000x3_1_012_n_n_012_1_1113 x i) : (⟨S205x205x13x3, .f32⟩ : BufTy).Contents (Elt F) → (⟨S8000000x3, .i32⟩ : BufTy).Contents (Elt F) → (⟨S8000000x3, .f32⟩ : BufTy).Contents (Elt F)),
    nullary main_c_40 (constantI S_ 32 0#32),
    unary main_c_40 main_v148 (broadcastInDim S8000000 ![] bcast_S_S8000000 : (⟨S_, .i32⟩ : BufTy).Contents (Elt F) → (⟨S8000000, .i32⟩ : BufTy).Contents (Elt F)),
    binary main_v23 main_v148 main_v149 (cmpi .slt : (⟨S8000000, .i32⟩ : BufTy).Contents (Elt F) → (⟨S8000000, .i32⟩ : BufTy).Contents (Elt F) → (⟨S8000000, .i1⟩ : BufTy).Contents (Elt F)),
    nullary main_c_41 (constantI S_ 32 205#32),
    unary main_c_41 main_v150 (broadcastInDim S8000000 ![] bcast_S_S8000000 : (⟨S_, .i32⟩ : BufTy).Contents (Elt F) → (⟨S8000000, .i32⟩ : BufTy).Contents (Elt F)),
    binary main_v23 main_v150 main_v151 (addi : (⟨S8000000, .i32⟩ : BufTy).Contents (Elt F) → (⟨S8000000, .i32⟩ : BufTy).Contents (Elt F) → (⟨S8000000, .i32⟩ : BufTy).Contents (Elt F)),
    ternary main_v149 main_v151 main_v23 main_v152 (select : (⟨S8000000, .i1⟩ : BufTy).Contents (Elt F) → (⟨S8000000, .i32⟩ : BufTy).Contents (Elt F) → (⟨S8000000, .i32⟩ : BufTy).Contents (Elt F) → (⟨S8000000, .i32⟩ : BufTy).Contents (Elt F)),
    nullary main_c_42 (constantI S_ 32 0#32),
    unary main_c_42 main_v153 (broadcastInDim S8000000 ![] bcast_S_S8000000 : (⟨S_, .i32⟩ : BufTy).Contents (Elt F) → (⟨S8000000, .i32⟩ : BufTy).Contents (Elt F)),
    binary main_v25 main_v153 main_v154 (cmpi .slt : (⟨S8000000, .i32⟩ : BufTy).Contents (Elt F) → (⟨S8000000, .i32⟩ : BufTy).Contents (Elt F) → (⟨S8000000, .i1⟩ : BufTy).Contents (Elt F)),
    nullary main_c_43 (constantI S_ 32 205#32),
    unary main_c_43 main_v155 (broadcastInDim S8000000 ![] bcast_S_S8000000 : (⟨S_, .i32⟩ : BufTy).Contents (Elt F) → (⟨S8000000, .i32⟩ : BufTy).Contents (Elt F)),
    binary main_v25 main_v155 main_v156 (addi : (⟨S8000000, .i32⟩ : BufTy).Contents (Elt F) → (⟨S8000000, .i32⟩ : BufTy).Contents (Elt F) → (⟨S8000000, .i32⟩ : BufTy).Contents (Elt F)),
    ternary main_v154 main_v156 main_v25 main_v157 (select : (⟨S8000000, .i1⟩ : BufTy).Contents (Elt F) → (⟨S8000000, .i32⟩ : BufTy).Contents (Elt F) → (⟨S8000000, .i32⟩ : BufTy).Contents (Elt F) → (⟨S8000000, .i32⟩ : BufTy).Contents (Elt F)),
    nullary main_c_44 (constantI S_ 32 0#32),
    unary main_c_44 main_v158 (broadcastInDim S8000000 ![] bcast_S_S8000000 : (⟨S_, .i32⟩ : BufTy).Contents (Elt F) → (⟨S8000000, .i32⟩ : BufTy).Contents (Elt F)),
    binary main_v21 main_v158 main_v159 (cmpi .slt : (⟨S8000000, .i32⟩ : BufTy).Contents (Elt F) → (⟨S8000000, .i32⟩ : BufTy).Contents (Elt F) → (⟨S8000000, .i1⟩ : BufTy).Contents (Elt F)),
    nullary main_c_45 (constantI S_ 32 13#32),
    unary main_c_45 main_v160 (broadcastInDim S8000000 ![] bcast_S_S8000000 : (⟨S_, .i32⟩ : BufTy).Contents (Elt F) → (⟨S8000000, .i32⟩ : BufTy).Contents (Elt F)),
    binary main_v21 main_v160 main_v161 (addi : (⟨S8000000, .i32⟩ : BufTy).Contents (Elt F) → (⟨S8000000, .i32⟩ : BufTy).Contents (Elt F) → (⟨S8000000, .i32⟩ : BufTy).Contents (Elt F)),
    ternary main_v159 main_v161 main_v21 main_v162 (select : (⟨S8000000, .i1⟩ : BufTy).Contents (Elt F) → (⟨S8000000, .i32⟩ : BufTy).Contents (Elt F) → (⟨S8000000, .i32⟩ : BufTy).Contents (Elt F) → (⟨S8000000, .i32⟩ : BufTy).Contents (Elt F)),
    unary main_v152 main_v163 (broadcastInDim S8000000x1 ![0] bcast_S8000000_S8000000x1_0 : (⟨S8000000, .i32⟩ : BufTy).Contents (Elt F) → (⟨S8000000x1, .i32⟩ : BufTy).Contents (Elt F)),
    unary main_v157 main_v164 (broadcastInDim S8000000x1 ![0] bcast_S8000000_S8000000x1_0 : (⟨S8000000, .i32⟩ : BufTy).Contents (Elt F) → (⟨S8000000x1, .i32⟩ : BufTy).Contents (Elt F)),
    unary main_v162 main_v165 (broadcastInDim S8000000x1 ![0] bcast_S8000000_S8000000x1_0 : (⟨S8000000, .i32⟩ : BufTy).Contents (Elt F) → (⟨S8000000x1, .i32⟩ : BufTy).Contents (Elt F)),
    nary ![main_v163, main_v164, main_v165] main_v166 (fun u => concatenate S8000000x3 1 [⟨S8000000x1, u 0⟩, ⟨S8000000x1, u 1⟩, ⟨S8000000x1, u 2⟩] concatenates_S8000000x1_S8000000x1_S8000000x1_S8000000x3_d1),
    binary main_arg1 main_v166 main_v167 ((fun x i => Host.gather gather_S205x205x13x3_S8000000x3_S8000000x3_1_012_n_n_012_1_1113 x i) : (⟨S205x205x13x3, .f32⟩ : BufTy).Contents (Elt F) → (⟨S8000000x3, .i32⟩ : BufTy).Contents (Elt F) → (⟨S8000000x3, .f32⟩ : BufTy).Contents (Elt F)),
    nullary main_c_46 (constantI S_ 32 0#32),
    unary main_c_46 main_v168 (broadcastInDim S8000000 ![] bcast_S_S8000000 : (⟨S_, .i32⟩ : BufTy).Contents (Elt F) → (⟨S8000000, .i32⟩ : BufTy).Contents (Elt F)),
    binary main_v23 main_v168 main_v169 (cmpi .slt : (⟨S8000000, .i32⟩ : BufTy).Contents (Elt F) → (⟨S8000000, .i32⟩ : BufTy).Contents (Elt F) → (⟨S8000000, .i1⟩ : BufTy).Contents (Elt F)),
    nullary main_c_47 (constantI S_ 32 205#32),
    unary main_c_47 main_v170 (broadcastInDim S8000000 ![] bcast_S_S8000000 : (⟨S_, .i32⟩ : BufTy).Contents (Elt F) → (⟨S8000000, .i32⟩ : BufTy).Contents (Elt F)),
    binary main_v23 main_v170 main_v171 (addi : (⟨S8000000, .i32⟩ : BufTy).Contents (Elt F) → (⟨S8000000, .i32⟩ : BufTy).Contents (Elt F) → (⟨S8000000, .i32⟩ : BufTy).Contents (Elt F)),
    ternary main_v169 main_v171 main_v23 main_v172 (select : (⟨S8000000, .i1⟩ : BufTy).Contents (Elt F) → (⟨S8000000, .i32⟩ : BufTy).Contents (Elt F) → (⟨S8000000, .i32⟩ : BufTy).Contents (Elt F) → (⟨S8000000, .i32⟩ : BufTy).Contents (Elt F)),
    nullary main_c_48 (constantI S_ 32 0#32),
    unary main_c_48 main_v173 (broadcastInDim S8000000 ![] bcast_S_S8000000 : (⟨S_, .i32⟩ : BufTy).Contents (Elt F) → (⟨S8000000, .i32⟩ : BufTy).Contents (Elt F)),
    binary main_v25 main_v173 main_v174 (cmpi .slt : (⟨S8000000, .i32⟩ : BufTy).Contents (Elt F) → (⟨S8000000, .i32⟩ : BufTy).Contents (Elt F) → (⟨S8000000, .i1⟩ : BufTy).Contents (Elt F)),
    nullary main_c_49 (constantI S_ 32 205#32),
    unary main_c_49 main_v175 (broadcastInDim S8000000 ![] bcast_S_S8000000 : (⟨S_, .i32⟩ : BufTy).Contents (Elt F) → (⟨S8000000, .i32⟩ : BufTy).Contents (Elt F)),
    binary main_v25 main_v175 main_v176 (addi : (⟨S8000000, .i32⟩ : BufTy).Contents (Elt F) → (⟨S8000000, .i32⟩ : BufTy).Contents (Elt F) → (⟨S8000000, .i32⟩ : BufTy).Contents (Elt F)),
    ternary main_v174 main_v176 main_v25 main_v177 (select : (⟨S8000000, .i1⟩ : BufTy).Contents (Elt F) → (⟨S8000000, .i32⟩ : BufTy).Contents (Elt F) → (⟨S8000000, .i32⟩ : BufTy).Contents (Elt F) → (⟨S8000000, .i32⟩ : BufTy).Contents (Elt F)),
    nullary main_c_50 (constantI S_ 32 0#32),
    unary main_c_50 main_v178 (broadcastInDim S8000000 ![] bcast_S_S8000000 : (⟨S_, .i32⟩ : BufTy).Contents (Elt F) → (⟨S8000000, .i32⟩ : BufTy).Contents (Elt F)),
    binary main_v27 main_v178 main_v179 (cmpi .slt : (⟨S8000000, .i32⟩ : BufTy).Contents (Elt F) → (⟨S8000000, .i32⟩ : BufTy).Contents (Elt F) → (⟨S8000000, .i1⟩ : BufTy).Contents (Elt F)),
    nullary main_c_51 (constantI S_ 32 13#32),
    unary main_c_51 main_v180 (broadcastInDim S8000000 ![] bcast_S_S8000000 : (⟨S_, .i32⟩ : BufTy).Contents (Elt F) → (⟨S8000000, .i32⟩ : BufTy).Contents (Elt F)),
    binary main_v27 main_v180 main_v181 (addi : (⟨S8000000, .i32⟩ : BufTy).Contents (Elt F) → (⟨S8000000, .i32⟩ : BufTy).Contents (Elt F) → (⟨S8000000, .i32⟩ : BufTy).Contents (Elt F)),
    ternary main_v179 main_v181 main_v27 main_v182 (select : (⟨S8000000, .i1⟩ : BufTy).Contents (Elt F) → (⟨S8000000, .i32⟩ : BufTy).Contents (Elt F) → (⟨S8000000, .i32⟩ : BufTy).Contents (Elt F) → (⟨S8000000, .i32⟩ : BufTy).Contents (Elt F)),
    unary main_v172 main_v183 (broadcastInDim S8000000x1 ![0] bcast_S8000000_S8000000x1_0 : (⟨S8000000, .i32⟩ : BufTy).Contents (Elt F) → (⟨S8000000x1, .i32⟩ : BufTy).Contents (Elt F)),
    unary main_v177 main_v184 (broadcastInDim S8000000x1 ![0] bcast_S8000000_S8000000x1_0 : (⟨S8000000, .i32⟩ : BufTy).Contents (Elt F) → (⟨S8000000x1, .i32⟩ : BufTy).Contents (Elt F)),
    unary main_v182 main_v185 (broadcastInDim S8000000x1 ![0] bcast_S8000000_S8000000x1_0 : (⟨S8000000, .i32⟩ : BufTy).Contents (Elt F) → (⟨S8000000x1, .i32⟩ : BufTy).Contents (Elt F)) ]

theorem ops3_sub : (ops3 : List (HloOp τ sig (Elt F))).Forall fun op => op.bufs ⊆ tcRefs τ sig :=
  ⟨binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub ..⟩

set_option maxRecDepth 4096 in
/-- Window 3 is the sequence of its list: both sides are one chain of steps by computation. -/
theorem part3_eq (c : Dev nD) : main_part3 (F := F) c = seq ops3 := rfl

/-- The operations of the program's statements in its window 4, in order, a call's body listed at the call over that call's buffers. -/
abbrev ops4 : List (HloOp τ sig (Elt F)) :=
  [ nary ![main_v183, main_v184, main_v185] main_v186 (fun u => concatenate S8000000x3 1 [⟨S8000000x1, u 0⟩, ⟨S8000000x1, u 1⟩, ⟨S8000000x1, u 2⟩] concatenates_S8000000x1_S8000000x1_S8000000x1_S8000000x3_d1),
    binary main_arg1 main_v186 main_v187 ((fun x i => Host.gather gather_S205x205x13x3_S8000000x3_S8000000x3_1_012_n_n_012_1_1113 x i) : (⟨S205x205x13x3, .f32⟩ : BufTy).Contents (Elt F) → (⟨S8000000x3, .i32⟩ : BufTy).Contents (Elt F) → (⟨S8000000x3, .f32⟩ : BufTy).Contents (Elt F)),
    nullary main_cst_52 (constant S_ .f32 0x3F800000#32),
    unary main_cst_52 main_v188 (broadcastInDim S8000000x1 ![] bcast_S_S8000000x1 : (⟨S_, .f32⟩ : BufTy).Contents (Elt F) → (⟨S8000000x1, .f32⟩ : BufTy).Contents (Elt F)),
    binary main_v188 main_v13 main_v189 (subf : (⟨S8000000x1, .f32⟩ : BufTy).Contents (Elt F) → (⟨S8000000x1, .f32⟩ : BufTy).Contents (Elt F) → (⟨S8000000x1, .f32⟩ : BufTy).Contents (Elt F)),
    unary main_v189 main_v190 (broadcastInDim S8000000x3 ![0, 1] bcast_S8000000x1_S8000000x3_0_1 : (⟨S8000000x1, .f32⟩ : BufTy).Contents (Elt F) → (⟨S8000000x3, .f32⟩ : BufTy).Contents (Elt F)),
    binary main_v47 main_v190 main_v191 (mulf : (⟨S8000000x3, .f32⟩ : BufTy).Contents (Elt F) → (⟨S8000000x3, .f32⟩ : BufTy).Contents (Elt F) → (⟨S8000000x3, .f32⟩ : BufTy).Contents (Elt F)),
    unary main_v13 main_v192 (broadcastInDim S8000000x3 ![0, 1] bcast_S8000000x1_S8000000x3_0_1 : (⟨S8000000x1, .f32⟩ : BufTy).Contents (Elt F) → (⟨S8000000x3, .f32⟩ : BufTy).Contents (Elt F)),
    binary main_v127 main_v192 main_v193 (mulf : (⟨S8000000x3, .f32⟩ : BufTy).Contents (Elt F) → (⟨S8000000x3, .f32⟩ : BufTy).Contents (Elt F) → (⟨S8000000x3, .f32⟩ : BufTy).Contents (Elt F)),
    binary main_v191 main_v193 main_v194 (addf : (⟨S8000000x3, .f32⟩ : BufTy).Contents (Elt F) → (⟨S8000000x3, .f32⟩ : BufTy).Contents (Elt F) → (⟨S8000000x3, .f32⟩ : BufTy).Contents (Elt F)),
    nullary main_cst_53 (constant S_ .f32 0x3F800000#32),
    unary main_cst_53 main_v195 (broadcastInDim S8000000x1 ![] bcast_S_S8000000x1 : (⟨S_, .f32⟩ : BufTy).Contents (Elt F) → (⟨S8000000x1, .f32⟩ : BufTy).Contents (Elt F)),
    binary main_v195 main_v13 main_v196 (subf : (⟨S8000000x1, .f32⟩ : BufTy).Contents (Elt F) → (⟨S8000000x1, .f32⟩ : BufTy).Contents (Elt F) → (⟨S8000000x1, .f32⟩ : BufTy).Contents (Elt F)),
    unary main_v196 main_v197 (broadcastInDim S8000000x3 ![0, 1] bcast_S8000000x1_S8000000x3_0_1 : (⟨S8000000x1, .f32⟩ : BufTy).Contents (Elt F) → (⟨S8000000x3, .f32⟩ : BufTy).Contents (Elt F)),
    binary main_v67 main_v197 main_v198 (mulf : (⟨S8000000x3, .f32⟩ : BufTy).Contents (Elt F) → (⟨S8000000x3, .f32⟩ : BufTy).Contents (Elt F) → (⟨S8000000x3, .f32⟩ : BufTy).Contents (Elt F)),
    unary main_v13 main_v199 (broadcastInDim S8000000x3 ![0, 1] bcast_S8000000x1_S8000000x3_0_1 : (⟨S8000000x1, .f32⟩ : BufTy).Contents (Elt F) → (⟨S8000000x3, .f32⟩ : BufTy).Contents (Elt F)),
    binary main_v147 main_v199 main_v200 (mulf : (⟨S8000000x3, .f32⟩ : BufTy).Contents (Elt F) → (⟨S8000000x3, .f32⟩ : BufTy).Contents (Elt F) → (⟨S8000000x3, .f32⟩ : BufTy).Contents (Elt F)),
    binary main_v198 main_v200 main_v201 (addf : (⟨S8000000x3, .f32⟩ : BufTy).Contents (Elt F) → (⟨S8000000x3, .f32⟩ : BufTy).Contents (Elt F) → (⟨S8000000x3, .f32⟩ : BufTy).Contents (Elt F)),
    nullary main_cst_54 (constant S_ .f32 0x3F800000#32),
    unary main_cst_54 main_v202 (broadcastInDim S8000000x1 ![] bcast_S_S8000000x1 : (⟨S_, .f32⟩ : BufTy).Contents (Elt F) → (⟨S8000000x1, .f32⟩ : BufTy).Contents (Elt F)),
    binary main_v202 main_v13 main_v203 (subf : (⟨S8000000x1, .f32⟩ : BufTy).Contents (Elt F) → (⟨S8000000x1, .f32⟩ : BufTy).Contents (Elt F) → (⟨S8000000x1, .f32⟩ : BufTy).Contents (Elt F)),
    unary main_v203 main_v204 (broadcastInDim S8000000x3 ![0, 1] bcast_S8000000x1_S8000000x3_0_1 : (⟨S8000000x1, .f32⟩ : BufTy).Contents (Elt F) → (⟨S8000000x3, .f32⟩ : BufTy).Contents (Elt F)),
    binary main_v87 main_v204 main_v205 (mulf : (⟨S8000000x3, .f32⟩ : BufTy).Contents (Elt F) → (⟨S8000000x3, .f32⟩ : BufTy).Contents (Elt F) → (⟨S8000000x3, .f32⟩ : BufTy).Contents (Elt F)),
    unary main_v13 main_v206 (broadcastInDim S8000000x3 ![0, 1] bcast_S8000000x1_S8000000x3_0_1 : (⟨S8000000x1, .f32⟩ : BufTy).Contents (Elt F) → (⟨S8000000x3, .f32⟩ : BufTy).Contents (Elt F)),
    binary main_v167 main_v206 main_v207 (mulf : (⟨S8000000x3, .f32⟩ : BufTy).Contents (Elt F) → (⟨S8000000x3, .f32⟩ : BufTy).Contents (Elt F) → (⟨S8000000x3, .f32⟩ : BufTy).Contents (Elt F)),
    binary main_v205 main_v207 main_v208 (addf : (⟨S8000000x3, .f32⟩ : BufTy).Contents (Elt F) → (⟨S8000000x3, .f32⟩ : BufTy).Contents (Elt F) → (⟨S8000000x3, .f32⟩ : BufTy).Contents (Elt F)),
    nullary main_cst_55 (constant S_ .f32 0x3F800000#32),
    unary main_cst_55 main_v209 (broadcastInDim S8000000x1 ![] bcast_S_S8000000x1 : (⟨S_, .f32⟩ : BufTy).Contents (Elt F) → (⟨S8000000x1, .f32⟩ : BufTy).Contents (Elt F)),
    binary main_v209 main_v13 main_v210 (subf : (⟨S8000000x1, .f32⟩ : BufTy).Contents (Elt F) → (⟨S8000000x1, .f32⟩ : BufTy).Contents (Elt F) → (⟨S8000000x1, .f32⟩ : BufTy).Contents (Elt F)),
    unary main_v210 main_v211 (broadcastInDim S8000000x3 ![0, 1] bcast_S8000000x1_S8000000x3_0_1 : (⟨S8000000x1, .f32⟩ : BufTy).Contents (Elt F) → (⟨S8000000x3, .f32⟩ : BufTy).Contents (Elt F)),
    binary main_v107 main_v211 main_v212 (mulf : (⟨S8000000x3, .f32⟩ : BufTy).Contents (Elt F) → (⟨S8000000x3, .f32⟩ : BufTy).Contents (Elt F) → (⟨S8000000x3, .f32⟩ : BufTy).Contents (Elt F)),
    unary main_v13 main_v213 (broadcastInDim S8000000x3 ![0, 1] bcast_S8000000x1_S8000000x3_0_1 : (⟨S8000000x1, .f32⟩ : BufTy).Contents (Elt F) → (⟨S8000000x3, .f32⟩ : BufTy).Contents (Elt F)),
    binary main_v187 main_v213 main_v214 (mulf : (⟨S8000000x3, .f32⟩ : BufTy).Contents (Elt F) → (⟨S8000000x3, .f32⟩ : BufTy).Contents (Elt F) → (⟨S8000000x3, .f32⟩ : BufTy).Contents (Elt F)),
    binary main_v212 main_v214 main_v215 (addf : (⟨S8000000x3, .f32⟩ : BufTy).Contents (Elt F) → (⟨S8000000x3, .f32⟩ : BufTy).Contents (Elt F) → (⟨S8000000x3, .f32⟩ : BufTy).Contents (Elt F)),
    nullary main_cst_56 (constant S_ .f32 0x3F800000#32),
    unary main_cst_56 main_v216 (broadcastInDim S8000000x1 ![] bcast_S_S8000000x1 : (⟨S_, .f32⟩ : BufTy).Contents (Elt F) → (⟨S8000000x1, .f32⟩ : BufTy).Contents (Elt F)),
    binary main_v216 main_v14 main_v217 (subf : (⟨S8000000x1, .f32⟩ : BufTy).Contents (Elt F) → (⟨S8000000x1, .f32⟩ : BufTy).Contents (Elt F) → (⟨S8000000x1, .f32⟩ : BufTy).Contents (Elt F)),
    unary main_v217 main_v218 (broadcastInDim S8000000x3 ![0, 1] bcast_S8000000x1_S8000000x3_0_1 : (⟨S8000000x1, .f32⟩ : BufTy).Contents (Elt F) → (⟨S8000000x3, .f32⟩ : BufTy).Contents (Elt F)),
    binary main_v194 main_v218 main_v219 (mulf : (⟨S8000000x3, .f32⟩ : BufTy).Contents (Elt F) → (⟨S8000000x3, .f32⟩ : BufTy).Contents (Elt F) → (⟨S8000000x3, .f32⟩ : BufTy).Contents (Elt F)),
    unary main_v14 main_v220 (broadcastInDim S8000000x3 ![0, 1] bcast_S8000000x1_S8000000x3_0_1 : (⟨S8000000x1, .f32⟩ : BufTy).Contents (Elt F) → (⟨S8000000x3, .f32⟩ : BufTy).Contents (Elt F)),
    binary main_v208 main_v220 main_v221 (mulf : (⟨S8000000x3, .f32⟩ : BufTy).Contents (Elt F) → (⟨S8000000x3, .f32⟩ : BufTy).Contents (Elt F) → (⟨S8000000x3, .f32⟩ : BufTy).Contents (Elt F)),
    binary main_v219 main_v221 main_v222 (addf : (⟨S8000000x3, .f32⟩ : BufTy).Contents (Elt F) → (⟨S8000000x3, .f32⟩ : BufTy).Contents (Elt F) → (⟨S8000000x3, .f32⟩ : BufTy).Contents (Elt F)),
    nullary main_cst_57 (constant S_ .f32 0x3F800000#32),
    unary main_cst_57 main_v223 (broadcastInDim S8000000x1 ![] bcast_S_S8000000x1 : (⟨S_, .f32⟩ : BufTy).Contents (Elt F) → (⟨S8000000x1, .f32⟩ : BufTy).Contents (Elt F)),
    binary main_v223 main_v14 main_v224 (subf : (⟨S8000000x1, .f32⟩ : BufTy).Contents (Elt F) → (⟨S8000000x1, .f32⟩ : BufTy).Contents (Elt F) → (⟨S8000000x1, .f32⟩ : BufTy).Contents (Elt F)),
    unary main_v224 main_v225 (broadcastInDim S8000000x3 ![0, 1] bcast_S8000000x1_S8000000x3_0_1 : (⟨S8000000x1, .f32⟩ : BufTy).Contents (Elt F) → (⟨S8000000x3, .f32⟩ : BufTy).Contents (Elt F)),
    binary main_v201 main_v225 main_v226 (mulf : (⟨S8000000x3, .f32⟩ : BufTy).Contents (Elt F) → (⟨S8000000x3, .f32⟩ : BufTy).Contents (Elt F) → (⟨S8000000x3, .f32⟩ : BufTy).Contents (Elt F)),
    unary main_v14 main_v227 (broadcastInDim S8000000x3 ![0, 1] bcast_S8000000x1_S8000000x3_0_1 : (⟨S8000000x1, .f32⟩ : BufTy).Contents (Elt F) → (⟨S8000000x3, .f32⟩ : BufTy).Contents (Elt F)),
    binary main_v215 main_v227 main_v228 (mulf : (⟨S8000000x3, .f32⟩ : BufTy).Contents (Elt F) → (⟨S8000000x3, .f32⟩ : BufTy).Contents (Elt F) → (⟨S8000000x3, .f32⟩ : BufTy).Contents (Elt F)),
    binary main_v226 main_v228 main_v229 (addf : (⟨S8000000x3, .f32⟩ : BufTy).Contents (Elt F) → (⟨S8000000x3, .f32⟩ : BufTy).Contents (Elt F) → (⟨S8000000x3, .f32⟩ : BufTy).Contents (Elt F)),
    nullary main_cst_58 (constant S_ .f32 0x3F800000#32),
    unary main_cst_58 main_v230 (broadcastInDim S8000000x1 ![] bcast_S_S8000000x1 : (⟨S_, .f32⟩ : BufTy).Contents (Elt F) → (⟨S8000000x1, .f32⟩ : BufTy).Contents (Elt F)),
    binary main_v230 main_v15 main_v231 (subf : (⟨S8000000x1, .f32⟩ : BufTy).Contents (Elt F) → (⟨S8000000x1, .f32⟩ : BufTy).Contents (Elt F) → (⟨S8000000x1, .f32⟩ : BufTy).Contents (Elt F)),
    unary main_v231 main_v232 (broadcastInDim S8000000x3 ![0, 1] bcast_S8000000x1_S8000000x3_0_1 : (⟨S8000000x1, .f32⟩ : BufTy).Contents (Elt F) → (⟨S8000000x3, .f32⟩ : BufTy).Contents (Elt F)),
    binary main_v222 main_v232 main_v233 (mulf : (⟨S8000000x3, .f32⟩ : BufTy).Contents (Elt F) → (⟨S8000000x3, .f32⟩ : BufTy).Contents (Elt F) → (⟨S8000000x3, .f32⟩ : BufTy).Contents (Elt F)),
    unary main_v15 main_v234 (broadcastInDim S8000000x3 ![0, 1] bcast_S8000000x1_S8000000x3_0_1 : (⟨S8000000x1, .f32⟩ : BufTy).Contents (Elt F) → (⟨S8000000x3, .f32⟩ : BufTy).Contents (Elt F)),
    binary main_v229 main_v234 main_v235 (mulf : (⟨S8000000x3, .f32⟩ : BufTy).Contents (Elt F) → (⟨S8000000x3, .f32⟩ : BufTy).Contents (Elt F) → (⟨S8000000x3, .f32⟩ : BufTy).Contents (Elt F)),
    binary main_v233 main_v235 main_v236 (addf : (⟨S8000000x3, .f32⟩ : BufTy).Contents (Elt F) → (⟨S8000000x3, .f32⟩ : BufTy).Contents (Elt F) → (⟨S8000000x3, .f32⟩ : BufTy).Contents (Elt F)) ]

theorem ops4_sub : (ops4 : List (HloOp τ sig (Elt F))).Forall fun op => op.bufs ⊆ tcRefs τ sig :=
  ⟨nary_bufs_sub .., binary_bufs_sub .., nullary_bufs_sub .., unary_bufs_sub .., binary_bufs_sub .., unary_bufs_sub .., binary_bufs_sub .., unary_bufs_sub .., binary_bufs_sub .., binary_bufs_sub .., nullary_bufs_sub .., unary_bufs_sub .., binary_bufs_sub .., unary_bufs_sub .., binary_bufs_sub .., unary_bufs_sub .., binary_bufs_sub .., binary_bufs_sub .., nullary_bufs_sub .., unary_bufs_sub .., binary_bufs_sub .., unary_bufs_sub .., binary_bufs_sub .., unary_bufs_sub .., binary_bufs_sub .., binary_bufs_sub .., nullary_bufs_sub .., unary_bufs_sub .., binary_bufs_sub .., unary_bufs_sub .., binary_bufs_sub .., unary_bufs_sub .., binary_bufs_sub .., binary_bufs_sub .., nullary_bufs_sub .., unary_bufs_sub .., binary_bufs_sub .., unary_bufs_sub .., binary_bufs_sub .., unary_bufs_sub .., binary_bufs_sub .., binary_bufs_sub .., nullary_bufs_sub .., unary_bufs_sub .., binary_bufs_sub .., unary_bufs_sub .., binary_bufs_sub .., unary_bufs_sub .., binary_bufs_sub .., binary_bufs_sub .., nullary_bufs_sub .., unary_bufs_sub .., binary_bufs_sub .., unary_bufs_sub .., binary_bufs_sub .., unary_bufs_sub .., binary_bufs_sub .., binary_bufs_sub ..⟩

set_option maxRecDepth 4096 in
/-- Window 4 is the sequence of its list: both sides are one chain of steps by computation. -/
theorem part4_eq (c : Dev nD) : main_part4 (F := F) c = seq ops4 := rfl

/-- The program's 308 operations, in order. -/
abbrev ops : List (HloOp τ sig (Elt F)) := ops0 ++ (ops1 ++ (ops2 ++ (ops3 ++ ops4)))

/-- The program runs its windows in order, and a sequence of an appended list is the sequences in order. -/
theorem main_eq (c : Dev nD) : main (F := F) c = seq ops := by
  simp only [ops, seq_append, ← part0_eq c, ← part1_eq c, ← part2_eq c, ← part3_eq c, ← part4_eq c]
  rfl

theorem forall_append {α : Type} {p : α → Prop} {l₁ l₂ : List α} (h₁ : l₁.Forall p) (h₂ : l₂.Forall p) :
    (l₁ ++ l₂).Forall p :=
  List.forall_iff_forall_mem.mpr fun a ha =>
    (List.mem_append.mp ha).elim (List.forall_iff_forall_mem.mp h₁ a) (List.forall_iff_forall_mem.mp h₂ a)

theorem ops_sub : (ops : List (HloOp τ sig (Elt F))).Forall fun op => op.bufs ⊆ tcRefs τ sig :=
  forall_append ops0_sub (forall_append ops1_sub (forall_append ops2_sub (forall_append ops3_sub ops4_sub)))

theorem scopedRefs_eq : (Finset.univ.filter fun b : Ref sig .tc => b.isScoped) = ∅ := by decide
theorem scopedSems_eq : (Finset.univ.filter fun sm : SemLoc sig => sm.isScoped .tc) = ∅ := by decide

end Cert.ReferenceIdeal.Hand

end
-- ==== Proof.RefRun.lean ====
/-
  The run of the reference program read back: from any memory, every weakly fair execution ends with
  the result buffer at the trilinear interpolation `result` of the two argument arrays, and the
  arguments unchanged. The contents of a buffer after the 308 operations is a computation: each
  operation's result at its own buffer is its function of its operands' contents, and any other
  buffer keeps what it held; what is left is the composed term, which is `result` unfolded.
-/
import proofs.«147916_j62354335203431_2_alg».proof.Proof.RefOps
import Idealize.ShloMosaic.Lib.Tactic

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-- Running an appended list is running the first part, then the second from where the first ended. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

section
variable {Val : EltTy → Type} {x a b y : Ref sig .tc}

/-- The result of an operation over a literal family of three operands, each operand's contents at its own buffer. -/
theorem nary3_result'
    (f : ((k : Fin 3) → ((![x, a, b] : Fin 3 → Ref sig .tc) k).ty.Contents Val) → y.ty.Contents Val) (hxs hy)
    (G : Valuation τ sig Val) :
    (nary (τ := τ) ![x, a, b] y f hxs hy).result G (no_index (Proc.devRef .tc y))
      = f (Fin.cons (G (Proc.devRef .tc x)) (Fin.cons (G (Proc.devRef .tc a)) (Fin.cons (G (Proc.devRef .tc b)) (fun i => i.elim0)))) := by
  rw [nary_result]; congr 1; funext k; fin_cases k <;> rfl
end

set_option maxRecDepth 100000 in
set_option maxHeartbeats 4000000 in
/-- The result buffer after the program's operations: the stages composed. -/
theorem out_eq (V : Valuation τ sig (Elt F)) :
    after ops V (main_v236 : DevRef τ sig) = result (V (main_arg0 : DevRef τ sig)) (V (main_arg1 : DevRef τ sig)) := by
  simp (disch := decide) only [ops, ops0, ops1, ops2, ops3, ops4, after_append, after_cons, after_nil,
      nullary_result', unary_result', binary_result', ternary_result', reshape_result', nary3_result',
      nullary_result_ne', unary_result_ne', binary_result_ne', ternary_result_ne', reshape_result_ne', nary_result_ne']
  sl_kernel_rfl

set_option maxRecDepth 100000 in
set_option maxHeartbeats 4000000 in
/-- No operation writes the first argument's buffer. -/
theorem arg0_eq (V : Valuation τ sig (Elt F)) :
    after ops V (main_arg0 : DevRef τ sig) = V (main_arg0 : DevRef τ sig) := by
  simp (disch := decide) only [ops, ops0, ops1, ops2, ops3, ops4, after_append, after_cons, after_nil,
      nullary_result', unary_result', binary_result', ternary_result', reshape_result', nary3_result',
      nullary_result_ne', unary_result_ne', binary_result_ne', ternary_result_ne', reshape_result_ne', nary_result_ne']

set_option maxRecDepth 100000 in
set_option maxHeartbeats 4000000 in
/-- No operation writes the second argument's buffer. -/
theorem arg1_eq (V : Valuation τ sig (Elt F)) :
    after ops V (main_arg1 : DevRef τ sig) = V (main_arg1 : DevRef τ sig) := by
  simp (disch := decide) only [ops, ops0, ops1, ops2, ops3, ops4, after_append, after_cons, after_nil,
      nullary_result', unary_result', binary_result', ternary_result', reshape_result', nary3_result',
      nullary_result_ne', unary_result_ne', binary_result_ne', ternary_result_ne', reshape_result_ne', nary_result_ne']

/-- On every device, for any float values, from any memory with zero counters: every weakly fair execution of
    the program terminates with the result buffer at `result` of the arguments' launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v236)
          = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v236).trans (out_eq _),
      (h c main_arg0).trans (arg0_eq _),
      (h c main_arg1).trans (arg1_eq _)⟩)
    (run_seq scopedRefs_eq scopedSems_eq defs main (fun _ => ops) main_eq (fun _ => ops_sub) m ρ)

/-- The arguments' buffers are unchanged by the program: the run without its first conjunct. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run m ρ)

end Cert.ReferenceIdeal.Hand

end
-- ==== Proof.LibSplitConcat.lean ====
/-
  Two facts used to read a dense layer that is fed a concatenation of feature rows.

  A sum over an index range that is laid out as two or three consecutive blocks is the sum of the
  blocks' sums.  An array obtained by joining two or three arrays along their second axis, read at a
  row and a column, is the piece whose block of columns holds the column, read at the same row and at
  the column counted from the start of that block.
-/
import Idealize.ShloMosaic.Lib.Pipeline.Value
import Idealize.ShloMosaic.Lib.ValueIdx

open scoped BigOperators

namespace Cert.ReferenceIdeal.Stages

open Idealize.ShloMosaic Idealize.ShloMosaic.ValueIdx

/-! ## A sum over consecutive blocks -/

/-- A sum over `A + B` consecutive positions is the sum over the first `A` plus the sum over the last `B`. -/
theorem sum_split2 {M : Type} [AddCommMonoid M] {A B N : Nat} (h : A + B = N) (f : Fin N → M) :
    ∑ k : Fin N, f k
      = (∑ k : Fin A, f ⟨k.val, by omega⟩) + ∑ k : Fin B, f ⟨A + k.val, by omega⟩ := by
  subst h
  rw [Fin.sum_univ_add]
  rfl

/-- A sum over `A + B + C` consecutive positions is the sum of the three blocks' sums. -/
theorem sum_split3 {M : Type} [AddCommMonoid M] {A B C N : Nat} (h : A + B + C = N) (f : Fin N → M) :
    ∑ k : Fin N, f k
      = (∑ k : Fin A, f ⟨k.val, by omega⟩) + (∑ k : Fin B, f ⟨A + k.val, by omega⟩)
          + ∑ k : Fin C, f ⟨A + B + k.val, by omega⟩ := by
  subst h
  rw [Fin.sum_univ_add, Fin.sum_univ_add]
  rfl

/-! ## Arrays joined along the second axis, read at a row and a column -/

section Cat
variable {α : Type}

/-- Two arrays joined along the second axis: a column in the first block reads the first array. -/
theorem cat2_left {E A B N : Nat} (x₁ : (⟨2, ![E, A]⟩ : Shape).Idx → α) (x₂ : (⟨2, ![E, B]⟩ : Shape).Idx → α)
    (h : Shape.Concatenates [⟨2, ![E, A]⟩, ⟨2, ![E, B]⟩] ⟨2, ![E, N]⟩ 1) (e : Fin E) (k : Fin A) (hk : k.val < N) :
    concatenate ⟨2, ![E, N]⟩ 1 [⟨⟨2, ![E, A]⟩, x₁⟩, ⟨⟨2, ![E, B]⟩, x₂⟩] h (ix2 e ⟨k.val, hk⟩) = x₁ (ix2 e k) :=
  concatenate_pair_apply_left 1 x₁ x₂ h _ rfl _ (fun b => by
    match b with
    | ⟨0, _⟩ => rfl
    | ⟨1, _⟩ => rfl)

/-- Two arrays joined along the second axis: a column in the second block reads the second array. -/
theorem cat2_right {E A B N : Nat} (x₁ : (⟨2, ![E, A]⟩ : Shape).Idx → α) (x₂ : (⟨2, ![E, B]⟩ : Shape).Idx → α)
    (h : Shape.Concatenates [⟨2, ![E, A]⟩, ⟨2, ![E, B]⟩] ⟨2, ![E, N]⟩ 1) (e : Fin E) (k : Fin B) (hk : A + k.val < N) :
    concatenate ⟨2, ![E, N]⟩ 1 [⟨⟨2, ![E, A]⟩, x₁⟩, ⟨⟨2, ![E, B]⟩, x₂⟩] h (ix2 e ⟨A + k.val, hk⟩) = x₂ (ix2 e k) :=
  concatenate_pair_apply_right 1 x₁ x₂ h _ rfl rfl _
    (fun b hb => by
      match b with
      | ⟨0, _⟩ => rfl
      | ⟨1, _⟩ => exact absurd rfl hb)
    (Nat.add_comm _ _)

/-- Three arrays joined along the second axis: a column in the first block reads the first array. -/
theorem cat3_first {E A B C N : Nat} (x₁ : (⟨2, ![E, A]⟩ : Shape).Idx → α) (x₂ : (⟨2, ![E, B]⟩ : Shape).Idx → α)
    (x₃ : (⟨2, ![E, C]⟩ : Shape).Idx → α)
    (h : Shape.Concatenates [⟨2, ![E, A]⟩, ⟨2, ![E, B]⟩, ⟨2, ![E, C]⟩] ⟨2, ![E, N]⟩ 1) (e : Fin E) (k : Fin A)
    (hk : k.val < N) :
    concatenate ⟨2, ![E, N]⟩ 1 [⟨⟨2, ![E, A]⟩, x₁⟩, ⟨⟨2, ![E, B]⟩, x₂⟩, ⟨⟨2, ![E, C]⟩, x₃⟩] h (ix2 e ⟨k.val, hk⟩)
      = x₁ (ix2 e k) :=
  concatenate_apply_piece (t := ⟨2, ![E, N]⟩) 1 [⟨⟨2, ![E, A]⟩, x₁⟩, ⟨⟨2, ![E, B]⟩, x₂⟩, ⟨⟨2, ![E, C]⟩, x₃⟩] h _ 0 (show (0 : Nat) < 3 by omega) ⟨2, ![E, A]⟩ x₁ rfl rfl 0 rfl (ix2 e k)
    (fun b hb => by
      match b with
      | ⟨0, _⟩ => rfl
      | ⟨1, _⟩ => exact absurd rfl hb)
    (Nat.zero_add _)

/-- Three arrays joined along the second axis: a column in the second block reads the second array. -/
theorem cat3_second {E A B C N : Nat} (x₁ : (⟨2, ![E, A]⟩ : Shape).Idx → α) (x₂ : (⟨2, ![E, B]⟩ : Shape).Idx → α)
    (x₃ : (⟨2, ![E, C]⟩ : Shape).Idx → α)
    (h : Shape.Concatenates [⟨2, ![E, A]⟩, ⟨2, ![E, B]⟩, ⟨2, ![E, C]⟩] ⟨2, ![E, N]⟩ 1) (e : Fin E) (k : Fin B)
    (hk : A + k.val < N) :
    concatenate ⟨2, ![E, N]⟩ 1 [⟨⟨2, ![E, A]⟩, x₁⟩, ⟨⟨2, ![E, B]⟩, x₂⟩, ⟨⟨2, ![E, C]⟩, x₃⟩] h (ix2 e ⟨A + k.val, hk⟩)
      = x₂ (ix2 e k) :=
  concatenate_apply_piece (t := ⟨2, ![E, N]⟩) 1 [⟨⟨2, ![E, A]⟩, x₁⟩, ⟨⟨2, ![E, B]⟩, x₂⟩, ⟨⟨2, ![E, C]⟩, x₃⟩] h _ 1 (show (1 : Nat) < 3 by omega) ⟨2, ![E, B]⟩ x₂ rfl rfl A (Nat.add_zero A) (ix2 e k)
    (fun b hb => by
      match b with
      | ⟨0, _⟩ => rfl
      | ⟨1, _⟩ => exact absurd rfl hb)
    rfl

/-- Three arrays joined along the second axis: a column in the third block reads the third array. -/
theorem cat3_third {E A B C N : Nat} (x₁ : (⟨2, ![E, A]⟩ : Shape).Idx → α) (x₂ : (⟨2, ![E, B]⟩ : Shape).Idx → α)
    (x₃ : (⟨2, ![E, C]⟩ : Shape).Idx → α)
    (h : Shape.Concatenates [⟨2, ![E, A]⟩, ⟨2, ![E, B]⟩, ⟨2, ![E, C]⟩] ⟨2, ![E, N]⟩ 1) (e : Fin E) (k : Fin C)
    (hk : A + B + k.val < N) :
    concatenate ⟨2, ![E, N]⟩ 1 [⟨⟨2, ![E, A]⟩, x₁⟩, ⟨⟨2, ![E, B]⟩, x₂⟩, ⟨⟨2, ![E, C]⟩, x₃⟩] h
        (ix2 e ⟨A + B + k.val, hk⟩)
      = x₃ (ix2 e k) :=
  concatenate_apply_piece (t := ⟨2, ![E, N]⟩) 1 [⟨⟨2, ![E, A]⟩, x₁⟩, ⟨⟨2, ![E, B]⟩, x₂⟩, ⟨⟨2, ![E, C]⟩, x₃⟩] h _ 2 (show (2 : Nat) < 3 by omega) ⟨2, ![E, C]⟩ x₃ rfl rfl (A + B) (show A + (B + 0) = A + B from rfl) (ix2 e k)
    (fun b hb => by
      match b with
      | ⟨0, _⟩ => rfl
      | ⟨1, _⟩ => exact absurd rfl hb)
    rfl

end Cat

end Cert.ReferenceIdeal.Stages
-- ==== Proof.RefValue.lean ====
/-
  The reference program read entry by entry.  Each stage of the reference (grid coordinate, floor, clamped cell indices,
  fractional offset, column cuts, index normalisation, corner gather, linear interpolation) is read at a point `n` and a
  channel `ch` and found to be the corresponding scalar expression of the specification; the gather reads the grid at
  the three index words, kept inside the grid, and the index normalisation is the identity because the clamped indices
  are never negative.
-/
import proofs.«147916_j62354335203431_2_alg».proof.Proof.RefTerm
import proofs.«147916_j62354335203431_2_alg».proof.Proof.Spec
import Idealize.ShloMosaic.Lib.ValueIdx
import Idealize.ShloMosaic.Lib.Pipeline.Value
import Idealize.ShloMosaic.Lib.IdealHost
import proofs.«147916_j62354335203431_2_alg».proof.Proof.LibSplitConcat
noncomputable section
namespace Cert.ReferenceIdeal.Hand
open Cert.ReferenceIdeal Idealize.ShloMosaic Idealize.ShloMosaic.ValueIdx Cert.Spec
variable {F : FTy → Type} [FloatOps F] {α : Type}

/-- A length-3 table laid as a row and repeated down the points: entry (n, a) is the table's entry a. -/
theorem table_apply (x : S3.Idx → α) (n : Fin 8000000) (a : Fin 3) :
    broadcastInDim S8000000x3 ![0, 1] Facts₀.bcast_S1x3_S8000000x3_0_1 (broadcastInDim S1x3 ![1] Facts₀.bcast_S3_S1x3_1 x) (ix2 n a)
      = x (ix1 a) := by
  rw [broadcastInDim_apply _ _ _ _ (ix2 (0 : Fin 1) a) (fun d => by match d with | ⟨0, _⟩ => rfl | ⟨1, _⟩ => rfl)]
  exact broadcastInDim_apply _ _ _ _ (ix1 a) (fun d => by match d with | ⟨0, _⟩ => rfl)

theorem lo_apply (a : Fin 3) : (lo (F := F)) (ix1 a) = FloatOps.ofBits .f32 (loW a) := by
  fin_cases a <;> rfl

theorem hi_apply (a : Fin 3) : hi (ix1 a) = hiW a := by
  fin_cases a <;> rfl

theorem gc_apply (p : FVec F S8000000x3 .f32) (n : Fin 8000000) (a : Fin 3) : gc p (ix2 n a) = gcS (p (ix2 n a)) a := by
  unfold gc gcS
  show FloatOps.hostDivf (FloatOps.subf (p (ix2 n a)) (broadcastInDim S8000000x3 ![0, 1] _ (broadcastInDim S1x3 ![1] _ lo) (ix2 n a))) _ = _
  rw [table_apply, lo_apply]
  rfl
abbrev gd := gather_S205x205x13x3_S8000000x3_S8000000x3_1_012_n_n_012_1_1113

theorem siIdx_eq (n : Fin 8000000) (ch : Fin 3) (k : Fin 3) :
    gd.siIdx (ix2 n ch : S8000000x3.Idx) (k.cast (by rfl)) = (ix2 n k : S8000000x3.Idx) := by
  funext b; refine Fin.ext ?_
  match b with
  | ⟨0, _⟩ => rfl
  | ⟨1, _⟩ => rfl

theorem opIdx_collapsed (idx : IVec S8000000x3 32) (n : Fin 8000000) (ch : Fin 3) (a : Fin 4) (k : Fin 3)
    (hc : a ∈ gd.collapsedSliceDims) (hs : a ∈ gd.startIndexMap) (hk : gd.startIndexMap.idxOf a = k.val) :
    (gd.operandIdx (ix2 n ch : S8000000x3.Idx) idx a).val
      = min (idx (ix2 n k)).toInt.toNat (S205x205x13x3.size a - gd.sliceSizes a) := by
  show gd.start (ix2 n ch) idx a + gd.batchCoord (ix2 n ch) a + gd.offCoord (ix2 n ch) a = _
  rw [GatherDims.batchCoord_eq_zero _ _ _ List.not_mem_nil,
    GatherDims.offCoord_eq_zero _ _ _ (fun h => ((GatherDims.mem_sKept _ _).mp h).1 hc)]
  unfold GatherDims.start
  rw [dif_pos hs]
  simp only [Nat.add_zero]
  congr 3
  have := siIdx_eq n ch k
  rw [← this]
  congr 1
  exact congrArg _ (Fin.ext hk)

theorem gather_apply (g : S205x205x13x3.Idx → α) (idx : IVec S8000000x3 32) (n : Fin 8000000) (ch : Fin 3) :
    Host.gather gd g idx (ix2 n ch)
      = g (ix4 ⟨min (idx (ix2 n 0)).toInt.toNat 204, by omega⟩ ⟨min (idx (ix2 n 1)).toInt.toNat 204, by omega⟩
            ⟨min (idx (ix2 n 2)).toInt.toNat 12, by omega⟩ ch) := by
  unfold Host.gather
  congr 1
  funext a; refine Fin.ext ?_
  match a with
  | ⟨0, _⟩ => exact opIdx_collapsed idx n ch 0 0 (by decide) (by decide) (by decide)
  | ⟨1, _⟩ => exact opIdx_collapsed idx n ch 1 1 (by decide) (by decide) (by decide)
  | ⟨2, _⟩ => exact opIdx_collapsed idx n ch 2 2 (by decide) (by decide) (by decide)
  | ⟨3, _⟩ =>
    show gd.start (ix2 n ch) idx 3 + gd.batchCoord (ix2 n ch) 3 + gd.offCoord (ix2 n ch) 3 = _
    rw [GatherDims.batchCoord_eq_zero _ _ _ List.not_mem_nil]
    unfold GatherDims.start
    rw [dif_neg (by decide)]
    unfold GatherDims.offCoord
    rw [dif_pos (by decide)]
    simp only [Nat.zero_add]
    rfl

theorem f0_apply (p : FVec F S8000000x3 .f32) (n : Fin 8000000) (a : Fin 3) : f0 p (ix2 n a) = f0S (p (ix2 n a)) a := by
  unfold f0 f0S
  show FloatOps.fptosi 32 (FloatOps.hostUnary .floor (gc p (ix2 n a))) = _
  rw [gc_apply]

theorem clip_apply (x : IVec S8000000x3 32) (n : Fin 8000000) (a : Fin 3) : clip x (ix2 n a) = clipS a (x (ix2 n a)) := by
  unfold clip clipS
  show IntOp.minsi (broadcastInDim S8000000x3 ![0, 1] _ (broadcastInDim S1x3 ![1] _ hi) (ix2 n a)) (IntOp.maxsi 0#32 (x (ix2 n a))) = _
  rw [table_apply, hi_apply]

theorem i0_apply (p : FVec F S8000000x3 .f32) (n : Fin 8000000) (a : Fin 3) : i0 p (ix2 n a) = i0S (p (ix2 n a)) a := by
  unfold i0 i0S; rw [clip_apply, f0_apply]

theorem i1_apply (p : FVec F S8000000x3 .f32) (n : Fin 8000000) (a : Fin 3) : i1 p (ix2 n a) = i1S (p (ix2 n a)) a := by
  unfold i1 i1S; rw [clip_apply]
  show clipS a (IntOp.addi (f0 p (ix2 n a)) 1#32) = _
  rw [f0_apply]

theorem frac_apply (p : FVec F S8000000x3 .f32) (n : Fin 8000000) (a : Fin 3) : frac p (ix2 n a) = fracS (p (ix2 n a)) a := by
  unfold frac fracS
  show FloatOps.subf (gc p (ix2 n a)) (FloatOps.sitofp .f32 (i0 p (ix2 n a))) = _
  rw [gc_apply, i0_apply]

/-- Column `k` cut out of an [n, 3] array, read at row `n`. -/
theorem col_apply (k : Fin 3) (x : S8000000x3.Idx → α) (h : S8000000x3.Slices ![0, k.val] S8000000x1) (n : Fin 8000000) :
    extractStridedSlice S8000000x1 ![0, k.val] x h (ix2 n (0 : Fin 1)) = x (ix2 n k) :=
  extractStridedSlice_apply _ x h _ (ix2 n k) fun d => by
    match d with
    | ⟨0, _⟩ => exact (Nat.zero_add _).symm
    | ⟨1, _⟩ => rfl

theorem fcol0_apply (x : FVec F S8000000x3 .f32) (n : Fin 8000000) : fcol0 x (ix2 n (0 : Fin 1)) = x (ix2 n 0) := col_apply 0 x _ n
theorem fcol1_apply (x : FVec F S8000000x3 .f32) (n : Fin 8000000) : fcol1 x (ix2 n (0 : Fin 1)) = x (ix2 n 1) := col_apply 1 x _ n
theorem fcol2_apply (x : FVec F S8000000x3 .f32) (n : Fin 8000000) : fcol2 x (ix2 n (0 : Fin 1)) = x (ix2 n 2) := col_apply 2 x _ n

/-- A one-column array flattened to a vector, read at `n`. -/
theorem flat_apply (v : S8000000x1.Idx → α) (n : Fin 8000000) :
    shapeCast S8000000 v Facts₀.shapeCasts_S8000000x1_S8000000 (ix1 n) = v (ix2 n (0 : Fin 1)) :=
  shapeCast_apply v _ _ _ (by rw [Shape.rowMajor_val_two, Shape.rowMajor_val_one]; show n.val * 1 + 0 = n.val; omega)

theorem icol0_apply (x : IVec S8000000x3 32) (n : Fin 8000000) : icol0 x (ix1 n) = x (ix2 n 0) := by
  unfold icol0; rw [flat_apply]; exact col_apply 0 x _ n
theorem icol1_apply (x : IVec S8000000x3 32) (n : Fin 8000000) : icol1 x (ix1 n) = x (ix2 n 1) := by
  unfold icol1; rw [flat_apply]; exact col_apply 1 x _ n
theorem icol2_apply (x : IVec S8000000x3 32) (n : Fin 8000000) : icol2 x (ix1 n) = x (ix2 n 2) := by
  unfold icol2; rw [flat_apply]; exact col_apply 2 x _ n

/-- Counting a non-negative index from the end changes nothing. -/
theorem wrap_apply_of_nonneg (N : BitVec 32) (x : IVec S8000000 32) (n : Fin 8000000) (h : 0 ≤ (x (ix1 n)).toInt) :
    wrap N x (ix1 n) = x (ix1 n) := by
  unfold wrap
  show Scalar.select (IntOp.cmpi .slt (x (ix1 n)) 0#32) _ _ = _
  have : IntOp.cmpi .slt (x (ix1 n)) 0#32 = 0#1 := by
    unfold IntOp.cmpi
    have h0 : (0#32 : BitVec 32).toInt = 0 := by decide
    have : (x (ix1 n)).slt 0#32 = false := by
      simp only [BitVec.slt, decide_eq_false_iff_not]; omega
    rw [this]; rfl
  rw [this]; rfl

/-- A vector stood up as a one-column array, read at row `n`. -/
theorem stand_apply (v : S8000000.Idx → α) (n : Fin 8000000) :
    broadcastInDim S8000000x1 ![0] Facts₀.bcast_S8000000_S8000000x1_0 v (ix2 n (0 : Fin 1)) = v (ix1 n) :=
  broadcastInDim_apply _ _ _ _ (ix1 n) (fun d => by match d with | ⟨0, _⟩ => rfl)

theorem cornerIdx_apply0 (x y z : IVec S8000000 32) (n : Fin 8000000) : cornerIdx x y z (ix2 n 0) = wrap 205#32 x (ix1 n) := by
  unfold cornerIdx
  exact (Cert.ReferenceIdeal.Stages.cat3_first _ _ _ _ n (0 : Fin 1) (by decide)).trans (stand_apply _ n)
theorem cornerIdx_apply1 (x y z : IVec S8000000 32) (n : Fin 8000000) : cornerIdx x y z (ix2 n 1) = wrap 205#32 y (ix1 n) := by
  unfold cornerIdx
  exact (Cert.ReferenceIdeal.Stages.cat3_second _ _ _ _ n (0 : Fin 1) (by decide)).trans (stand_apply _ n)
theorem cornerIdx_apply2 (x y z : IVec S8000000 32) (n : Fin 8000000) : cornerIdx x y z (ix2 n 2) = wrap 13#32 z (ix1 n) := by
  unfold cornerIdx
  exact (Cert.ReferenceIdeal.Stages.cat3_third _ _ _ _ n (0 : Fin 1) (by decide)).trans (stand_apply _ n)

/-- One corner of the cell, for index vectors that are non-negative at `n`. -/
theorem corner_apply (g : FVec F S205x205x13x3 .f32) (x y z : IVec S8000000 32) (n : Fin 8000000) (ch : Fin 3)
    (hx : 0 ≤ (x (ix1 n)).toInt) (hy : 0 ≤ (y (ix1 n)).toInt) (hz : 0 ≤ (z (ix1 n)).toInt) :
    corner g x y z (ix2 n ch) = cell g (x (ix1 n)) (y (ix1 n)) (z (ix1 n)) ch := by
  unfold corner
  rw [gather_apply]
  show cell g (cornerIdx x y z (ix2 n 0)) (cornerIdx x y z (ix2 n 1)) (cornerIdx x y z (ix2 n 2)) ch = _
  rw [cornerIdx_apply0, cornerIdx_apply1, cornerIdx_apply2, wrap_apply_of_nonneg _ _ _ hx, wrap_apply_of_nonneg _ _ _ hy,
    wrap_apply_of_nonneg _ _ _ hz]

/-- A one-column array repeated over the three channels. -/
theorem spread_apply (v : S8000000x1.Idx → α) (n : Fin 8000000) (ch : Fin 3) :
    broadcastInDim S8000000x3 ![0, 1] Facts₀.bcast_S8000000x1_S8000000x3_0_1 v (ix2 n ch) = v (ix2 n (0 : Fin 1)) :=
  broadcastInDim_apply _ _ _ _ (ix2 n (0 : Fin 1)) (fun d => by match d with | ⟨0, _⟩ => rfl | ⟨1, _⟩ => rfl)

theorem lerp_apply (a b : FVec F S8000000x3 .f32) (w : FVec F S8000000x1 .f32) (n : Fin 8000000) (ch : Fin 3) :
    lerp a b w (ix2 n ch) = lerpS (a (ix2 n ch)) (b (ix2 n ch)) (w (ix2 n (0 : Fin 1))) := by
  unfold lerp lerpS
  show FloatOps.addf (FloatOps.mulf (a (ix2 n ch)) (broadcastInDim S8000000x3 _ Facts₀.bcast_S8000000x1_S8000000x3_0_1 _ (ix2 n ch)))
    (FloatOps.mulf (b (ix2 n ch)) (broadcastInDim S8000000x3 _ Facts₀.bcast_S8000000x1_S8000000x3_0_1 w (ix2 n ch))) = _
  rw [spread_apply, spread_apply]
  rfl

/-- THE REFERENCE, entry by entry: the trilinear interpolation of the specification. -/
theorem result_apply (p : FVec F S8000000x3 .f32) (g : FVec F S205x205x13x3 .f32) (n : Fin 8000000) (ch : Fin 3) :
    result p g (ix2 n ch) = Cert.Spec.out p g n ch := by
  have hx0 : 0 ≤ (icol0 (i0 p) (ix1 n)).toInt := by rw [icol0_apply, i0_apply]; exact (clipS_range _ _).1
  have hy0 : 0 ≤ (icol1 (i0 p) (ix1 n)).toInt := by rw [icol1_apply, i0_apply]; exact (clipS_range _ _).1
  have hz0 : 0 ≤ (icol2 (i0 p) (ix1 n)).toInt := by rw [icol2_apply, i0_apply]; exact (clipS_range _ _).1
  have hx1 : 0 ≤ (icol0 (i1 p) (ix1 n)).toInt := by rw [icol0_apply, i1_apply]; exact (clipS_range _ _).1
  have hy1 : 0 ≤ (icol1 (i1 p) (ix1 n)).toInt := by rw [icol1_apply, i1_apply]; exact (clipS_range _ _).1
  have hz1 : 0 ≤ (icol2 (i1 p) (ix1 n)).toInt := by rw [icol2_apply, i1_apply]; exact (clipS_range _ _).1
  unfold result Cert.Spec.out
  simp only [lerp_apply, fcol0_apply, fcol1_apply, fcol2_apply, frac_apply,
    corner_apply g _ _ _ n ch hx0 hy0 hz0, corner_apply g _ _ _ n ch hx1 hy0 hz0,
    corner_apply g _ _ _ n ch hx0 hy1 hz0, corner_apply g _ _ _ n ch hx1 hy1 hz0,
    corner_apply g _ _ _ n ch hx0 hy0 hz1, corner_apply g _ _ _ n ch hx1 hy0 hz1,
    corner_apply g _ _ _ n ch hx0 hy1 hz1, corner_apply g _ _ _ n ch hx1 hy1 hz1,
    icol0_apply, icol1_apply, icol2_apply, i0_apply, i1_apply]

end Cert.ReferenceIdeal.Hand

end
-- ==== Proof.lean ====
/-
  Trilinear interpolation of a voxel grid at eight million points: a kernel that gathers the eight corners of each
  point's cell on the host (through a flat cell index into the grid flattened channel-first), stacks them with the
  fractional offsets into a 27-row slab and interpolates inside one region, against a reference that gathers the
  corners with three indices and interpolates on point-major arrays.

  Both programs apply the same scalar operations to each point: the coordinate moved to grid units, its floor clamped
  to the lower and upper cell indices, the offset from the lower index, and three nested linear interpolations.  The
  proof reads each program entry by entry (point `n`, channel `ch`) and finds the same expression `Spec.out p g n ch`:
  for the reference through its stages; for the kernel through the host prefix (the slab), the region (each block of
  the result is the body's value on the matching block of the slab, and the blocks cover the array) and the final
  transpose.  The one fact beyond layout is that the clamped indices lie inside the grid, so that the flat index
  x·2665 + y·13 + z does not wrap, names the cell (x, y, z) and passes the kernel's range mask, and the reference's
  negative-index normalisation is the identity.  Nothing depends on the interpretation of the float operations, and the
  finiteness precondition is not used.  The three frames are the programs' runs with the results forgotten.
-/
import proofs.«147916_j62354335203431_2_alg».proof.Defs
import proofs.«147916_j62354335203431_2_alg».proof.Proof.Gen.Kernel
import proofs.«147916_j62354335203431_2_alg».proof.Proof.Gen.KernelIdeal
import proofs.«147916_j62354335203431_2_alg».proof.Proof.Gen.ReferenceIdeal
import proofs.«147916_j62354335203431_2_alg».proof.Proof.Gen.Pre_finite_inputs
import proofs.«147916_j62354335203431_2_alg».proof.Proof.FrameBits
import proofs.«147916_j62354335203431_2_alg».proof.Proof.FrameIdeal
import proofs.«147916_j62354335203431_2_alg».proof.Proof.KerSlab
import proofs.«147916_j62354335203431_2_alg».proof.Proof.KerBlocks
import proofs.«147916_j62354335203431_2_alg».proof.Proof.KerFinal
import proofs.«147916_j62354335203431_2_alg».proof.Proof.RefRun
import proofs.«147916_j62354335203431_2_alg».proof.Proof.RefValue

noncomputable section

namespace Cert.Proof

open Idealize.ShloMosaic Idealize.ShloMosaic.TcCoe Idealize.SL.Sem Idealize.ShloMosaic.ValueIdx

theorem frame_kernel : Cert.frame_Kernel := fun m ρ _ => Cert.Kernel.Hand.frame m ρ

theorem frame_kernelIdeal : Cert.frame_KernelIdeal := fun m ρ _ => Cert.KernelIdeal.Hand.frame m ρ

theorem frame_referenceIdeal : Cert.frame_ReferenceIdeal := fun m ρ _ => Cert.ReferenceIdeal.Hand.frame m ρ

/-- Run from memories that agree on the points and the grid, the idealized kernel and the idealized reference end with
    the same array: entry (n, ch) of either is the specification's value for point `n` and channel `ch`. -/
theorem algebraic : Cert.algebraic_KernelIdeal_ReferenceIdeal := by
  intro m ρ m' ρ' _ hagree
  refine ⟨fun c => (transpose Cert.KernelIdeal.S8000000x3 [1, 0]
      (Cert.KernelIdeal.Hand.kernelOut (F := Ideal) (Cert.KernelIdeal.Hand.slab
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))))
      Cert.KernelIdeal.Facts₀.transposes_S3x8000000_S8000000x3_1_0 : FVec Ideal Cert.KernelIdeal.S8000000x3 .f32), ?_, ?_⟩
  · refine (θ_run Cert.KernelIdeal.defs _ _).mono (fun _ h c => ⟨(h c).1.trans ?_, (h c).2⟩)
      (Cert.KernelIdeal.Hand.run_array (F := Ideal) m ρ)
    rw [Cert.KernelIdeal.Hand.V_slab, Cert.KernelIdeal.Hand.kernelBlocks_eq]
  · refine (θ_run Cert.ReferenceIdeal.defs _ _).mono (fun _ h c => ⟨(h c).1.trans ?_, (h c).2⟩)
      (Cert.ReferenceIdeal.Hand.run (F := Ideal) m' ρ')
    rw [(hagree c).1, (hagree c).2]
    funext j
    obtain ⟨n, ch, rfl⟩ : ∃ (n : Fin 8000000) (ch : Fin 3), j = ix2 n ch := ⟨j 0, j 1, eq_ix2 j⟩
    exact (Cert.ReferenceIdeal.Hand.result_apply _ _ n ch).trans (Cert.KernelIdeal.Hand.kernel_apply _ _ n ch).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
